-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v9_1)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v9_1) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x1 : Shape := ⟨2, ![262144, 1]⟩
abbrev S262144 : Shape := ⟨1, ![262144]⟩
abbrev S512x128 : Shape := ⟨2, ![512, 128]⟩
abbrev S512 : Shape := ⟨1, ![512]⟩
abbrev S1x128 : Shape := ⟨2, ![1, 128]⟩
abbrev S1 : Shape := ⟨1, ![1]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x1 : S_.BroadcastsInDim S262144x1 (![] : Fin 0 → Fin S262144x1.rank)
  reducesTo_S262144x1_S_d0_1 : S262144x1.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S512 .f32) (main_arg9 : FVec F S512 .f32) (main_arg10 : FVec F S1x128 .f32) (main_arg11 : FVec F S1 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1x128 .f32 := Host.absf main_arg10
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S262144x1 .f32) (main_arg6 : FVec F S512x128 .f32) (main_arg7 : FVec F S512x128 .f32) (main_arg8 : FVec F S512 .f32) (main_arg9 : FVec F S512 .f32) (main_arg10 : FVec F S1x128 .f32) (main_arg11 : FVec F S1 .f32) (main_v13 : IVec S_ 1) (main_v16 : IVec S262144x128 1) : IVec S_ 1 :=
  let main_c_5 : IVec S_ 1 := constantI S_ 1 1#1
  let main_v17 : IVec S_ 1 := (fun x v => Host.reduce IntOp.andi x v reducesTo_S262144x128_S_d0_1 h_S_) main_v16 main_c_5
  let main_v18 : IVec S_ 1 := andi main_v13 main_v17
  let main_v19 : FVec F S262144x1 .f32 := Host.absf main_arg4
  let main_cst_6 : FVec F S_ .f32 := constant S_ .f32 0x7F800000#32
  let main_v20 : FVec F S262144x1 .f32 := broadcastInDim S262144x1 ![] bcast_S_S262144x1 main_cst_6
  let main_v21 : IVec S262144x1 1 := cmpf .olt main_v19 main_v20
  let main_c_7 : IVec S_ 1 := constantI S_ 1 1#1
  let main_v22 : IVec S_ 1 := (fun x v => Host.reduce IntOp.andi x v reducesTo_S262144x1_S_d0_1 h_S_) main_v21 main_c_7
  let main_v23 : IVec S_ 1 := andi main_v18 main_v22
  let main_v24 : FVec F S512x128 .f32 := Host.absf main_arg6
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S512x128 .f32 := Host.absf main_arg7
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S262144x128 .f32) (main_arg1 : FVec F S262144x1 .f32) (main_arg2 : FVec F S262144x128 .f32) (main_arg3 : FVec F S262144x128 .f32) (main_arg4 : FVec F S262144x1 .f32) (main_arg5 : IVec S262144 1) (main_arg6 : FVec F S512x128 .f32) (main_arg7 : FVec F S512x128 .f32) (main_arg8 : FVec F S512 .f32) (main_arg9 : FVec F S512 .f32) (main_arg10 : FVec F S1x128 .f32) (main_arg11 : FVec F S1 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x1 .f32 := Host.absf main_arg1
  let main_cst_0 : FVec F S_ .f32 := constant S_ .f32 0x7F800000#32
  let main_v5 : FVec F S262144x1 .f32 := broadcastInDim S262144x1 ![] bcast_S_S262144x1 main_cst_0
  let main_v6 : IVec S262144x1 1 := cmpf .olt main_v4 main_v5
  let main_c_1 : IVec S_ 1 := constantI S_ 1 1#1
  let main_v7 : IVec S_ 1 := (fun x v => Host.reduce IntOp.andi x v reducesTo_S262144x1_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S262144x128 .f32 := Host.absf main_arg3
  let main_cst_4 : FVec F S_ .f32 := constant S_ .f32 0x7F800000#32
  let main_v15 : FVec F S262144x128 .f32 := broadcastInDim S262144x128 ![] bcast_S_S262144x128 main_cst_4
  let main_v16 : IVec S262144x128 1 := cmpf .olt main_v14 main_v15
  fn_part1 (F := F) main_arg4 main_arg6 main_arg7 main_arg8 main_arg9 main_arg10 main_arg11 main_v13 main_v16
-- ==== Kernel.lean ====
abbrev S262144x128 : Shape := ⟨2, ![262144, 128]⟩
abbrev S262144x1 : Shape := ⟨2, ![262144, 1]⟩
abbrev S262144 : Shape := ⟨1, ![262144]⟩
abbrev S512x128 : Shape := ⟨2, ![512, 128]⟩
abbrev S512 : Shape := ⟨1, ![512]⟩
abbrev S1x128 : Shape := ⟨2, ![1, 128]⟩
abbrev S1 : Shape := ⟨1, ![1]⟩
abbrev S262144x3 : Shape := ⟨2, ![262144, 3]⟩
abbrev S1x512 : Shape := ⟨2, ![1, 512]⟩
abbrev S1x1 : Shape := ⟨2, ![1, 1]⟩
abbrev S2048x128 : Shape := ⟨2, ![2048, 128]⟩
abbrev S2048x3 : Shape := ⟨2, ![2048, 3]⟩
abbrev S2048x1 : Shape := ⟨2, ![2048, 1]⟩
abbrev S128x128 : Shape := ⟨2, ![128, 128]⟩
abbrev S128x1 : Shape := ⟨2, ![128, 1]⟩

abbrev nBuf : Space → Nat
  | .hbm => 27
  | .vmem => 20
  | .smem => 0
  | _ => 0

abbrev bufTy : (tb : Table) → Fin (tcTables nBuf tb) → BufTy
  | .hbm, ⟨0, _⟩ => ⟨S262144x128, .f32⟩
  | .hbm, ⟨1, _⟩ => ⟨S262144x1, .f32⟩
  | .hbm, ⟨2, _⟩ => ⟨S262144x128, .f32⟩
  | .hbm, ⟨3, _⟩ => ⟨S262144x128, .f32⟩
  | .hbm, ⟨4, _⟩ => ⟨S262144x1, .f32⟩
  | .hbm, ⟨5, _⟩ => ⟨S262144, .i1⟩
  | .hbm, ⟨6, _⟩ => ⟨S512x128, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S1x128, .f32⟩
  | .hbm, ⟨11, _⟩ => ⟨S1, .f32⟩
  | .hbm, ⟨12, _⟩ => ⟨S262144, .f32⟩
  | .hbm, ⟨13, _⟩ => ⟨S262144x1, .f32⟩
  | .hbm, ⟨14, _⟩ => ⟨S262144x3, .f32⟩
  | .hbm, ⟨15, _⟩ => ⟨S1x512, .f32⟩
  | .hbm, ⟨16, _⟩ => ⟨S1x512, .f32⟩
  | .hbm, ⟨17, _⟩ => ⟨S1x1, .f32⟩
  | .hbm, ⟨18, _⟩ => ⟨S512x128, .bf16⟩
  | .hbm, ⟨19, _⟩ => ⟨S512x128, .bf16⟩
  | .hbm, ⟨20, _⟩ => ⟨S1x128, .bf16⟩
  | .hbm, ⟨21, _⟩ => ⟨S262144x128, .f32⟩
  | .hbm, ⟨22, _⟩ => ⟨S262144x128, .f32⟩
  | .hbm, ⟨23, _⟩ => ⟨S262144x3, .f32⟩
  | .hbm, ⟨24, _⟩ => ⟨S262144x1, .f32⟩
  | .hbm, ⟨25, _⟩ => ⟨S262144x1, .f32⟩
  | .hbm, ⟨26, _⟩ => ⟨S262144x1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x3, .f32⟩
  | .local _ .vmem, ⟨7, _⟩ => ⟨S2048x3, .f32⟩
  | .local _ .vmem, ⟨8, _⟩ => ⟨S512x128, .bf16⟩
  | .local _ .vmem, ⟨9, _⟩ => ⟨S512x128, .bf16⟩
  | .local _ .vmem, ⟨10, _⟩ => ⟨S1x512, .f32⟩
  | .local _ .vmem, ⟨11, _⟩ => ⟨S1x512, .f32⟩
  | .local _ .vmem, ⟨12, _⟩ => ⟨S1x128, .bf16⟩
  | .local _ .vmem, ⟨13, _⟩ => ⟨S1x1, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x3, .f32⟩
  | .local _ .vmem, ⟨19, _⟩ => ⟨S2048x3, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S262144_S262144x1 : S262144.ShapeCasts S262144x1
  concatenates_S262144x1_S262144x1_S262144x1_S262144x3_d1 : Shape.Concatenates [S262144x1, S262144x1, S262144x1] S262144x3 1
  shapeCasts_S512_S1x512 : S512.ShapeCasts S1x512
  shapeCasts_S1_S1x1 : S1.ShapeCasts S1x1
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S512x128_o0_0_S128x128 : S512x128.Slices ![0, 0] S128x128
  slices_S1x512_o0_0_S1x128 : S1x512.Slices ![0, 0] S1x128
  transposes_S128x128_p1_0_S128x128 : S128x128.Transposes [1, 0] S128x128
  broadcasts_S1x128_S2048x128 : S1x128.Broadcasts S2048x128
  slices_S512x128_o128_0_S128x128 : S512x128.Slices ![128, 0] S128x128
  slices_S1x512_o0_128_S1x128 : S1x512.Slices ![0, 128] S1x128
  slices_S512x128_o256_0_S128x128 : S512x128.Slices ![256, 0] S128x128
  slices_S1x512_o0_256_S1x128 : S1x512.Slices ![0, 256] S1x128
  slices_S512x128_o384_0_S128x128 : S512x128.Slices ![384, 0] S128x128
  slices_S1x512_o0_384_S1x128 : S1x512.Slices ![0, 384] S1x128
  broadcasts_S2048x1_S2048x128 : S2048x1.Broadcasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  transposes_S1x128_p1_0_S128x1 : S1x128.Transposes [1, 0] S128x1
  broadcasts_S1x1_S2048x1 : S1x1.Broadcasts S2048x1
  concatenates_S2048x1_S2048x1_S2048x1_S2048x3_d1 : Shape.Concatenates [S2048x1, S2048x1, S2048x1] S2048x3 1
  slices_S262144x3_S262144x1_0_0 : S262144x3.Slices ![0, 0] S262144x1
  slices_S262144x3_S262144x1_0_1 : S262144x3.Slices ![0, 1] S262144x1
  slices_S262144x3_S262144x1_0_2 : S262144x3.Slices ![0, 2] S262144x1
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x3.size a ≤ S262144x3.size a
  hwx0_3 : ∀ i : grid0.Coords, EltTy.bits .f32 = 32 ∨ (Rect.block (s := S262144x3) S2048x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .bf16 = 32 ∨ (Rect.block (s := S512x128) S512x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .bf16 = 32 ∨ (Rect.block (s := S512x128) S512x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .bf16 = 32 ∨ (Rect.block (s := S1x128) S1x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S262144x128.size a
  hwx0_10 : ∀ i : grid0.Coords, EltTy.bits .f32 = 32 ∨ (Rect.block (s := S262144x128) S2048x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x128.size a ≤ S262144x128.size a
  hwx0_11 : ∀ i : grid0.Coords, EltTy.bits .f32 = 32 ∨ (Rect.block (s := S262144x128) S2048x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x3.size a ≤ S262144x3.size a
  hwx0_12 : ∀ i : grid0.Coords, EltTy.bits .f32 = 32 ∨ (Rect.block (s := S262144x3) S2048x3.size (cc0_transform_12 i) (hinb0_12 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9_0) S2048x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_1) S2048x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_2) S2048x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144x1 : Shape := ⟨2, ![262144, 1]⟩
abbrev S262144 : Shape := ⟨1, ![262144]⟩
abbrev S512x128 : Shape := ⟨2, ![512, 128]⟩
abbrev S512 : Shape := ⟨1, ![512]⟩
abbrev S1x128 : Shape := ⟨2, ![1, 128]⟩
abbrev S1 : Shape := ⟨1, ![1]⟩
abbrev S128x512 : Shape := ⟨2, ![128, 512]⟩
abbrev S262144x512 : Shape := ⟨2, ![262144, 512]⟩
abbrev S1x512 : Shape := ⟨2, ![1, 512]⟩
abbrev S_ : Shape := ⟨0, ![]⟩
abbrev S128x1 : Shape := ⟨2, ![128, 1]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x1, .f32⟩
  | .hbm, ⟨2, _⟩ => ⟨S262144x128, .f32⟩
  | .hbm, ⟨3, _⟩ => ⟨S262144x128, .f32⟩
  | .hbm, ⟨4, _⟩ => ⟨S262144x1, .f32⟩
  | .hbm, ⟨5, _⟩ => ⟨S262144, .i1⟩
  | .hbm, ⟨6, _⟩ => ⟨S512x128, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S1x128, .f32⟩
  | .hbm, ⟨11, _⟩ => ⟨S1, .f32⟩
  | .hbm, ⟨12, _⟩ => ⟨S262144x1, .f32⟩
  | .hbm, ⟨13, _⟩ => ⟨S262144x1, .f32⟩
  | .hbm, ⟨14, _⟩ => ⟨S262144x1, .f32⟩
  | .hbm, ⟨15, _⟩ => ⟨S128x512, .f32⟩
  | .hbm, ⟨16, _⟩ => ⟨S262144x512, .f32⟩
  | .hbm, ⟨17, _⟩ => ⟨S1x512, .f32⟩
  | .hbm, ⟨18, _⟩ => ⟨S262144x512, .f32⟩
  | .hbm, ⟨19, _⟩ => ⟨S262144x512, .f32⟩
  | .hbm, ⟨20, _⟩ => ⟨S128x512, .f32⟩
  | .hbm, ⟨21, _⟩ => ⟨S262144x512, .f32⟩
  | .hbm, ⟨22, _⟩ => ⟨S262144x512, .f32⟩
  | .hbm, ⟨23, _⟩ => ⟨S1x512, .f32⟩
  | .hbm, ⟨24, _⟩ => ⟨S262144x512, .f32⟩
  | .hbm, ⟨25, _⟩ => ⟨S262144x512, .f32⟩
  | .hbm, ⟨26, _⟩ => ⟨S262144x128, .f32⟩
  | .hbm, ⟨27, _⟩ => ⟨S262144x128, .f32⟩
  | .hbm, ⟨28, _⟩ => ⟨S262144x128, .f32⟩
  | .hbm, ⟨29, _⟩ => ⟨S262144x128, .f32⟩
  | .hbm, ⟨30, _⟩ => ⟨S262144x128, .f32⟩
  | .hbm, ⟨31, _⟩ => ⟨S262144x128, .f32⟩
  | .hbm, ⟨32, _⟩ => ⟨S_, .f32⟩
  | .hbm, ⟨33, _⟩ => ⟨S262144x128, .f32⟩
  | .hbm, ⟨34, _⟩ => ⟨S262144x128, .f32⟩
  | .hbm, ⟨35, _⟩ => ⟨S_, .f32⟩
  | .hbm, ⟨36, _⟩ => ⟨S262144x128, .f32⟩
  | .hbm, ⟨37, _⟩ => ⟨S262144x128, .f32⟩
  | .hbm, ⟨38, _⟩ => ⟨S262144x128, .f32⟩
  | .hbm, ⟨39, _⟩ => ⟨S262144x128, .f32⟩
  | .hbm, ⟨40, _⟩ => ⟨S_, .f32⟩
  | .hbm, ⟨41, _⟩ => ⟨S262144x128, .f32⟩
  | .hbm, ⟨42, _⟩ => ⟨S262144x128, .f32⟩
  | .hbm, ⟨43, _⟩ => ⟨S_, .f32⟩
  | .hbm, ⟨44, _⟩ => ⟨S262144x128, .f32⟩
  | .hbm, ⟨45, _⟩ => ⟨S262144x128, .f32⟩
  | .hbm, ⟨46, _⟩ => ⟨S262144x128, .f32⟩
  | .hbm, ⟨47, _⟩ => ⟨S262144x128, .f32⟩
  | .hbm, ⟨48, _⟩ => ⟨S262144x128, .f32⟩
  | .hbm, ⟨49, _⟩ => ⟨S_, .f32⟩
  | .hbm, ⟨50, _⟩ => ⟨S262144x128, .f32⟩
  | .hbm, ⟨51, _⟩ => ⟨S262144x128, .f32⟩
  | .hbm, ⟨52, _⟩ => ⟨S_, .f32⟩
  | .hbm, ⟨53, _⟩ => ⟨S262144x128, .f32⟩
  | .hbm, ⟨54, _⟩ => ⟨S262144x128, .f32⟩
  | .hbm, ⟨55, _⟩ => ⟨S262144x128, .f32⟩
  | .hbm, ⟨56, _⟩ => ⟨S262144x128, .f32⟩
  | .hbm, ⟨57, _⟩ => ⟨S262144x128, .f32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S262144x128, .f32⟩
  | .hbm, ⟨62, _⟩ => ⟨S262144x128, .f32⟩
  | .hbm, ⟨63, _⟩ => ⟨S262144x128, .f32⟩
  | .hbm, ⟨64, _⟩ => ⟨S128x1, .f32⟩
  | .hbm, ⟨65, _⟩ => ⟨S262144x1, .f32⟩
  | .hbm, ⟨66, _⟩ => ⟨S1x1, .f32⟩
  | .hbm, ⟨67, _⟩ => ⟨S262144x1, .f32⟩
  | .hbm, ⟨68, _⟩ => ⟨S262144x1, .f32⟩
  | .hbm, ⟨69, _⟩ => ⟨S262144x1, .f32⟩
  | .hbm, ⟨70, _⟩ => ⟨S262144x1, .f32⟩
  | .hbm, ⟨71, _⟩ => ⟨S_, .f32⟩
  | .hbm, ⟨72, _⟩ => ⟨S262144x1, .f32⟩
  | .hbm, ⟨73, _⟩ => ⟨S262144x1, .f32⟩
  | .hbm, ⟨74, _⟩ => ⟨S_, .f32⟩
  | .hbm, ⟨75, _⟩ => ⟨S262144x1, .f32⟩
  | .hbm, ⟨76, _⟩ => ⟨S262144x1, .f32⟩
  | .hbm, ⟨77, _⟩ => ⟨S262144x1, .f32⟩
  | .hbm, ⟨78, _⟩ => ⟨S_, .f32⟩
  | .hbm, ⟨79, _⟩ => ⟨S262144x1, .f32⟩
  | .hbm, ⟨80, _⟩ => ⟨S262144x1, .f32⟩
  | .hbm, ⟨81, _⟩ => ⟨S262144x128, .f32⟩
  | .hbm, ⟨82, _⟩ => ⟨S262144x128, .f32⟩
  | .hbm, ⟨83, _⟩ => ⟨S262144x128, .f32⟩
  | .hbm, ⟨84, _⟩ => ⟨S262144x128, .f32⟩
  | .hbm, ⟨85, _⟩ => ⟨S262144x1, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S262144x1, .f32⟩
  | .hbm, ⟨90, _⟩ => ⟨S262144x1, .f32⟩
  | .hbm, ⟨91, _⟩ => ⟨S_, .f32⟩
  | .hbm, ⟨92, _⟩ => ⟨S262144x1, .f32⟩
  | .hbm, ⟨93, _⟩ => ⟨S262144x1, .f32⟩
  | .hbm, ⟨94, _⟩ => ⟨S262144x1, .f32⟩
  | .hbm, ⟨95, _⟩ => ⟨S262144x1, .i1⟩
  | .hbm, ⟨96, _⟩ => ⟨S262144x1, .f32⟩
  | .hbm, ⟨97, _⟩ => ⟨S262144x128, .i1⟩
  | .hbm, ⟨98, _⟩ => ⟨S262144x128, .f32⟩
  | .hbm, ⟨99, _⟩ => ⟨S262144x128, .i1⟩
  | .hbm, ⟨100, _⟩ => ⟨S262144x128, .f32⟩
  | .hbm, ⟨101, _⟩ => ⟨S262144x1, .f32⟩
  | .hbm, ⟨102, _⟩ => ⟨S_, .f32⟩
  | .hbm, ⟨103, _⟩ => ⟨S262144x1, .f32⟩
  | .hbm, ⟨104, _⟩ => ⟨S262144x1, .f32⟩
  | .hbm, ⟨105, _⟩ => ⟨S262144x1, .f32⟩
  | .hbm, ⟨106, _⟩ => ⟨S_, .f32⟩
  | .hbm, ⟨107, _⟩ => ⟨S262144x1, .f32⟩
  | .hbm, ⟨108, _⟩ => ⟨S262144x1, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_8 : Ref sig .tc := ⟨.hbm, 86, rfl⟩
abbrev main_cst_9 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call3_v0 : Ref sig .tc := ⟨.hbm, 97, rfl⟩
abbrev main_v69 : Ref sig .tc := ⟨.hbm, 98, rfl⟩
abbrev main_call4_v0 : Ref sig .tc := ⟨.hbm, 99, rfl⟩
abbrev main_v70 : Ref sig .tc := ⟨.hbm, 100, rfl⟩
abbrev main_v71 : Ref sig .tc := ⟨.hbm, 101, rfl⟩
abbrev main_cst_10 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_11 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]

class Facts₀ : Prop where
  transposes_S512x128_S128x512_1_0 : S512x128.Transposes [1, 0] S128x512
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  slices_S262144x512_S262144x128_0_0 : S262144x512.Slices ![0, 0] S262144x128
  slices_S262144x512_S262144x128_0_128 : S262144x512.Slices ![0, 128] S262144x128
  slices_S262144x512_S262144x128_0_256 : S262144x512.Slices ![0, 256] S262144x128
  slices_S262144x512_S262144x128_0_384 : S262144x512.Slices ![0, 384] S262144x128
  bcast_S_S262144x128 : S_.BroadcastsInDim S262144x128 (![] : Fin 0 → Fin S262144x128.rank)
  bcast_S262144x1_S262144x128_0_1 : S262144x1.BroadcastsInDim S262144x128 (![0, 1] : Fin 2 → Fin S262144x128.rank)
  transposes_S1x128_S128x1_1_0 : S1x128.Transposes [1, 0] S128x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S_S262144x1 : S_.BroadcastsInDim S262144x1 (![] : Fin 0 → Fin S262144x1.rank)
  bcast_S262144_S262144x1_0 : S262144.BroadcastsInDim S262144x1 (![0] : Fin 1 → Fin S262144x1.rank)
  dot_S262144x128_S128x512_S262144x512_1_0_0_1_n_n_wf : DotDims.WF S262144x128 S128x512 S262144x512 [1] [0] [0] [1] [] []
  dot_S262144x128_S128x1_S262144x1_1_0_0_1_n_n_wf : DotDims.WF S262144x128 S128x1 S262144x1 [1] [0] [0] [1] [] []

variable [Facts₀]

def dot_S262144x128_S128x512_S262144x512_1_0_0_1_n_n : DotDims S262144x128 S128x512 S262144x512 where
  lhsContracting := [1]
  rhsContracting := [0]
  lhsNonContracting := [0]
  rhsNonContracting := [1]
  lhsBatch := []
  rhsBatch := []
  wf := dot_S262144x128_S128x512_S262144x512_1_0_0_1_n_n_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf

class Facts : Prop extends Facts₀ where

variable [Facts]
-- ==== Proof.Spec.lean ====
/-
  The mathematics both programs compute, stated once, index by index, on the extended reals.

  One row `r` of the batch carries an LSTM cell followed by a skip gate. With the four gate
  pre-activations
      pre r o = ((∑ i, x r i · W_ih o i) + b_ih o) + (∑ i, h r i · W_hh o i) + b_hh o      (o < 512),
  the cell is  nc = σ(pre₁)·c + σ(pre₀)·tanh(pre₂),  nh = σ(pre₃)·tanh(nc),  σ z = 1 / (1 + e^(-z)).
  The rounded gate  bu = roundeven(u)  scales the fresh state (nh·bu, nc·bu), an update value
  dun = σ((∑ j, nc·bu · lin_w j) + lin_b)  is formed from it, and the complementary factor
  keep = 1 - bu  scales the state carried over (h·keep, c·keep, clip(u + δu, 0, 1)·keep).
  The row's mask bit chooses between the carried and the fresh values, and the last result is
  ⌈½ / new_u⌉ - 1.

  Three laws join the two programs to this text:
  * a blend  s·a + (1 - s)·b  by the mask bit read as the number 0 or 1 IS the choice between
    a and b — for EVERY extended real a, b, because 0·a = 0 and 1·a = a there;
  * for a REAL u,  u + (R u - u) = R u  for any rounding R to an integer (this one needs u finite);
  * the float word of 1.0 denotes the number 1.
-/
import Idealize.ShloMosaic.PureOps.Ideal
import Idealize.ShloMosaic.PureOps.Ideal.Laws
import Idealize.ShloMosaic.Lib.ValueIdx

noncomputable section

open scoped BigOperators

namespace Cert.SkipCell

open Idealize.ShloMosaic Idealize.ShloMosaic.ValueIdx

/-- The argument arrays, by shape: x, h, c are [262144, 128]; u, δu are [262144, 1]; the mask is one
    bit per row; the two weight matrices are [512, 128], their biases [512]; the update layer's
    weight is [1, 128] and its bias [1]. -/
structure Args where
  x : (⟨2, ![262144, 128]⟩ : Shape).Idx → EReal
  u : (⟨2, ![262144, 1]⟩ : Shape).Idx → EReal
  h : (⟨2, ![262144, 128]⟩ : Shape).Idx → EReal
  c : (⟨2, ![262144, 128]⟩ : Shape).Idx → EReal
  du : (⟨2, ![262144, 1]⟩ : Shape).Idx → EReal
  sk : (⟨1, ![262144]⟩ : Shape).Idx → BitVec 1
  wi : (⟨2, ![512, 128]⟩ : Shape).Idx → EReal
  wh : (⟨2, ![512, 128]⟩ : Shape).Idx → EReal
  bi : (⟨1, ![512]⟩ : Shape).Idx → EReal
  bh : (⟨1, ![512]⟩ : Shape).Idx → EReal
  lw : (⟨2, ![1, 128]⟩ : Shape).Idx → EReal
  lb : (⟨1, ![1]⟩ : Shape).Idx → EReal

variable (A : Args)

/-- Row `o` of the stacked gates for batch row `r`: the two products and the two biases, associated as
    both programs associate them. -/
def pre (r : Fin 262144) (o : Fin 512) : EReal :=
  (((∑ i : Fin 128, A.x (ix2 r i) * A.wi (ix2 o i)) + A.bi (ix1 o))
    + ∑ i : Fin 128, A.h (ix2 r i) * A.wh (ix2 o i)) + A.bh (ix1 o)

/-- Column `j` of gate 0, 1, 2, 3 is row j, 128 + j, 256 + j, 384 + j of the stacked gates. -/
def o0 (j : Fin 128) : Fin 512 := ⟨j.val, by omega⟩
def o1 (j : Fin 128) : Fin 512 := ⟨128 + j.val, by omega⟩
def o2 (j : Fin 128) : Fin 512 := ⟨256 + j.val, by omega⟩
def o3 (j : Fin 128) : Fin 512 := ⟨384 + j.val, by omega⟩

/-- The logistic function as the quotient 1 / (1 + e^(-z)). -/
def sig (z : EReal) : EReal := Ideal.div 1 (1 + Ideal.exp (-z))

theorem sig_eq_logistic (z : EReal) : sig z = Ideal.logistic z := rfl

/-- The new cell state before gating. -/
def nc (r : Fin 262144) (j : Fin 128) : EReal :=
  sig (pre A r (o1 j)) * A.c (ix2 r j) + sig (pre A r (o0 j)) * Ideal.tanh (pre A r (o2 j))
/-- The new hidden state before gating. -/
def nh (r : Fin 262144) (j : Fin 128) : EReal :=
  sig (pre A r (o3 j)) * Ideal.tanh (nc A r j)
/-- The update gate rounded to an integer, ties to even. -/
def bu (r : Fin 262144) : EReal := Ideal.liftRound Ideal.roundHalfEven (A.u (ix2 r 0))
def nhn (r : Fin 262144) (j : Fin 128) : EReal := nh A r j * bu A r
def ncn (r : Fin 262144) (j : Fin 128) : EReal := nc A r j * bu A r
/-- The update layer on the gated cell state. -/
def lin (r : Fin 262144) : EReal := (∑ j : Fin 128, ncn A r j * A.lw (ix2 0 j)) + A.lb (ix1 0)
def dun (r : Fin 262144) : EReal := sig (lin A r)
def nun (r : Fin 262144) : EReal := dun A r * bu A r
def keep (r : Fin 262144) : EReal := 1 - bu A r
def nhs (r : Fin 262144) (j : Fin 128) : EReal := A.h (ix2 r j) * keep A r
def ncs (r : Fin 262144) (j : Fin 128) : EReal := A.c (ix2 r j) * keep A r
def nus (r : Fin 262144) : EReal := min 1 (max 0 (A.u (ix2 r 0) + A.du (ix2 r 0))) * keep A r

/-- The five results, one row at a time: the mask bit chooses the carried or the fresh value. -/
def newH (r : Fin 262144) (j : Fin 128) : EReal := Scalar.select (A.sk (ix1 r)) (nhs A r j) (nhn A r j)
def newC (r : Fin 262144) (j : Fin 128) : EReal := Scalar.select (A.sk (ix1 r)) (ncs A r j) (ncn A r j)
def newU (r : Fin 262144) : EReal := Scalar.select (A.sk (ix1 r)) (nus A r) (nun A r)
def dOut (r : Fin 262144) : EReal := Scalar.select (A.sk (ix1 r)) (A.du (ix2 r 0)) (dun A r)
def nSkips (r : Fin 262144) : EReal :=
  Ideal.liftRound Int.ceil (Ideal.div (Ideal.ofBits .f32 0x3F000000#32) (newU A r)) - 1

/-- The results as whole arrays. -/
def GU : (⟨2, ![262144, 1]⟩ : Shape).Idx → EReal := fun i => newU A (i 0)
def GH : (⟨2, ![262144, 128]⟩ : Shape).Idx → EReal := fun i => newH A (i 0) (i 1)
def GC : (⟨2, ![262144, 128]⟩ : Shape).Idx → EReal := fun i => newC A (i 0) (i 1)
def GD : (⟨2, ![262144, 1]⟩ : Shape).Idx → EReal := fun i => dOut A (i 0)
def GN : (⟨2, ![262144, 1]⟩ : Shape).Idx → EReal := fun i => nSkips A (i 0)

/-! ## The laws -/

/-- The float word of 1.0 denotes 1. -/
theorem ofBits_one_f32 : Ideal.ofBits .f32 0x3F800000#32 = 1 := by
  simp [Ideal.ofBits, Ideal.ieee, -EReal.coe_mul]; norm_num

/-- The mask bit read as a number. -/
def bitNum (b : BitVec 1) : EReal := ((b.toNat : ℝ) : EReal)

/-- Blending by the mask bit's number is choosing by the bit, for all extended reals: with the bit 1
    the second term is 0·b = 0, with the bit 0 the first term is 0·a = 0. -/
theorem blend_eq_select (b : BitVec 1) (a c : EReal) :
    bitNum b * a + (1 - bitNum b) * c = Scalar.select b a c := by
  have h11 : (1 : EReal) - 1 = 0 := by
    rw [← EReal.coe_one, ← EReal.coe_sub, sub_self, EReal.coe_zero]
  have h10 : (1 : EReal) - 0 = 1 := sub_zero 1
  rcases BitVec.eq_zero_or_eq_one b with h | h
  · subst h
    rw [select_zero]
    simp only [bitNum, BitVec.toNat_zero, Nat.cast_zero, EReal.coe_zero, zero_mul, zero_add, h10, one_mul]
  · subst h
    rw [select_one]
    have h1 : (1#1 : BitVec 1).toNat = 1 := rfl
    simp only [bitNum, h1, Nat.cast_one, EReal.coe_one, one_mul, h11, zero_mul, add_zero]

/-- For a real u and any rounding R to an integer, u + (R u - u) = R u. -/
theorem add_round_sub (f : ℝ → ℤ) (x : ℝ) :
    (x : EReal) + (Ideal.liftRound f (x : EReal) - (x : EReal)) = Ideal.liftRound f (x : EReal) := by
  rw [Ideal.liftRound_coe, ← EReal.coe_sub, ← EReal.coe_add]
  congr 1
  ring

end Cert.SkipCell

end
-- ==== Proof.RefSpec.lean ====
/-
  The reference program's five results are the specification's five arrays, index by index.

  The reference is read one operation at a time: each stage of the program, at the index (r, j) or
  (r, 0), is identified with the per-row quantity of the specification that it computes, in program
  order — the stacked gate pre-activations, the four gate slices, the three logistic gates, the cell
  and hidden states, the rounded update gate, the two gated states, the update layer, the carried
  values, and at last the five choices by the mask bit.

  One hypothesis is used, and only for the rounded gate: the reference forms  u + (roundeven u - u),
  which is  roundeven u  when u is a real number (on the extended reals ∞ - ∞ would intervene).
-/
import proofs.«172531_j18416819765876_1_alg».proof.Proof.Gen.ReferenceIdeal.Read
import proofs.«172531_j18416819765876_1_alg».proof.Proof.Spec

noncomputable section

open scoped BigOperators

namespace Cert.ReferenceIdeal.RefValue

open Idealize.ShloMosaic Idealize.ShloMosaic.ValueIdx Cert.SkipCell

/-- The reference's twelve arguments, in its order (x, u, h, c, δu, mask, W_ih, W_hh, b_ih, b_hh, lin_w, lin_b),
    as the specification's argument record. -/
def argsOf (x0 : (⟨S262144x128, .f32⟩ : BufTy).Contents (Elt Ideal)) (x1 : (⟨S262144x1, .f32⟩ : BufTy).Contents (Elt Ideal))
    (x2 x3 : (⟨S262144x128, .f32⟩ : BufTy).Contents (Elt Ideal)) (x4 : (⟨S262144x1, .f32⟩ : BufTy).Contents (Elt Ideal))
    (x5 : (⟨S262144, .i1⟩ : BufTy).Contents (Elt Ideal)) (x6 x7 : (⟨S512x128, .f32⟩ : BufTy).Contents (Elt Ideal))
    (x8 x9 : (⟨S512, .f32⟩ : BufTy).Contents (Elt Ideal)) (x10 : (⟨S1x128, .f32⟩ : BufTy).Contents (Elt Ideal)) (x11 : (⟨S1, .f32⟩ : BufTy).Contents (Elt Ideal)) : Args where
  x := x0
  u := x1
  h := x2
  c := x3
  du := x4
  sk := x5
  wi := x6
  wh := x7
  bi := x8
  bh := x9
  lw := x10
  lb := x11

/-- Two rank-2 indices with the same coordinates are equal. -/
theorem idx2_ext {n0 n1 : Nat} (p q : (⟨2, ![n0, n1]⟩ : Shape).Idx) (h0 : (p 0).val = (q 0).val)
    (h1 : (p 1).val = (q 1).val) : p = q :=
  funext fun a => Fin.ext (by match a with | ⟨0, _⟩ => exact h0 | ⟨1, _⟩ => exact h1)

/-- Two rank-1 indices with the same coordinate are equal. -/
theorem idx1_ext {n : Nat} (p q : (⟨1, ![n]⟩ : Shape).Idx) (h0 : (p 0).val = (q 0).val) : p = q :=
  funext fun a => Fin.ext (by match a with | ⟨0, _⟩ => exact h0)

variable (A : Args)

/-! ## The stacked gates -/

/-- Entry (r, o) of the [262144, 512] pre-activation: x·W_ihᵀ + b_ih + h·W_hhᵀ + b_hh. The two transposes
    and the two double broadcasts of the biases are read back to the arguments' own indices. -/
theorem pre_eq (r : Fin 262144) (o : Fin 512) :
    Read.val_main_v13 (F := Ideal) A.x A.h A.wi A.wh A.bi A.bh (ix2 r o) = pre A r o := by
  have e4 : ∀ k : Fin 128, Read.lidx_main_v4 (ix2 r o) k = ix2 r k := fun k => idx2_ext _ _ rfl rfl
  have e3 : ∀ k : Fin 128, Read.idx_main_v3 (Read.ridx_main_v4 (ix2 r o) k) = ix2 o k := fun k => idx2_ext _ _ rfl rfl
  have e9 : ∀ k : Fin 128, Read.lidx_main_v9 (ix2 r o) k = ix2 r k := fun k => idx2_ext _ _ rfl rfl
  have e8 : ∀ k : Fin 128, Read.idx_main_v8 (Read.ridx_main_v9 (ix2 r o) k) = ix2 o k := fun k => idx2_ext _ _ rfl rfl
  have e5 : Read.idx_main_v5 (Read.idx_main_v6 (ix2 r o)) = ix1 o := idx1_ext _ _ rfl
  have e11 : Read.idx_main_v11 (Read.idx_main_v12 (ix2 r o)) = ix1 o := idx1_ext _ _ rfl
  rw [Read.val_main_v13_apply, Read.val_main_v10_apply, Read.val_main_v7_apply, Read.val_main_v4_apply,
    Read.val_main_v9_apply, Read.val_main_v6_apply, Read.val_main_v5_apply, Read.val_main_v12_apply,
    Read.val_main_v11_apply, e5, e11]
  simp only [Read.val_main_v3_apply, Read.val_main_v8_apply, e4, e3, e9, e8, Ideal.addf_def]
  rfl

/-! ## The four gate slices: columns j, 128 + j, 256 + j, 384 + j -/

theorem gate0_eq (r : Fin 262144) (j : Fin 128) :
    Read.val_main_v14 (F := Ideal) A.x A.h A.wi A.wh A.bi A.bh (ix2 r j) = pre A r (o0 j) := by
  rw [Read.val_main_v14_apply, show Read.idx_main_v14 (ix2 r j) = ix2 r (o0 j) from idx2_ext _ _ rfl rfl, pre_eq]

theorem gate1_eq (r : Fin 262144) (j : Fin 128) :
    Read.val_main_v15 (F := Ideal) A.x A.h A.wi A.wh A.bi A.bh (ix2 r j) = pre A r (o1 j) := by
  rw [Read.val_main_v15_apply, show Read.idx_main_v15 (ix2 r j) = ix2 r (o1 j) from idx2_ext _ _ rfl rfl, pre_eq]

theorem gate2_eq (r : Fin 262144) (j : Fin 128) :
    Read.val_main_v16 (F := Ideal) A.x A.h A.wi A.wh A.bi A.bh (ix2 r j) = pre A r (o2 j) := by
  rw [Read.val_main_v16_apply, show Read.idx_main_v16 (ix2 r j) = ix2 r (o2 j) from idx2_ext _ _ rfl rfl, pre_eq]

theorem gate3_eq (r : Fin 262144) (j : Fin 128) :
    Read.val_main_v17 (F := Ideal) A.x A.h A.wi A.wh A.bi A.bh (ix2 r j) = pre A r (o3 j) := by
  rw [Read.val_main_v17_apply, show Read.idx_main_v17 (ix2 r j) = ix2 r (o3 j) from idx2_ext _ _ rfl rfl, pre_eq]

/-! ## The three logistic gates, each spelled 1 / (1 + e^(-z)) with the float word of 1.0 -/

theorem sig0_eq (r : Fin 262144) (j : Fin 128) :
    Read.val_main_v23 (F := Ideal) A.x A.h A.wi A.wh A.bi A.bh (ix2 r j) = SkipCell.sig (pre A r (o0 j)) := by
  rw [Read.val_main_v23_apply, Read.val_main_v22_apply, Read.val_main_cst_0_apply, Read.val_main_v21_apply,
    Read.val_main_v20_apply, Read.val_main_cst_apply, Read.val_main_v19_apply, Read.val_main_v18_apply, gate0_eq]
  simp only [Ideal.hostDivf_def, Ideal.ofBits_def, Ideal.addf_def, Ideal.hostUnary_exp_def, Ideal.hostNegf_def,
    Ideal.negf_def, ofBits_one_f32]
  rfl

theorem sig1_eq (r : Fin 262144) (j : Fin 128) :
    Read.val_main_v29 (F := Ideal) A.x A.h A.wi A.wh A.bi A.bh (ix2 r j) = SkipCell.sig (pre A r (o1 j)) := by
  rw [Read.val_main_v29_apply, Read.val_main_v28_apply, Read.val_main_cst_2_apply, Read.val_main_v27_apply,
    Read.val_main_v26_apply, Read.val_main_cst_1_apply, Read.val_main_v25_apply, Read.val_main_v24_apply, gate1_eq]
  simp only [Ideal.hostDivf_def, Ideal.ofBits_def, Ideal.addf_def, Ideal.hostUnary_exp_def, Ideal.hostNegf_def,
    Ideal.negf_def, ofBits_one_f32]
  rfl

theorem sig3_eq (r : Fin 262144) (j : Fin 128) :
    Read.val_main_v36 (F := Ideal) A.x A.h A.wi A.wh A.bi A.bh (ix2 r j) = SkipCell.sig (pre A r (o3 j)) := by
  rw [Read.val_main_v36_apply, Read.val_main_v35_apply, Read.val_main_cst_4_apply, Read.val_main_v34_apply,
    Read.val_main_v33_apply, Read.val_main_cst_3_apply, Read.val_main_v32_apply, Read.val_main_v31_apply, gate3_eq]
  simp only [Ideal.hostDivf_def, Ideal.ofBits_def, Ideal.addf_def, Ideal.hostUnary_exp_def, Ideal.hostNegf_def,
    Ideal.negf_def, ofBits_one_f32]
  rfl

/-! ## The cell and the hidden state -/

theorem nc_eq (r : Fin 262144) (j : Fin 128) :
    Read.val_main_v39 (F := Ideal) A.x A.h A.c A.wi A.wh A.bi A.bh (ix2 r j) = nc A r j := by
  rw [Read.val_main_v39_apply, Read.val_main_v37_apply, Read.val_main_v38_apply, Read.val_main_v30_apply,
    sig1_eq, sig0_eq, gate2_eq]
  simp only [Ideal.addf_def, Ideal.mulf_def, Ideal.hostUnary_tanh_def]
  rfl

theorem nh_eq (r : Fin 262144) (j : Fin 128) :
    Read.val_main_v41 (F := Ideal) A.x A.h A.c A.wi A.wh A.bi A.bh (ix2 r j) = nh A r j := by
  rw [Read.val_main_v41_apply, Read.val_main_v40_apply, sig3_eq, nc_eq]
  simp only [Ideal.mulf_def, Ideal.hostUnary_tanh_def]
  rfl

/-! ## The rounded gate: here the row's u must be a real number -/

theorem bu_eq (hU : ∀ r : Fin 262144, ∃ y : ℝ, A.u (ix2 r 0) = (y : EReal)) (r : Fin 262144) :
    Read.val_main_v2 (F := Ideal) A.u (ix2 r 0) = bu A r := by
  obtain ⟨y, hy⟩ := hU r
  rw [Read.val_main_v2_apply, Read.val_main_v1_apply, Read.val_main_v0_apply]
  simp only [Ideal.addf_def, Ideal.subf_def, Ideal.hostUnary_roundeven_def]
  unfold bu
  rw [hy]
  exact add_round_sub _ y

/-! ## The fresh state scaled by the gate, and the update layer on it -/

theorem nhn_eq (hU : ∀ r : Fin 262144, ∃ y : ℝ, A.u (ix2 r 0) = (y : EReal)) (r : Fin 262144) (j : Fin 128) :
    Read.val_main_v43 (F := Ideal) A.x A.u A.h A.c A.wi A.wh A.bi A.bh (ix2 r j) = nhn A r j := by
  rw [Read.val_main_v43_apply, Read.val_main_v42_apply,
    show Read.idx_main_v42 (ix2 r j) = ix2 r 0 from idx2_ext _ _ rfl rfl, nh_eq, bu_eq A hU]
  rfl

theorem ncn_eq (hU : ∀ r : Fin 262144, ∃ y : ℝ, A.u (ix2 r 0) = (y : EReal)) (r : Fin 262144) (j : Fin 128) :
    Read.val_main_v45 (F := Ideal) A.x A.u A.h A.c A.wi A.wh A.bi A.bh (ix2 r j) = ncn A r j := by
  rw [Read.val_main_v45_apply, Read.val_main_v44_apply,
    show Read.idx_main_v44 (ix2 r j) = ix2 r 0 from idx2_ext _ _ rfl rfl, nc_eq, bu_eq A hU]
  rfl

theorem lin_eq (hU : ∀ r : Fin 262144, ∃ y : ℝ, A.u (ix2 r 0) = (y : EReal)) (r : Fin 262144) :
    Read.val_main_v50 (F := Ideal) A.x A.u A.h A.c A.wi A.wh A.bi A.bh A.lw A.lb (ix2 r 0) = lin A r := by
  have el : ∀ k : Fin 128, Read.lidx_main_v47 (ix2 r (0 : Fin 1)) k = ix2 r k := fun k => idx2_ext _ _ rfl rfl
  have er : ∀ k : Fin 128, Read.idx_main_v46 (Read.ridx_main_v47 (ix2 r (0 : Fin 1)) k) = ix2 (0 : Fin 1) k :=
    fun k => idx2_ext _ _ rfl rfl
  have eb : Read.idx_main_v48 (Read.idx_main_v49 (ix2 r (0 : Fin 1))) = ix1 (0 : Fin 1) := idx1_ext _ _ rfl
  rw [Read.val_main_v50_apply, Read.val_main_v47_apply, Read.val_main_v49_apply, Read.val_main_v48_apply, eb]
  simp only [Read.val_main_v46_apply, el, er, ncn_eq A hU, Ideal.addf_def]
  rfl

theorem dun_eq (hU : ∀ r : Fin 262144, ∃ y : ℝ, A.u (ix2 r 0) = (y : EReal)) (r : Fin 262144) :
    Read.val_main_v56 (F := Ideal) A.x A.u A.h A.c A.wi A.wh A.bi A.bh A.lw A.lb (ix2 r 0) = dun A r := by
  rw [Read.val_main_v56_apply, Read.val_main_v55_apply, Read.val_main_cst_6_apply, Read.val_main_v54_apply,
    Read.val_main_v53_apply, Read.val_main_cst_5_apply, Read.val_main_v52_apply, Read.val_main_v51_apply, lin_eq A hU]
  simp only [Ideal.hostDivf_def, Ideal.ofBits_def, Ideal.addf_def, Ideal.hostUnary_exp_def, Ideal.hostNegf_def,
    Ideal.negf_def, ofBits_one_f32]
  rfl

theorem nun_eq (hU : ∀ r : Fin 262144, ∃ y : ℝ, A.u (ix2 r 0) = (y : EReal)) (r : Fin 262144) :
    Read.val_main_v57 (F := Ideal) A.x A.u A.h A.c A.wi A.wh A.bi A.bh A.lw A.lb (ix2 r 0) = nun A r := by
  rw [Read.val_main_v57_apply, dun_eq A hU, bu_eq A hU]
  rfl

/-! ## The carried values -/

theorem keep_eq (hU : ∀ r : Fin 262144, ∃ y : ℝ, A.u (ix2 r 0) = (y : EReal)) (r : Fin 262144) :
    Read.val_main_v59 (F := Ideal) A.u (ix2 r 0) = keep A r := by
  rw [Read.val_main_v59_apply, Read.val_main_v58_apply, Read.val_main_cst_7_apply, bu_eq A hU]
  simp only [Ideal.subf_def, Ideal.ofBits_def, ofBits_one_f32]
  rfl

theorem nhs_eq (hU : ∀ r : Fin 262144, ∃ y : ℝ, A.u (ix2 r 0) = (y : EReal)) (r : Fin 262144) (j : Fin 128) :
    Read.val_main_v61 (F := Ideal) A.u A.h (ix2 r j) = nhs A r j := by
  rw [Read.val_main_v61_apply, Read.val_main_v60_apply,
    show Read.idx_main_v60 (ix2 r j) = ix2 r 0 from idx2_ext _ _ rfl rfl, keep_eq A hU]
  rfl

theorem ncs_eq (hU : ∀ r : Fin 262144, ∃ y : ℝ, A.u (ix2 r 0) = (y : EReal)) (r : Fin 262144) (j : Fin 128) :
    Read.val_main_v63 (F := Ideal) A.u A.c (ix2 r j) = ncs A r j := by
  rw [Read.val_main_v63_apply, Read.val_main_v62_apply,
    show Read.idx_main_v62 (ix2 r j) = ix2 r 0 from idx2_ext _ _ rfl rfl, keep_eq A hU]
  rfl

/-- clip(u + δu, 0, 1) is min 1 (max 0 (u + δu)), with the float words of 0.0 and 1.0. -/
theorem nus_eq (hU : ∀ r : Fin 262144, ∃ y : ℝ, A.u (ix2 r 0) = (y : EReal)) (r : Fin 262144) :
    Read.val_main_v66 (F := Ideal) A.u A.du (ix2 r 0) = nus A r := by
  rw [Read.val_main_v66_apply, Read.val_main_v65_apply, Read.val_main_call1_v4_apply, Read.val_main_call1_v3_apply,
    Read.val_main_cst_9_apply, Read.val_main_call1_v2_apply, Read.val_main_call1_v1_apply, Read.val_main_call1_v0_apply,
    Read.val_main_cst_8_apply, Read.val_main_v64_apply, keep_eq A hU]
  simp only [Ideal.mulf_def, Ideal.minimumf_def, Ideal.maximumf_def, Ideal.addf_def, Ideal.ofBits_def, ofBits_one_f32,
    Ideal.ofBits_zero_f32]
  rfl

/-! ## The mask bit, broadcast along the row -/

theorem mask_eq (r : Fin 262144) : Read.val_main_v67 (F := Ideal) A.sk (ix2 r 0) = A.sk (ix1 r) := by
  rw [Read.val_main_v67_apply, show Read.idx_main_v67 (ix2 r (0 : Fin 1)) = ix1 r from idx1_ext _ _ rfl]

theorem maskH_eq (r : Fin 262144) (j : Fin 128) :
    Read.val_main_call3_v0 (F := Ideal) A.sk (ix2 r j) = A.sk (ix1 r) := by
  rw [Read.val_main_call3_v0_apply, show Read.idx_main_call3_v0 (ix2 r j) = ix2 r 0 from idx2_ext _ _ rfl rfl, mask_eq]

theorem maskC_eq (r : Fin 262144) (j : Fin 128) :
    Read.val_main_call4_v0 (F := Ideal) A.sk (ix2 r j) = A.sk (ix1 r) := by
  rw [Read.val_main_call4_v0_apply, show Read.idx_main_call4_v0 (ix2 r j) = ix2 r 0 from idx2_ext _ _ rfl rfl, mask_eq]

/-! ## The five choices -/

theorem newU_eq (hU : ∀ r : Fin 262144, ∃ y : ℝ, A.u (ix2 r 0) = (y : EReal)) (r : Fin 262144) :
    Read.val_main_v68 (F := Ideal) A.x A.u A.h A.c A.du A.sk A.wi A.wh A.bi A.bh A.lw A.lb (ix2 r 0) = newU A r := by
  rw [Read.val_main_v68_apply, mask_eq, nus_eq A hU, nun_eq A hU]
  rfl

theorem newH_eq (hU : ∀ r : Fin 262144, ∃ y : ℝ, A.u (ix2 r 0) = (y : EReal)) (r : Fin 262144) (j : Fin 128) :
    Read.val_main_v69 (F := Ideal) A.x A.u A.h A.c A.sk A.wi A.wh A.bi A.bh (ix2 r j) = newH A r j := by
  rw [Read.val_main_v69_apply, maskH_eq, nhs_eq A hU, nhn_eq A hU]
  rfl

theorem newC_eq (hU : ∀ r : Fin 262144, ∃ y : ℝ, A.u (ix2 r 0) = (y : EReal)) (r : Fin 262144) (j : Fin 128) :
    Read.val_main_v70 (F := Ideal) A.x A.u A.h A.c A.sk A.wi A.wh A.bi A.bh (ix2 r j) = newC A r j := by
  rw [Read.val_main_v70_apply, maskC_eq, ncs_eq A hU, ncn_eq A hU]
  rfl

theorem dOut_eq (hU : ∀ r : Fin 262144, ∃ y : ℝ, A.u (ix2 r 0) = (y : EReal)) (r : Fin 262144) :
    Read.val_main_v71 (F := Ideal) A.x A.u A.h A.c A.du A.sk A.wi A.wh A.bi A.bh A.lw A.lb (ix2 r 0) = dOut A r := by
  rw [Read.val_main_v71_apply, mask_eq, dun_eq A hU]
  rfl

/-- ⌈½ / new_u⌉ - 1, with the float words of 0.5 and 1.0. -/
theorem nSkips_eq (hU : ∀ r : Fin 262144, ∃ y : ℝ, A.u (ix2 r 0) = (y : EReal)) (r : Fin 262144) :
    Read.val_main_v76 (F := Ideal) A.x A.u A.h A.c A.du A.sk A.wi A.wh A.bi A.bh A.lw A.lb (ix2 r 0) = nSkips A r := by
  rw [Read.val_main_v76_apply, Read.val_main_v75_apply, Read.val_main_cst_11_apply, Read.val_main_v74_apply,
    Read.val_main_v73_apply, Read.val_main_v72_apply, Read.val_main_cst_10_apply, newU_eq A hU]
  simp only [Ideal.subf_def, Ideal.ofBits_def, Ideal.hostUnary_ceil_def, Ideal.hostDivf_def, ofBits_one_f32]
  rfl

/-! ## The five results as whole arrays -/

section Results

variable (x0 : (⟨S262144x128, .f32⟩ : BufTy).Contents (Elt Ideal)) (x1 : (⟨S262144x1, .f32⟩ : BufTy).Contents (Elt Ideal))
    (x2 x3 : (⟨S262144x128, .f32⟩ : BufTy).Contents (Elt Ideal)) (x4 : (⟨S262144x1, .f32⟩ : BufTy).Contents (Elt Ideal))
    (x5 : (⟨S262144, .i1⟩ : BufTy).Contents (Elt Ideal)) (x6 x7 : (⟨S512x128, .f32⟩ : BufTy).Contents (Elt Ideal))
    (x8 x9 : (⟨S512, .f32⟩ : BufTy).Contents (Elt Ideal)) (x10 : (⟨S1x128, .f32⟩ : BufTy).Contents (Elt Ideal)) (x11 : (⟨S1, .f32⟩ : BufTy).Contents (Elt Ideal))

/-- new_u. -/
theorem val_v68_eq_GU (hU : ∀ r : Fin 262144, ∃ y : ℝ, x1 (ix2 r 0) = (y : EReal)) :
    Read.val_main_v68 (F := Ideal) x0 x1 x2 x3 x4 x5 x6 x7 x8 x9 x10 x11 = GU (argsOf x0 x1 x2 x3 x4 x5 x6 x7 x8 x9 x10 x11) := by
  funext i
  obtain ⟨r, j, rfl⟩ : ∃ (r : Fin 262144) (j : Fin 1), i = ix2 r j := ⟨i 0, i 1, eq_ix2 i⟩
  obtain rfl : j = 0 := Subsingleton.elim _ _
  exact newU_eq (argsOf x0 x1 x2 x3 x4 x5 x6 x7 x8 x9 x10 x11) hU r

/-- new_h. -/
theorem val_v69_eq_GH (hU : ∀ r : Fin 262144, ∃ y : ℝ, x1 (ix2 r 0) = (y : EReal)) :
    Read.val_main_v69 (F := Ideal) x0 x1 x2 x3 x5 x6 x7 x8 x9 = GH (argsOf x0 x1 x2 x3 x4 x5 x6 x7 x8 x9 x10 x11) := by
  funext i
  obtain ⟨r, j, rfl⟩ : ∃ (r : Fin 262144) (j : Fin 128), i = ix2 r j := ⟨i 0, i 1, eq_ix2 i⟩
  exact newH_eq (argsOf x0 x1 x2 x3 x4 x5 x6 x7 x8 x9 x10 x11) hU r j

/-- new_c. -/
theorem val_v70_eq_GC (hU : ∀ r : Fin 262144, ∃ y : ℝ, x1 (ix2 r 0) = (y : EReal)) :
    Read.val_main_v70 (F := Ideal) x0 x1 x2 x3 x5 x6 x7 x8 x9 = GC (argsOf x0 x1 x2 x3 x4 x5 x6 x7 x8 x9 x10 x11) := by
  funext i
  obtain ⟨r, j, rfl⟩ : ∃ (r : Fin 262144) (j : Fin 128), i = ix2 r j := ⟨i 0, i 1, eq_ix2 i⟩
  exact newC_eq (argsOf x0 x1 x2 x3 x4 x5 x6 x7 x8 x9 x10 x11) hU r j

/-- d_u. -/
theorem val_v71_eq_GD (hU : ∀ r : Fin 262144, ∃ y : ℝ, x1 (ix2 r 0) = (y : EReal)) :
    Read.val_main_v71 (F := Ideal) x0 x1 x2 x3 x4 x5 x6 x7 x8 x9 x10 x11 = GD (argsOf x0 x1 x2 x3 x4 x5 x6 x7 x8 x9 x10 x11) := by
  funext i
  obtain ⟨r, j, rfl⟩ : ∃ (r : Fin 262144) (j : Fin 1), i = ix2 r j := ⟨i 0, i 1, eq_ix2 i⟩
  obtain rfl : j = 0 := Subsingleton.elim _ _
  exact dOut_eq (argsOf x0 x1 x2 x3 x4 x5 x6 x7 x8 x9 x10 x11) hU r

/-- n_skips. -/
theorem val_v76_eq_GN (hU : ∀ r : Fin 262144, ∃ y : ℝ, x1 (ix2 r 0) = (y : EReal)) :
    Read.val_main_v76 (F := Ideal) x0 x1 x2 x3 x4 x5 x6 x7 x8 x9 x10 x11 = GN (argsOf x0 x1 x2 x3 x4 x5 x6 x7 x8 x9 x10 x11) := by
  funext i
  obtain ⟨r, j, rfl⟩ : ∃ (r : Fin 262144) (j : Fin 1), i = ix2 r j := ⟨i 0, i 1, eq_ix2 i⟩
  obtain rfl : j = 0 := Subsingleton.elim _ _
  exact nSkips_eq (argsOf x0 x1 x2 x3 x4 x5 x6 x7 x8 x9 x10 x11) hU r

end Results

end Cert.ReferenceIdeal.RefValue

end
-- ==== Proof.Finite.lean ====
/-
  The kernel's precondition makes the array u real, row by row.

  The precondition is the printed conjunction, over the eleven float arguments, of "every element has
  absolute value below +∞", said to be all ones. Its conjunct about u is read back: the conjunction is
  split down to the one reduction over u, the reduction by "and" being 1 gives the comparison bit 1 at
  every index, and a comparison  max x (-x) < ⊤  leaves only a real x (both infinities have absolute value ⊤).
-/
import proofs.«172531_j18416819765876_1_alg».proof.Defs
import proofs.«172531_j18416819765876_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Idealize.ShloMosaic.TcCoe Idealize.SL.Sem

/-- The rank-0 shape has one index. -/
instance : Subsingleton Cert.Pre_finite_inputs.S_.Idx := ⟨fun a b => funext fun d => d.elim0⟩

/-- The float word 0x7F800000 denotes +∞. -/
theorem ofBits_inf_f32 : Ideal.ofBits .f32 0x7F800000#32 = ⊤ := by
  simp [Ideal.ofBits, Ideal.ieee]

/-- An extended real whose absolute value is below +∞ is a real number. -/
theorem real_of_abs_lt_top (x : EReal) (h : max x (-x) < ⊤) : ∃ y : ℝ, x = (y : EReal) := by
  induction x using EReal.rec with
  | bot => simp at h
  | coe y => exact ⟨y, rfl⟩
  | top => simp at h

/-- A truth value's bit is 1 exactly when it is true. -/
theorem ofBool_eq_one {b : Bool} : BitVec.ofBool b = 1#1 ↔ b = true := by cases b <;> decide

/-- The comparison bit of |x| < +∞ being 1 says x is a real number. -/
theorem real_of_cmp (x : Ideal .f32)
    (h : FloatOps.cmpf .olt (FloatOps.hostAbsf x) (FloatOps.ofBits (F := Ideal) .f32 0x7F800000#32) = 1#1) :
    ∃ y : ℝ, x = (y : EReal) := by
  rw [Ideal.cmpf_def, Ideal.hostAbsf_def, Ideal.absf_def, Ideal.ofBits_def, ofBits_inf_f32] at h
  refine real_of_abs_lt_top x ?_
  simpa [Ideal.cmp, ofBool_eq_one] using h

/-- Every row's u is a real number under the kernel's precondition. -/
theorem u_real (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 262144) :
    ∃ y : ℝ, m ((c.tc : Thread Cert.KernelIdeal.nD Cert.KernelIdeal.τ).loc Cert.KernelIdeal.main_arg1) (ix2 r 0) = (y : EReal) := by
  have h := congrFun (hpre c) ix0
  dsimp only [Cert.Pre_finite_inputs.fn, Cert.Pre_finite_inputs.fn_part1, Cert.Pre_finite_inputs.fn_part2,
    Cert.Pre_finite_inputs.fn_part3] at h
  have h48 := (IntOp.andi_eq_one.1 h).1
  have h43 := (IntOp.andi_eq_one.1 h48).1
  have h38 := (IntOp.andi_eq_one.1 h43).1
  have h33 := (IntOp.andi_eq_one.1 h38).1
  have h28 := (IntOp.andi_eq_one.1 h33).1
  have h23 := (IntOp.andi_eq_one.1 h28).1
  have h18 := (IntOp.andi_eq_one.1 h23).1
  have h13 := (IntOp.andi_eq_one.1 h18).1
  have h8 := (IntOp.andi_eq_one.1 h13).1
  have h7 := (IntOp.andi_eq_one.1 h8).2
  exact real_of_cmp _ (Host.reduce_andi_all _ _ _ _ _ h7 (ix2 r 0))

end Cert.Finite

end
-- ==== Proof.KFrameDefs.lean ====
/-
  The frame of the skip-LSTM cell kernel: the definitions.

  The kernel is one pipelined region over a grid of 128 points. At each point it reads a block of 2048 rows of the
  input state (x, h, c, and three per-row scalars u, Δu, skip packed as the columns of one array), the weights and
  biases whole, and writes the 2048 rows of the new hidden state, of the new cell state, and of the three per-row
  results (new u, Δu out, skips to come) packed as the columns of one array.

  This file only NAMES things: the arrays' contents when the region is entered, each window's block at a point,
  the rectangles the body loads and stores through, what the body leaves in each output window's buffer as a
  function of the ten input blocks, and the proof data of the pipeline. Nothing is proved here but projections of
  the proof data.
-/
import proofs.«172531_j18416819765876_1_alg».proof.Proof.Gen.Kernel.Launch
import proofs.«172531_j18416819765876_1_alg».proof.Proof.Gen.Kernel.Skeleton
import proofs.«172531_j18416819765876_1_alg».proof.Proof.Gen.Kernel.Points
import Idealize.ShloMosaic.Lib.Pipeline.FrameBody
import Idealize.ShloMosaic.Lib.Pipeline.FrameSuffix

noncomputable section

namespace Cert.Kernel.Frame

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ)

/-! ## The arrays when the region is entered -/

/-- Core c's TensorCore buffers when the region is entered, as a valuation: the launch contents m, overwritten by
    the nine host operations that precede the region (the skip flags converted to floats and made a column, the
    three scalar columns concatenated, the biases and the linear bias reshaped, the three weight arrays rounded
    to bf16). -/
abbrev V0 (c : Dev nD) : Valuation τ sig (Elt F) := StableHlo.after (List.flatten [hostOps0]) (fun b => m (c, b))

/-- The same, read at a TensorCore reference. -/
abbrev V (c : Dev nD) (b : Ref sig .tc) : Buf (Elt F) ((c : Thread nD τ).loc b) := V0 m c (Proc.devRef .tc b)

/-! ## The windows' blocks -/

/-- Window w's block at grid point t: the rows of its array (as the region finds it) that the point's block index
    selects. For the windows 4 … 9 (weights and biases) the block is the whole array at every point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles of the body's loads and stores

Every access of the body is through the rectangle that is the WHOLE staging buffer: one per buffer shape. -/

/-- The whole of a [2048, 128] buffer: the blocks of x, h, c and of the new h and new c. -/
abbrev rRows : Rect S2048x128 := Rect.unit (s := S2048x128) ![0, 0] S2048x128.size inb_S2048x128_S2048x128_0_0
/-- The whole of a [2048, 3] buffer: the blocks of the packed per-row scalars, in and out. -/
abbrev rScal : Rect S2048x3 := Rect.unit (s := S2048x3) ![0, 0] S2048x3.size inb_S2048x3_S2048x3_0_0
/-- The whole of a [512, 128] buffer: the input-to-hidden and the hidden-to-hidden weights. -/
abbrev rWeight : Rect S512x128 := Rect.unit (s := S512x128) ![0, 0] S512x128.size inb_S512x128_S512x128_0_0
/-- The whole of a [1, 512] buffer: the two bias rows. -/
abbrev rBias : Rect S1x512 := Rect.unit (s := S1x512) ![0, 0] S1x512.size inb_S1x512_S1x512_0_0
/-- The whole of a [1, 128] buffer: the weight row of the update-gate linear layer. -/
abbrev rLinW : Rect S1x128 := Rect.unit (s := S1x128) ![0, 0] S1x128.size inb_S1x128_S1x128_0_0
/-- The whole of a [1, 1] buffer: the bias of the update-gate linear layer. -/
abbrev rLinB : Rect S1x1 := Rect.unit (s := S1x1) ![0, 0] S1x1.size inb_S1x1_S1x1_0_0

/-! ## The values the three stores share

In what follows x0 … x9 are the contents of the ten input windows' staging buffers:
x0 = x, x1 = h, x2 = c (blocks of 2048 rows), x3 = the packed scalars (columns u, Δu, skip),
x4 = W_ih, x5 = W_hh (bf16), x6 = b_ih, x7 = b_hh, x8 = the linear layer's weight row (bf16), x9 = its bias. -/

/-- The column u of the packed scalars. -/
def uCol (x3 : Vec F S2048x3 .f32) : FVec F S2048x1 .f32 := k0_pay3 (View.ld x3 rScal)
/-- The column Δu of the packed scalars. -/
def duCol (x3 : Vec F S2048x3 .f32) : FVec F S2048x1 .f32 := k0_pay4 (View.ld x3 rScal)
/-- The column of skip flags (0 or 1 as floats) of the packed scalars. -/
def skipCol (x3 : Vec F S2048x3 .f32) : FVec F S2048x1 .f32 := k0_pay5 (View.ld x3 rScal)
/-- The binarized update gate: u rounded to the nearest integer, ties to even. -/
def buCol (x3 : Vec F S2048x3 .f32) : FVec F S2048x1 .f32 := k0_pay6 (View.ld x3 rScal)

/-- The new hidden state of the rows that are NOT skipped: o ⊙ tanh(new c), times the binarized gate — the LSTM
    cell on (x, h, c) with the weights and biases, gate by gate. -/
def hidNew (x0 x1 x2 : Vec F S2048x128 .f32) (x3 : Vec F S2048x3 .f32) (x4 x5 : Vec F S512x128 .bf16)
    (x6 x7 : Vec F S1x512 .f32) : FVec F S2048x128 .f32 :=
  k0_pay19 (View.ld x2 rRows) (buCol x3) (k0_pay7 (View.ld x0 rRows)) (k0_pay8 (View.ld x1 rRows))
    (k0_pay9 (View.ld x4 rWeight)) (k0_pay10 (View.ld x5 rWeight)) (k0_pay11 (View.ld x6 rBias)) (k0_pay12 (View.ld x7 rBias))
    (k0_pay13 (View.ld x0 rRows) (View.ld x1 rRows) (View.ld x4 rWeight) (View.ld x5 rWeight) (View.ld x6 rBias) (View.ld x7 rBias))
    (k0_pay14 (View.ld x5 rWeight)) (k0_pay15 (View.ld x7 rBias)) (k0_pay16 (View.ld x0 rRows) (View.ld x4 rWeight))
    (k0_pay17 (View.ld x6 rBias))

/-- The new cell state of the rows that are not skipped: f ⊙ c + i ⊙ g, times the binarized gate. -/
def cellNew (x0 x1 x2 : Vec F S2048x128 .f32) (x3 : Vec F S2048x3 .f32) (x4 x5 : Vec F S512x128 .bf16)
    (x6 x7 : Vec F S1x512 .f32) : FVec F S2048x128 .f32 :=
  k0_pay20 (View.ld x2 rRows) (buCol x3) (k0_pay7 (View.ld x0 rRows)) (k0_pay8 (View.ld x1 rRows))
    (k0_pay9 (View.ld x4 rWeight)) (k0_pay10 (View.ld x5 rWeight)) (k0_pay11 (View.ld x6 rBias)) (k0_pay12 (View.ld x7 rBias))
    (k0_pay13 (View.ld x0 rRows) (View.ld x1 rRows) (View.ld x4 rWeight) (View.ld x5 rWeight) (View.ld x6 rBias) (View.ld x7 rBias))
    (k0_pay14 (View.ld x5 rWeight)) (k0_pay15 (View.ld x7 rBias)) (k0_pay16 (View.ld x0 rRows) (View.ld x4 rWeight))
    (k0_pay17 (View.ld x6 rBias))

/-- That new cell state rounded to bf16: the left operand of the update-gate linear layer. -/
def cellNewBf (x0 x1 x2 : Vec F S2048x128 .f32) (x3 : Vec F S2048x3 .f32) (x4 x5 : Vec F S512x128 .bf16)
    (x6 x7 : Vec F S1x512 .f32) : FVec F S2048x128 .bf16 :=
  k0_pay21 (View.ld x2 rRows) (buCol x3) (k0_pay7 (View.ld x0 rRows)) (k0_pay8 (View.ld x1 rRows))
    (k0_pay9 (View.ld x4 rWeight)) (k0_pay10 (View.ld x5 rWeight)) (k0_pay11 (View.ld x6 rBias)) (k0_pay12 (View.ld x7 rBias))
    (k0_pay13 (View.ld x0 rRows) (View.ld x1 rRows) (View.ld x4 rWeight) (View.ld x5 rWeight) (View.ld x6 rBias) (View.ld x7 rBias))
    (k0_pay14 (View.ld x5 rWeight)) (k0_pay15 (View.ld x7 rBias)) (k0_pay16 (View.ld x0 rRows) (View.ld x4 rWeight))
    (k0_pay17 (View.ld x6 rBias))

/-- The linear layer's weight row as a column [128, 1]. -/
def linWT (x8 : Vec F S1x128 .bf16) : FVec F S128x1 .bf16 := k0_pay23 (View.ld x8 rLinW)
/-- The linear layer's bias. -/
def linB (x9 : Vec F S1x1 .f32) : FVec F S1x1 .f32 := k0_pay22 (View.ld x9 rLinB)
/-- The zero column the linear layer's product accumulates onto. -/
def zeroCol : FVec F S2048x1 .f32 := constant S2048x1 .f32 0x00000000#32

/-! ## What the body leaves in each output window's buffer

Each output buffer is stored once, whole; so its contents after the body are the stored value (View.canon of the
one piece). -/

/-- The new hidden state's buffer (window 10) after the body: skip ⊙ (h ⊙ (1 − bu)) + (1 − skip) ⊙ hidNew. -/
def out0_10 (x0 x1 x2 : Vec F S2048x128 .f32) (x3 : Vec F S2048x3 .f32) (x4 x5 : Vec F S512x128 .bf16)
    (x6 x7 : Vec F S1x512 .f32) (x8 : Vec F S1x128 .bf16) (x9 : Vec F S1x1 .f32) : Vec F S2048x128 .f32 :=
  View.canon [⟨rRows, k0_pay26 (View.ld x1 rRows) (skipCol x3) (buCol x3) (hidNew x0 x1 x2 x3 x4 x5 x6 x7)⟩]

/-- The new cell state's buffer (window 11) after the body: skip ⊙ (c ⊙ (1 − bu)) + (1 − skip) ⊙ cellNew. -/
def out0_11 (x0 x1 x2 : Vec F S2048x128 .f32) (x3 : Vec F S2048x3 .f32) (x4 x5 : Vec F S512x128 .bf16)
    (x6 x7 : Vec F S1x512 .f32) (x8 : Vec F S1x128 .bf16) (x9 : Vec F S1x1 .f32) : Vec F S2048x128 .f32 :=
  View.canon [⟨rRows, k0_pay27 (View.ld x2 rRows) (skipCol x3) (buCol x3) (cellNew x0 x1 x2 x3 x4 x5 x6 x7)⟩]

/-- The packed results' buffer (window 12) after the body: the columns new u, Δu out and the number of skips to
    come, concatenated. Each is computed from the scalar columns and from the update gate
    sigmoid(cellNewBf · linWT + linB). -/
def out0_12 (x0 x1 x2 : Vec F S2048x128 .f32) (x3 : Vec F S2048x3 .f32) (x4 x5 : Vec F S512x128 .bf16)
    (x6 x7 : Vec F S1x512 .f32) (x8 : Vec F S1x128 .bf16) (x9 : Vec F S1x1 .f32) : Vec F S2048x3 .f32 :=
  View.canon [⟨rScal, k0_pay1
    (k0_pay28 (uCol x3) (duCol x3) (skipCol x3) (buCol x3) (cellNewBf x0 x1 x2 x3 x4 x5 x6 x7) (linB x9) (linWT x8) zeroCol)
    (k0_pay29 (duCol x3) (skipCol x3) (cellNewBf x0 x1 x2 x3 x4 x5 x6 x7) (linB x9) (linWT x8) zeroCol)
    (k0_pay30 (uCol x3) (duCol x3) (skipCol x3) (buCol x3) (cellNewBf x0 x1 x2 x3 x4 x5 x6 x7) (linB x9) (linWT x8) zeroCol)⟩]

/-! ## The pipeline's proof data -/

/-- The proof data of the pipeline on core c: the arrays as the region finds them; after the body at point t each
    input window's buffer still at its block and each output window's at its out0_W of the ten input blocks; the
    invariant is the part of the core the body neither reads nor writes; nothing is owed; the shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window: an input's buffer at its block, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
/-- an output's at the value stored, as a function of the ten input blocks. -/
theorem after0_10 (c : Dev nD) (t : Fin cfg0.N) : (dats m 0 c).after 10 t
    = out0_10 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem after0_11 (c : Dev nD) (t : Fin cfg0.N) : (dats m 0 c).after 11 t
    = out0_11 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem after0_12 (c : Dev nD) (t : Fin cfg0.N) : (dats m 0 c).after 12 t
    = out0_12 (iblk m c 0 t) (iblk m c 1 t) (iblk m c 2 t) (iblk m c 3 t) (iblk m c 4 t) (iblk m c 5 t) (iblk m c 6 t) (iblk m c 7 t) (iblk m c 8 t) (iblk m c 9 t) := by
  dsimp only [dats]

end Cert.Kernel.Frame

end
-- ==== Proof.KFrameHost.lean ====
/-
  The frame of the skip-LSTM cell kernel: the host side of @main.

  @main is nine host operations (the skip flags made a float column, the three scalar columns packed into one
  array, the biases reshaped to rows, the weights rounded to bf16), the pipelined region, and three host operations
  (the three columns of the region's packed result sliced apart). Each host operation writes one buffer, its own
  result, and none of these results is an argument of @main. So every argument array is found by the region as
  launched, and is left by the operations after the region as the region left it.
-/
import proofs.«172531_j18416819765876_1_alg».proof.Proof.KFrameDefs
import Idealize.ShloMosaic.Lib.Pipeline.FrameBody
import Idealize.ShloMosaic.Lib.Pipeline.FrameSuffix

noncomputable section

namespace Cert.Kernel.Frame

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ)

/-! ## @main around the region -/

/-- The host operations before the region allocate nothing; -/
theorem hostOps0_fresh : (hostOps0 : List (HloOp τ sig (Elt F))).Forall fun op => op.fresh = ∅ := by
  simp only [List.Forall]; repeat' constructor
/-- nor do those after it. -/
theorem hostOps1_fresh : (hostOps1 : List (HloOp τ sig (Elt F))).Forall fun op => op.fresh = ∅ := by
  simp only [List.Forall]; repeat' constructor

/-- @main is the nine host operations, the region, the three host operations: run from the launch contents m, it
    reaches the region with the arrays at V and continues after it with the three slices. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The three slices after the region touch only unscoped TensorCore buffers: the pipeline's arrays and the
    buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And none writes an array of the pipeline: each writes its own result (one of the three sliced columns), which
    no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.unary_writes, Finset.mem_singleton] <;> exact StableHlo.devRef_ne_of_ne (by decide)

/-! ## An array no host operation writes

The nine operations before the region write main_v0 … main_v8, the three after it main_v10, main_v11, main_v12;
every other buffer passes through them unchanged. -/

/-- A buffer that is none of main_v0 … main_v8 is found by the region as launched. -/
theorem V_of_not_written (c : Dev nD) (b : Ref sig .tc)
    (hb : ∀ y ∈ ([main_v0, main_v1, main_v2, main_v3, main_v4, main_v5, main_v6, main_v7, main_v8] : List (Ref sig .tc)), b ≠ y) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (hb _ (by simp))))

/-- A buffer that is none of main_v0 … main_v8, none of main_v10, main_v11, main_v12 and no array of the pipeline
    ends as launched, whatever the proof data: the slices do not write it, the region does not stage it, the
    operations before the region do not write it. -/
theorem W_of_not_written (dats : (p : Fin _) → (c : Dev nD) → Dat τ (Elt F) Unit ℕ (UR sig nD τ) ℕ (cfgs p) c) (c : Dev nD) (b : Ref sig .tc)
    (hb : ∀ y ∈ ([main_v0, main_v1, main_v2, main_v3, main_v4, main_v5, main_v6, main_v7, main_v8] : List (Ref sig .tc)), b ≠ y)
    (hb' : ∀ y ∈ ([main_v10, main_v11, main_v12] : List (Ref sig .tc)), b ≠ y)
    (hw : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (hb' _ (by simp)))),
    Pipeline.withArrays_of_ne _ c (V0 m c) _ b hw]
  exact V_of_not_written m c b hb

/-- Each of the twelve argument arrays is found by the region as launched. -/
theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)
theorem V_main_arg8 (c : Dev nD) : V m c main_arg8 = m ((c : Thread nD τ).loc main_arg8) := V_of_not_written m c _ (by decide)
theorem V_main_arg9 (c : Dev nD) : V m c main_arg9 = m ((c : Thread nD τ).loc main_arg9) := V_of_not_written m c _ (by decide)
theorem V_main_arg10 (c : Dev nD) : V m c main_arg10 = m ((c : Thread nD τ).loc main_arg10) := V_of_not_written m c _ (by decide)
theorem V_main_arg11 (c : Dev nD) : V m c main_arg11 = m ((c : Thread nD τ).loc main_arg11) := V_of_not_written m c _ (by decide)

/-- Each of the nine argument arrays that no window stages (u, Δu, the skip flags, the weights and biases as
    launched, before their rounding or reshaping) ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_of_not_written m dats c _ (by decide) (by decide) (by decide)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  W_of_not_written m dats c _ (by decide) (by decide) (by decide)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  W_of_not_written m dats c _ (by decide) (by decide) (by decide)
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  W_of_not_written m dats c _ (by decide) (by decide) (by decide)
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  W_of_not_written m dats c _ (by decide) (by decide) (by decide)
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  W_of_not_written m dats c _ (by decide) (by decide) (by decide)
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  W_of_not_written m dats c _ (by decide) (by decide) (by decide)
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  W_of_not_written m dats c _ (by decide) (by decide) (by decide)
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  W_of_not_written m dats c _ (by decide) (by decide) (by decide)

/-- An array an INPUT window stages ends as the region found it, for any proof data whose arrays are the
    region-entry contents: the slices after the region do not write it, and the pipeline writes back outputs only. -/
theorem W_of_staged_input (dats : (p : Fin _) → (c : Dev nD) → Dat τ (Elt F) Unit ℕ (UR sig nD τ) ℕ (cfgs p) c)
    (hA : ∀ c w, (dats 0 c).A w = V m c (Pipeline.arrRef spec0 w)) (c : Dev nD) (w : Fin cfg0.W) (hin : (cfg0.win w).isOut = false)
    (hb' : ∀ y ∈ ([main_v10, main_v11, main_v12] : List (Ref sig .tc)), Pipeline.arrRef spec0 w ≠ y) :
    Pipeline.afterTail₀ cfgs dats 0 (V0 m) [hostOps1] c (Pipeline.arrRef spec0 w) = V m c (Pipeline.arrRef spec0 w) := by
  unfold Pipeline.afterTail₀
  rw [StableHlo.after_of_forall_not_mem (b := Proc.devRef .tc (Pipeline.arrRef spec0 w)) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (hb' _ (by simp)))),
    Pipeline.withArrays_arr spec0 launch0.win.arr_inj c (V0 m c) _ w]
  exact ((dats 0 c).arrAt_in w hin _).trans (hA c w)

/-- So the three argument arrays the pipeline stages as inputs (x, h, c) end as launched. -/
theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg0 = m ((c : Thread nD τ).loc main_arg0) :=
  (W_of_staged_input m dats hA c 0 rfl (by decide)).trans (V_main_arg0 m c)
theorem W_main_arg2 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg2 = m ((c : Thread nD τ).loc main_arg2) :=
  (W_of_staged_input m dats hA c 1 rfl (by decide)).trans (V_main_arg2 m c)
theorem W_main_arg3 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg3 = m ((c : Thread nD τ).loc main_arg3) :=
  (W_of_staged_input m dats hA c 2 rfl (by decide)).trans (V_main_arg3 m c)

end Cert.Kernel.Frame

end
-- ==== Proof.KFrame.lean ====
/-
  The frame of the skip-LSTM cell kernel: the program runs, and its twelve argument arrays end as launched.

  @main is nine host operations, one pipelined region over 128 grid points, and three host operations (slices of
  the region's packed result). The region's body loads each of its ten input windows' staging buffers whole,
  computes, and stores each of its three output windows' staging buffers whole, once. So:

  * no host operation writes an argument array (each writes only its own result);
  * the region writes back only its three result arrays, none of them an argument;
  * at every grid point each input window's staging buffer holds that window's block of its array, whether the
    pipeline fetched it at that point or kept it from the point before (the weights' and biases' block index
    never moves), and the body leaves it there;
  * after the body each output window's staging buffer holds the stored value, a function of the ten input blocks.

  These give the pipeline library's frame run its proof data and body obligation; the frame claim is read off the
  run's post at the twelve argument arrays.
-/
import proofs.«172531_j18416819765876_1_alg».proof.Proof.KFrameHost
import Idealize.ShloMosaic.Lib.Pipeline.FrameBody
import Idealize.ShloMosaic.Lib.Pipeline.FrameSuffix
import Idealize.ShloMosaic.Lib.Ring
import Idealize.ShloMosaic.Lib.Tactic

-- membership of an index in a rectangle of 2048 rows is checked structurally, one step per coordinate
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input window's staging buffer holds its block

At a point where the pipeline fetches the window the buffer holds the fetched block; at a point where it does not
(the weights and biases after the first point) the block index is the previous point's, and the body left the
previous block in place. Either way the buffer holds the window's block at the point. No window is cut or idle. -/

/-- Input window 0 (x): its current staging buffer holds its block at every point, for ANY proof data whose
    array is V's and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (h): its current staging buffer holds its block at every point, for ANY proof data whose
    array is V's and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (c): its current staging buffer holds its block at every point, for ANY proof data whose
    array is V's and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 (the packed scalars): its current staging buffer holds its block at every point, for ANY proof data whose
    array is V's and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 (W_ih): its current staging buffer holds its block at every point, for ANY proof data whose
    array is V's and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 (W_hh): its current staging buffer holds its block at every point, for ANY proof data whose
    array is V's and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6 (b_ih): its current staging buffer holds its block at every point, for ANY proof data whose
    array is V's and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7 (b_hh): its current staging buffer holds its block at every point, for ANY proof data whose
    array is V's and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8 (the linear layer's weights): its current staging buffer holds its block at every point, for ANY proof data whose
    array is V's and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9 (the linear layer's bias): its current staging buffer holds its block at every point, for ANY proof data whose
    array is V's and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame run's post is a run to the
    frame claim's post: x, h, c are staged inputs, which the pipeline never writes, so they end as the region found
    them, that is as launched; the nine other arguments are staged by no window, so they end as the slices after
    the region leave them, that is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c)⟩) h

/-! ## The three stores cover their buffers -/

/-- The one store into the new hidden state's buffer is through the whole buffer. -/
theorem cover0_10 (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y
/-- So is the one into the new cell state's buffer (the same shape), -/
theorem cover0_11 (p0 : Vec F S2048x128 .f32) (y : S2048x128.Idx) :
    ∃ pc ∈ ([⟨rRows, p0⟩] : List (View.Piece (Elt F) S2048x128 .f32)), y ∈ pc.1.set :=
  cover0_10 p0 y
/-- and the one into the packed results' buffer. -/
theorem cover0_12 (p0 : Vec F S2048x3 .f32) (y : S2048x3.Idx) :
    ∃ pc ∈ ([⟨rScal, p0⟩] : List (View.Piece (Elt F) S2048x3 .f32)), y ∈ pc.1.set :=
  View.cover_of_tiled [⟨rScal, p0⟩] S2048x3.size (by rfl) y

/-! ## The body's triple -/

set_option maxHeartbeats 1000000 in
/-- The kernel body on whole staging memrefs — the ten inputs' at read contents x0 … x9, the three outputs' at
    anything — runs to the continuation holding the inputs' as they were and each output's at its out0_W of the
    inputs' contents. The body is ten whole-buffer loads of the inputs (eight in the first part, two in the second), three
    loads of the output buffers whose values are not used, and three whole-buffer stores; everything between is
    pure. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x3 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x128 .bf16) (harg9 : arg9.IsWhole) (arg10 : Memref sig .tc .vmem S1x1 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x3 .f32) (harg13 : arg13.IsWhole)
    (x0 : Vec F S2048x128 .f32) (x1 : Vec F S2048x128 .f32) (x2 : Vec F S2048x128 .f32) (x3 : Vec F S2048x3 .f32) (x4 : Vec F S512x128 .bf16) (x5 : Vec F S512x128 .bf16) (x6 : Vec F S1x512 .f32) (x7 : Vec F S1x512 .f32) (x8 : Vec F S1x128 .bf16) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out0_10 x0 x1 x2 x3 x4 x5 x6 x7 x8 x9) ∗ owns (c : Thread nD τ) arg12 fullShare (out0_11 x0 x1 x2 x3 x4 x5 x6 x7 x8 x9) ∗ owns (c : Thread nD τ) arg13 fullShare (out0_12 x0 x1 x2 x3 x4 x5 x6 x7 x8 x9)) -∗ K ⟨⟩))
      ⊢ wp frame (wpE (defs₀ (F := F)) Variants.none c none) E (cc0__skiplstm_kernel i arg1 harg1 arg2 harg2 arg3 harg3 arg4 harg4 arg5 harg5 arg6 harg6 arg7 harg7 arg8 harg8 arg9 harg9 arg10 harg10 arg11 harg11 arg12 harg12 arg13 harg13) K := by
  simp only [cc0__skiplstm_kernel_eq_skeleton]; unfold cc0__skiplstm_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_10 _)
  isplitl [H11]
  · iexists _; isplitr
    swap; · iexact H11
    ipureintro
    exact View.read_writes_eq_canon _ _ _ (cover0_11 _)
  iexists _; isplitr
  swap; · iexact H12
  ipureintro
  exact View.read_writes_eq_canon _ _ _ (cover0_12 _)

/-! ## The proof data's inputs at every point -/

/-- With the proof data of this kernel: each input window's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point t: the invariant, the core's debt (none), and each window's current
    staging buffer, whole, at what the pipeline left in it; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns: the same with each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any point: the inputs' buffers hold their blocks, so the body's triple applies at those blocks;
    the invariant and the core's debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with the statement below, which
-- takes unfolding plain definitions inside a metavariable's type
set_option backward.isDefEq.respectTransparency.types false in
/-- At the compiled mesh, for any values, from any memory with zero counters: every weakly fair execution of @main
    on the TensorCores terminates, and every final state has every array of the pipeline at what the pipeline
    library computes from the proof data (an input as the region found it, an output with every block written
    back) and every other unscoped buffer as the three slices after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Frame.run_main' depends on axioms: [propext, Classical.choice, Quot.sound] -/
#guard_msgs in #print axioms run_main

/-- THE FRAME, at any float instance: the program runs, and its twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Frame

end
-- ==== Proof.KIFrameDefs.lean ====
/-
  The frame of the skip-LSTM cell kernel: the definitions.

  The kernel is one pipelined region over a grid of 128 points. At each point it reads a block of 2048 rows of the
  input state (x, h, c, and three per-row scalars u, Δu, skip packed as the columns of one array), the weights and
  biases whole, and writes the 2048 rows of the new hidden state, of the new cell state, and of the three per-row
  results (new u, Δu out, skips to come) packed as the columns of one array.

  This file only NAMES things: the arrays' contents when the region is entered, each window's block at a point,
  the rectangles the body loads and stores through, what the body leaves in each output window's buffer as a
  function of the ten input blocks, and the proof data of the pipeline. Nothing is proved here but projections of
  the proof data.
-/
import proofs.«172531_j18416819765876_1_alg».proof.Proof.Gen.KernelIdeal.Launch
import proofs.«172531_j18416819765876_1_alg».proof.Proof.Gen.KernelIdeal.Skeleton
import proofs.«172531_j18416819765876_1_alg».proof.Proof.Gen.KernelIdeal.Points
import Idealize.ShloMosaic.Lib.Pipeline.FrameBody
import Idealize.ShloMosaic.Lib.Pipeline.FrameSuffix

noncomputable section

namespace Cert.KernelIdeal.Frame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ)

/-! ## The arrays when the region is entered -/

/-- Core c's TensorCore buffers when the region is entered, as a valuation: the launch contents m, overwritten by
    the nine host operations that precede the region (the skip flags converted to floats and made a column, the
    three scalar columns concatenated, the biases and the linear bias reshaped, the three weight arrays rounded
    to bf16). -/
abbrev V0 (c : Dev nD) : Valuation τ sig (Elt F) := StableHlo.after (List.flatten [hostOps0]) (fun b => m (c, b))

/-- The same, read at a TensorCore reference. -/
abbrev V (c : Dev nD) (b : Ref sig .tc) : Buf (Elt F) ((c : Thread nD τ).loc b) := V0 m c (Proc.devRef .tc b)

/-! ## The windows' blocks -/

/-- Window w's block at grid point t: the rows of its array (as the region finds it) that the point's block index
    selects. For the windows 4 … 9 (weights and biases) the block is the whole array at every point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles of the body's loads and stores

Every access of the body is through the rectangle that is the WHOLE staging buffer: one per buffer shape. -/

/-- The whole of a [2048, 128] buffer: the blocks of x, h, c and of the new h and new c. -/
abbrev rRows : Rect S2048x128 := Rect.unit (s := S2048x128) ![0, 0] S2048x128.size inb_S2048x128_S2048x128_0_0
/-- The whole of a [2048, 3] buffer: the blocks of the packed per-row scalars, in and out. -/
abbrev rScal : Rect S2048x3 := Rect.unit (s := S2048x3) ![0, 0] S2048x3.size inb_S2048x3_S2048x3_0_0
/-- The whole of a [512, 128] buffer: the input-to-hidden and the hidden-to-hidden weights. -/
abbrev rWeight : Rect S512x128 := Rect.unit (s := S512x128) ![0, 0] S512x128.size inb_S512x128_S512x128_0_0
/-- The whole of a [1, 512] buffer: the two bias rows. -/
abbrev rBias : Rect S1x512 := Rect.unit (s := S1x512) ![0, 0] S1x512.size inb_S1x512_S1x512_0_0
/-- The whole of a [1, 128] buffer: the weight row of the update-gate linear layer. -/
abbrev rLinW : Rect S1x128 := Rect.unit (s := S1x128) ![0, 0] S1x128.size inb_S1x128_S1x128_0_0
/-- The whole of a [1, 1] buffer: the bias of the update-gate linear layer. -/
abbrev rLinB : Rect S1x1 := Rect.unit (s := S1x1) ![0, 0] S1x1.size inb_S1x1_S1x1_0_0

/-! ## The values the three stores share

In what follows x0 … x9 are the contents of the ten input windows' staging buffers:
x0 = x, x1 = h, x2 = c (blocks of 2048 rows), x3 = the packed scalars (columns u, Δu, skip),
x4 = W_ih, x5 = W_hh (bf16), x6 = b_ih, x7 = b_hh, x8 = the linear layer's weight row (bf16), x9 = its bias. -/

/-- The column u of the packed scalars. -/
def uCol (x3 : Vec F S2048x3 .f32) : FVec F S2048x1 .f32 := k0_pay3 (View.ld x3 rScal)
/-- The column Δu of the packed scalars. -/
def duCol (x3 : Vec F S2048x3 .f32) : FVec F S2048x1 .f32 := k0_pay4 (View.ld x3 rScal)
/-- The column of skip flags (0 or 1 as floats) of the packed scalars. -/
def skipCol (x3 : Vec F S2048x3 .f32) : FVec F S2048x1 .f32 := k0_pay5 (View.ld x3 rScal)
/-- The binarized update gate: u rounded to the nearest integer, ties to even. -/
def buCol (x3 : Vec F S2048x3 .f32) : FVec F S2048x1 .f32 := k0_pay6 (View.ld x3 rScal)

/-- The new hidden state of the rows that are NOT skipped: o ⊙ tanh(new c), times the binarized gate — the LSTM
    cell on (x, h, c) with the weights and biases, gate by gate. -/
def hidNew (x0 x1 x2 : Vec F S2048x128 .f32) (x3 : Vec F S2048x3 .f32) (x4 x5 : Vec F S512x128 .bf16)
    (x6 x7 : Vec F S1x512 .f32) : FVec F S2048x128 .f32 :=
  k0_pay19 (View.ld x2 rRows) (buCol x3) (k0_pay7 (View.ld x0 rRows)) (k0_pay8 (View.ld x1 rRows))
    (k0_pay9 (View.ld x4 rWeight)) (k0_pay10 (View.ld x5 rWeight)) (k0_pay11 (View.ld x6 rBias)) (k0_pay12 (View.ld x7 rBias))
    (k0_pay13 (View.ld x0 rRows) (View.ld x1 rRows) (View.ld x4 rWeight) (View.ld x5 rWeight) (View.ld x6 rBias) (View.ld x7 rBias))
    (k0_pay14 (View.ld x5 rWeight)) (k0_pay15 (View.ld x7 rBias)) (k0_pay16 (View.ld x0 rRows) (View.ld x4 rWeight))
    (k0_pay17 (View.ld x6 rBias))

/-- The new cell state of the rows that are not skipped: f ⊙ c + i ⊙ g, times the binarized gate. -/
def cellNew (x0 x1 x2 : Vec F S2048x128 .f32) (x3 : Vec F S2048x3 .f32) (x4 x5 : Vec F S512x128 .bf16)
    (x6 x7 : Vec F S1x512 .f32) : FVec F S2048x128 .f32 :=
  k0_pay20 (View.ld x2 rRows) (buCol x3) (k0_pay7 (View.ld x0 rRows)) (k0_pay8 (View.ld x1 rRows))
    (k0_pay9 (View.ld x4 rWeight)) (k0_pay10 (View.ld x5 rWeight)) (k0_pay11 (View.ld x6 rBias)) (k0_pay12 (View.ld x7 rBias))
    (k0_pay13 (View.ld x0 rRows) (View.ld x1 rRows) (View.ld x4 rWeight) (View.ld x5 rWeight) (View.ld x6 rBias) (View.ld x7 rBias))
    (k0_pay14 (View.ld x5 rWeight)) (k0_pay15 (View.ld x7 rBias)) (k0_pay16 (View.ld x0 rRows) (View.ld x4 rWeight))
    (k0_pay17 (View.ld x6 rBias))

/-- That new cell state rounded to bf16: the left operand of the update-gate linear layer. -/
def cellNewBf (x0 x1 x2 : Vec F S2048x128 .f32) (x3 : Vec F S2048x3 .f32) (x4 x5 : Vec F S512x128 .bf16)
    (x6 x7 : Vec F S1x512 .f32) : FVec F S2048x128 .bf16 :=
  k0_pay21 (View.ld x2 rRows) (buCol x3) (k0_pay7 (View.ld x0 rRows)) (k0_pay8 (View.ld x1 rRows))
    (k0_pay9 (View.ld x4 rWeight)) (k0_pay10 (View.ld x5 rWeight)) (k0_pay11 (View.ld x6 rBias)) (k0_pay12 (View.ld x7 rBias))
    (k0_pay13 (View.ld x0 rRows) (View.ld x1 rRows) (View.ld x4 rWeight) (View.ld x5 rWeight) (View.ld x6 rBias) (View.ld x7 rBias))
    (k0_pay14 (View.ld x5 rWeight)) (k0_pay15 (View.ld x7 rBias)) (k0_pay16 (View.ld x0 rRows) (View.ld x4 rWeight))
    (k0_pay17 (View.ld x6 rBias))

/-- The linear layer's weight row as a column [128, 1]. -/
def linWT (x8 : Vec F S1x128 .bf16) : FVec F S128x1 .bf16 := k0_pay23 (View.ld x8 rLinW)
/-- The linear layer's bias. -/
def linB (x9 : Vec F S1x1 .f32) : FVec F S1x1 .f32 := k0_pay22 (View.ld x9 rLinB)
/-- The zero column the linear layer's product accumulates onto. -/
def zeroCol : FVec F S2048x1 .f32 := constant S2048x1 .f32 0x00000000#32

/-! ## What the body leaves in each output window's buffer

Each output buffer is stored once, whole; so its contents after the body are the stored value (View.canon of the
one piece). -/

/-- The new hidden state's buffer (window 10) after the body: skip ⊙ (h ⊙ (1 − bu)) + (1 − skip) ⊙ hidNew. -/
def out0_10 (x0 x1 x2 : Vec F S2048x128 .f32) (x3 : Vec F S2048x3 .f32) (x4 x5 : Vec F S512x128 .bf16)
    (x6 x7 : Vec F S1x512 .f32) (x8 : Vec F S1x128 .bf16) (x9 : Vec F S1x1 .f32) : Vec F S2048x128 .f32 :=
  View.canon [⟨rRows, k0_pay26 (View.ld x1 rRows) (skipCol x3) (buCol x3) (hidNew x0 x1 x2 x3 x4 x5 x6 x7)⟩]

/-- The new cell state's buffer (window 11) after the body: skip ⊙ (c ⊙ (1 − bu)) + (1 − skip) ⊙ cellNew. -/
def out0_11 (x0 x1 x2 : Vec F S2048x128 .f32) (x3 : Vec F S2048x3 .f32) (x4 x5 : Vec F S512x128 .bf16)
    (x6 x7 : Vec F S1x512 .f32) (x8 : Vec F S1x128 .bf16) (x9 : Vec F S1x1 .f32) : Vec F S2048x128 .f32 :=
  View.canon [⟨rRows, k0_pay27 (View.ld x2 rRows) (skipCol x3) (buCol x3) (cellNew x0 x1 x2 x3 x4 x5 x6 x7)⟩]

/-- The packed results' buffer (window 12) after the body: the columns new u, Δu out and the number of skips to
    come, concatenated. Each is computed from the scalar columns and from the update gate
    sigmoid(cellNewBf · linWT + linB). -/
def out0_12 (x0 x1 x2 : Vec F S2048x128 .f32) (x3 : Vec F S2048x3 .f32) (x4 x5 : Vec F S512x128 .bf16)
    (x6 x7 : Vec F S1x512 .f32) (x8 : Vec F S1x128 .bf16) (x9 : Vec F S1x1 .f32) : Vec F S2048x3 .f32 :=
  View.canon [⟨rScal, k0_pay1
    (k0_pay28 (uCol x3) (duCol x3) (skipCol x3) (buCol x3) (cellNewBf x0 x1 x2 x3 x4 x5 x6 x7) (linB x9) (linWT x8) zeroCol)
    (k0_pay29 (duCol x3) (skipCol x3) (cellNewBf x0 x1 x2 x3 x4 x5 x6 x7) (linB x9) (linWT x8) zeroCol)
    (k0_pay30 (uCol x3) (duCol x3) (skipCol x3) (buCol x3) (cellNewBf x0 x1 x2 x3 x4 x5 x6 x7) (linB x9) (linWT x8) zeroCol)⟩]

/-! ## The pipeline's proof data -/

/-- The proof data of the pipeline on core c: the arrays as the region finds them; after the body at point t each
    input window's buffer still at its block and each output window's at its out0_W of the ten input blocks; the
    invariant is the part of the core the body neither reads nor writes; nothing is owed; the shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window: an input's buffer at its block, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
/-- an output's at the value stored, as a function of the ten input blocks. -/
theorem after0_10 (c : Dev nD) (t : Fin cfg0.N) : (dats m 0 c).after 10 t
    = out0_10 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem after0_11 (c : Dev nD) (t : Fin cfg0.N) : (dats m 0 c).after 11 t
    = out0_11 (iblk m c 0 t) (iblk m c 1 t) (iblk m c 2 t) (iblk m c 3 t) (iblk m c 4 t) (iblk m c 5 t) (iblk m c 6 t) (iblk m c 7 t) (iblk m c 8 t) (iblk m c 9 t) := by
  dsimp only [dats]
theorem after0_12 (c : Dev nD) (t : Fin cfg0.N) : (dats m 0 c).after 12 t
    = out0_12 (iblk m c 0 t) (iblk m c 1 t) (iblk m c 2 t) (iblk m c 3 t) (iblk m c 4 t) (iblk m c 5 t) (iblk m c 6 t) (iblk m c 7 t) (iblk m c 8 t) (iblk m c 9 t) := by
  dsimp only [dats]

end Cert.KernelIdeal.Frame

end
-- ==== Proof.KIFrameHost.lean ====
/-
  The frame of the skip-LSTM cell kernel: the host side of @main.

  @main is nine host operations (the skip flags made a float column, the three scalar columns packed into one
  array, the biases reshaped to rows, the weights rounded to bf16), the pipelined region, and three host operations
  (the three columns of the region's packed result sliced apart). Each host operation writes one buffer, its own
  result, and none of these results is an argument of @main. So every argument array is found by the region as
  launched, and is left by the operations after the region as the region left it.
-/
import proofs.«172531_j18416819765876_1_alg».proof.Proof.KIFrameDefs
import Idealize.ShloMosaic.Lib.Pipeline.FrameBody
import Idealize.ShloMosaic.Lib.Pipeline.FrameSuffix

noncomputable section

namespace Cert.KernelIdeal.Frame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ)

/-! ## @main around the region -/

/-- The host operations before the region allocate nothing; -/
theorem hostOps0_fresh : (hostOps0 : List (HloOp τ sig (Elt F))).Forall fun op => op.fresh = ∅ := by
  simp only [List.Forall]; repeat' constructor
/-- nor do those after it. -/
theorem hostOps1_fresh : (hostOps1 : List (HloOp τ sig (Elt F))).Forall fun op => op.fresh = ∅ := by
  simp only [List.Forall]; repeat' constructor

/-- @main is the nine host operations, the region, the three host operations: run from the launch contents m, it
    reaches the region with the arrays at V and continues after it with the three slices. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The three slices after the region touch only unscoped TensorCore buffers: the pipeline's arrays and the
    buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And none writes an array of the pipeline: each writes its own result (one of the three sliced columns), which
    no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.unary_writes, Finset.mem_singleton] <;> exact StableHlo.devRef_ne_of_ne (by decide)

/-! ## An array no host operation writes

The nine operations before the region write main_v0 … main_v8, the three after it main_v10, main_v11, main_v12;
every other buffer passes through them unchanged. -/

/-- A buffer that is none of main_v0 … main_v8 is found by the region as launched. -/
theorem V_of_not_written (c : Dev nD) (b : Ref sig .tc)
    (hb : ∀ y ∈ ([main_v0, main_v1, main_v2, main_v3, main_v4, main_v5, main_v6, main_v7, main_v8] : List (Ref sig .tc)), b ≠ y) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (hb _ (by simp))))

/-- A buffer that is none of main_v0 … main_v8, none of main_v10, main_v11, main_v12 and no array of the pipeline
    ends as launched, whatever the proof data: the slices do not write it, the region does not stage it, the
    operations before the region do not write it. -/
theorem W_of_not_written (dats : (p : Fin _) → (c : Dev nD) → Dat τ (Elt F) Unit ℕ (UR sig nD τ) ℕ (cfgs p) c) (c : Dev nD) (b : Ref sig .tc)
    (hb : ∀ y ∈ ([main_v0, main_v1, main_v2, main_v3, main_v4, main_v5, main_v6, main_v7, main_v8] : List (Ref sig .tc)), b ≠ y)
    (hb' : ∀ y ∈ ([main_v10, main_v11, main_v12] : List (Ref sig .tc)), b ≠ y)
    (hw : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (hb' _ (by simp)))),
    Pipeline.withArrays_of_ne _ c (V0 m c) _ b hw]
  exact V_of_not_written m c b hb

/-- Each of the twelve argument arrays is found by the region as launched. -/
theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)
theorem V_main_arg8 (c : Dev nD) : V m c main_arg8 = m ((c : Thread nD τ).loc main_arg8) := V_of_not_written m c _ (by decide)
theorem V_main_arg9 (c : Dev nD) : V m c main_arg9 = m ((c : Thread nD τ).loc main_arg9) := V_of_not_written m c _ (by decide)
theorem V_main_arg10 (c : Dev nD) : V m c main_arg10 = m ((c : Thread nD τ).loc main_arg10) := V_of_not_written m c _ (by decide)
theorem V_main_arg11 (c : Dev nD) : V m c main_arg11 = m ((c : Thread nD τ).loc main_arg11) := V_of_not_written m c _ (by decide)

/-- Each of the nine argument arrays that no window stages (u, Δu, the skip flags, the weights and biases as
    launched, before their rounding or reshaping) ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_of_not_written m dats c _ (by decide) (by decide) (by decide)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  W_of_not_written m dats c _ (by decide) (by decide) (by decide)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  W_of_not_written m dats c _ (by decide) (by decide) (by decide)
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  W_of_not_written m dats c _ (by decide) (by decide) (by decide)
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  W_of_not_written m dats c _ (by decide) (by decide) (by decide)
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  W_of_not_written m dats c _ (by decide) (by decide) (by decide)
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  W_of_not_written m dats c _ (by decide) (by decide) (by decide)
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  W_of_not_written m dats c _ (by decide) (by decide) (by decide)
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  W_of_not_written m dats c _ (by decide) (by decide) (by decide)

/-- An array an INPUT window stages ends as the region found it, for any proof data whose arrays are the
    region-entry contents: the slices after the region do not write it, and the pipeline writes back outputs only. -/
theorem W_of_staged_input (dats : (p : Fin _) → (c : Dev nD) → Dat τ (Elt F) Unit ℕ (UR sig nD τ) ℕ (cfgs p) c)
    (hA : ∀ c w, (dats 0 c).A w = V m c (Pipeline.arrRef spec0 w)) (c : Dev nD) (w : Fin cfg0.W) (hin : (cfg0.win w).isOut = false)
    (hb' : ∀ y ∈ ([main_v10, main_v11, main_v12] : List (Ref sig .tc)), Pipeline.arrRef spec0 w ≠ y) :
    Pipeline.afterTail₀ cfgs dats 0 (V0 m) [hostOps1] c (Pipeline.arrRef spec0 w) = V m c (Pipeline.arrRef spec0 w) := by
  unfold Pipeline.afterTail₀
  rw [StableHlo.after_of_forall_not_mem (b := Proc.devRef .tc (Pipeline.arrRef spec0 w)) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (hb' _ (by simp)))),
    Pipeline.withArrays_arr spec0 launch0.win.arr_inj c (V0 m c) _ w]
  exact ((dats 0 c).arrAt_in w hin _).trans (hA c w)

/-- So the three argument arrays the pipeline stages as inputs (x, h, c) end as launched. -/
theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg0 = m ((c : Thread nD τ).loc main_arg0) :=
  (W_of_staged_input m dats hA c 0 rfl (by decide)).trans (V_main_arg0 m c)
theorem W_main_arg2 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg2 = m ((c : Thread nD τ).loc main_arg2) :=
  (W_of_staged_input m dats hA c 1 rfl (by decide)).trans (V_main_arg2 m c)
theorem W_main_arg3 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg3 = m ((c : Thread nD τ).loc main_arg3) :=
  (W_of_staged_input m dats hA c 2 rfl (by decide)).trans (V_main_arg3 m c)

end Cert.KernelIdeal.Frame

end
-- ==== Proof.KIFrame.lean ====
/-
  The frame of the skip-LSTM cell kernel: the program runs, and its twelve argument arrays end as launched.

  @main is nine host operations, one pipelined region over 128 grid points, and three host operations (slices of
  the region's packed result). The region's body loads each of its ten input windows' staging buffers whole,
  computes, and stores each of its three output windows' staging buffers whole, once. So:

  * no host operation writes an argument array (each writes only its own result);
  * the region writes back only its three result arrays, none of them an argument;
  * at every grid point each input window's staging buffer holds that window's block of its array, whether the
    pipeline fetched it at that point or kept it from the point before (the weights' and biases' block index
    never moves), and the body leaves it there;
  * after the body each output window's staging buffer holds the stored value, a function of the ten input blocks.

  These give the pipeline library's frame run its proof data and body obligation; the frame claim is read off the
  run's post at the twelve argument arrays.
-/
import proofs.«172531_j18416819765876_1_alg».proof.Proof.KIFrameHost
import Idealize.ShloMosaic.Lib.Pipeline.FrameBody
import Idealize.ShloMosaic.Lib.Pipeline.FrameSuffix
import Idealize.ShloMosaic.Lib.Ring
import Idealize.ShloMosaic.Lib.Tactic

-- membership of an index in a rectangle of 2048 rows is checked structurally, one step per coordinate
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input window's staging buffer holds its block

At a point where the pipeline fetches the window the buffer holds the fetched block; at a point where it does not
(the weights and biases after the first point) the block index is the previous point's, and the body left the
previous block in place. Either way the buffer holds the window's block at the point. No window is cut or idle. -/

/-- Input window 0 (x): its current staging buffer holds its block at every point, for ANY proof data whose
    array is V's and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (h): its current staging buffer holds its block at every point, for ANY proof data whose
    array is V's and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (c): its current staging buffer holds its block at every point, for ANY proof data whose
    array is V's and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 (the packed scalars): its current staging buffer holds its block at every point, for ANY proof data whose
    array is V's and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 (W_ih): its current staging buffer holds its block at every point, for ANY proof data whose
    array is V's and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 (W_hh): its current staging buffer holds its block at every point, for ANY proof data whose
    array is V's and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6 (b_ih): its current staging buffer holds its block at every point, for ANY proof data whose
    array is V's and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7 (b_hh): its current staging buffer holds its block at every point, for ANY proof data whose
    array is V's and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8 (the linear layer's weights): its current staging buffer holds its block at every point, for ANY proof data whose
    array is V's and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9 (the linear layer's bias): its current staging buffer holds its block at every point, for ANY proof data whose
    array is V's and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame run's post is a run to the
    frame claim's post: x, h, c are staged inputs, which the pipeline never writes, so they end as the region found
    them, that is as launched; the nine other arguments are staged by no window, so they end as the slices after
    the region leave them, that is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c)⟩) h

/-! ## The three stores cover their buffers -/

/-- The one store into the new hidden state's buffer is through the whole buffer. -/
theorem cover0_10 (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y
/-- So is the one into the new cell state's buffer (the same shape), -/
theorem cover0_11 (p0 : Vec F S2048x128 .f32) (y : S2048x128.Idx) :
    ∃ pc ∈ ([⟨rRows, p0⟩] : List (View.Piece (Elt F) S2048x128 .f32)), y ∈ pc.1.set :=
  cover0_10 p0 y
/-- and the one into the packed results' buffer. -/
theorem cover0_12 (p0 : Vec F S2048x3 .f32) (y : S2048x3.Idx) :
    ∃ pc ∈ ([⟨rScal, p0⟩] : List (View.Piece (Elt F) S2048x3 .f32)), y ∈ pc.1.set :=
  View.cover_of_tiled [⟨rScal, p0⟩] S2048x3.size (by rfl) y

/-! ## The body's triple -/

set_option maxHeartbeats 1000000 in
/-- The kernel body on whole staging memrefs — the ten inputs' at read contents x0 … x9, the three outputs' at
    anything — runs to the continuation holding the inputs' as they were and each output's at its out0_W of the
    inputs' contents. The body is ten whole-buffer loads of the inputs (eight in the first part, two in the second), three
    loads of the output buffers whose values are not used, and three whole-buffer stores; everything between is
    pure. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x3 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x128 .bf16) (harg9 : arg9.IsWhole) (arg10 : Memref sig .tc .vmem S1x1 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x3 .f32) (harg13 : arg13.IsWhole)
    (x0 : Vec F S2048x128 .f32) (x1 : Vec F S2048x128 .f32) (x2 : Vec F S2048x128 .f32) (x3 : Vec F S2048x3 .f32) (x4 : Vec F S512x128 .bf16) (x5 : Vec F S512x128 .bf16) (x6 : Vec F S1x512 .f32) (x7 : Vec F S1x512 .f32) (x8 : Vec F S1x128 .bf16) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out0_10 x0 x1 x2 x3 x4 x5 x6 x7 x8 x9) ∗ owns (c : Thread nD τ) arg12 fullShare (out0_11 x0 x1 x2 x3 x4 x5 x6 x7 x8 x9) ∗ owns (c : Thread nD τ) arg13 fullShare (out0_12 x0 x1 x2 x3 x4 x5 x6 x7 x8 x9)) -∗ K ⟨⟩))
      ⊢ wp frame (wpE (defs₀ (F := F)) Variants.none c none) E (cc0__skiplstm_kernel i arg1 harg1 arg2 harg2 arg3 harg3 arg4 harg4 arg5 harg5 arg6 harg6 arg7 harg7 arg8 harg8 arg9 harg9 arg10 harg10 arg11 harg11 arg12 harg12 arg13 harg13) K := by
  simp only [cc0__skiplstm_kernel_eq_skeleton]; unfold cc0__skiplstm_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_10 _)
  isplitl [H11]
  · iexists _; isplitr
    swap; · iexact H11
    ipureintro
    exact View.read_writes_eq_canon _ _ _ (cover0_11 _)
  iexists _; isplitr
  swap; · iexact H12
  ipureintro
  exact View.read_writes_eq_canon _ _ _ (cover0_12 _)

/-! ## The proof data's inputs at every point -/

/-- With the proof data of this kernel: each input window's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point t: the invariant, the core's debt (none), and each window's current
    staging buffer, whole, at what the pipeline left in it; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns: the same with each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any point: the inputs' buffers hold their blocks, so the body's triple applies at those blocks;
    the invariant and the core's debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with the statement below, which
-- takes unfolding plain definitions inside a metavariable's type
set_option backward.isDefEq.respectTransparency.types false in
/-- At the compiled mesh, for any values, from any memory with zero counters: every weakly fair execution of @main
    on the TensorCores terminates, and every final state has every array of the pipeline at what the pipeline
    library computes from the proof data (an input as the region found it, an output with every block written
    back) and every other unscoped buffer as the three slices after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Frame.run_main' depends on axioms: [propext, Classical.choice, Quot.sound] -/
#guard_msgs in #print axioms run_main

/-- THE FRAME, at any float instance: the program runs, and its twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Frame

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KGate.lean ====
/-
  One gate of the cell, as the kernel spells it on a block of 2048 rows, read at an entry.

  Gate number k uses rows 128k … 128k + 127 of the two weight matrices and the same columns of the two bias rows.
  On a block the kernel forms
      ((x · W_ihᵀ[k] + b_ih[k]) + h · W_hhᵀ[k]) + b_hh[k]
  with each product a contraction of the 128 columns into a zero accumulator, the weight slice transposed, and each
  bias slice broadcast down the rows. At row p and column j this is
      ((Σ_i x(p,i)·W_ih(128k + j, i)) + b_ih(128k + j)) + (Σ_i h(p,i)·W_hh(128k + j, i)) + b_hh(128k + j):
  the slice shifts the row index by the offset, the transpose swaps the two coordinates, the broadcast forgets the row.
  The update layer's product, [2048,128]·[128,1], is read the same way.
-/
import proofs.«172531_j18416819765876_1_alg».proof.Proof.Gen.KernelIdeal.Skeleton
import proofs.«172531_j18416819765876_1_alg».proof.Proof.LibPlainMatmul
import proofs.«172531_j18416819765876_1_alg».proof.Proof.LibKeepdims
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Where the two products' dimension numbers send an output index and a contraction index -/

theorem dGate_l0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide),
    dif_pos (show (0 : Fin S2048x128.rank) ∈ dot_S2048x128_S128x128_S2048x128_1_0_0_1_n_n.lhsNonContracting by decide)]
  rfl
theorem dGate_l1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem dGate_r0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem dGate_r1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide),
    dif_pos (show (1 : Fin S128x128.rank) ∈ dot_S2048x128_S128x128_S2048x128_1_0_0_1_n_n.rhsNonContracting by decide)]
  rfl

theorem dLin_l0 (i : S2048x1.Idx) (q : dot_S2048x128_S128x1_S2048x1_1_0_0_1_n_n.contr.Idx) :
    (dot_S2048x128_S128x1_S2048x1_1_0_0_1_n_n.lhsIdx i q 0).val = (i 0).val := by
  unfold DotDims.lhsIdx
  rw [dif_neg (show ¬(0 : Fin S2048x128.rank) ∈ dot_S2048x128_S128x1_S2048x1_1_0_0_1_n_n.lhsBatch by decide),
    dif_pos (show (0 : Fin S2048x128.rank) ∈ dot_S2048x128_S128x1_S2048x1_1_0_0_1_n_n.lhsNonContracting by decide)]
  rfl
theorem dLin_l1 (i : S2048x1.Idx) (q : dot_S2048x128_S128x1_S2048x1_1_0_0_1_n_n.contr.Idx) :
    (dot_S2048x128_S128x1_S2048x1_1_0_0_1_n_n.lhsIdx i q 1).val = (q ⟨0, by decide⟩).val :=
  dot_S2048x128_S128x1_S2048x1_1_0_0_1_n_n.lhsIdx_val_of_single rfl i q
theorem dLin_r0 (i : S2048x1.Idx) (q : dot_S2048x128_S128x1_S2048x1_1_0_0_1_n_n.contr.Idx) :
    (dot_S2048x128_S128x1_S2048x1_1_0_0_1_n_n.rhsIdx i q 0).val = (q ⟨0, by decide⟩).val :=
  dot_S2048x128_S128x1_S2048x1_1_0_0_1_n_n.rhsIdx_val_of_single rfl i q
theorem dLin_r1 (i : S2048x1.Idx) (q : dot_S2048x128_S128x1_S2048x1_1_0_0_1_n_n.contr.Idx) :
    (dot_S2048x128_S128x1_S2048x1_1_0_0_1_n_n.rhsIdx i q 1).val = (i 1).val := by
  unfold DotDims.rhsIdx
  rw [dif_neg (show ¬(1 : Fin S128x1.rank) ∈ dot_S2048x128_S128x1_S2048x1_1_0_0_1_n_n.rhsBatch by decide),
    dif_pos (show (1 : Fin S128x1.rank) ∈ dot_S2048x128_S128x1_S2048x1_1_0_0_1_n_n.rhsNonContracting by decide)]
  rfl

/-- A block product of the gates' shape into the zero accumulator, at (p, j), is the sum over the 128 contracted
    columns. -/
theorem gateDot_at {φ₁ φ₂ : FTy} (a : FVec Ideal S2048x128 φ₁) (b : FVec Ideal S128x128 φ₂) (p : Fin 2048) (j : Fin 128) :
    matmul dot_S2048x128_S128x128_S2048x128_1_0_0_1_n_n none a b (constant (F := Ideal) S2048x128 .f32 0x00000000#32) (ix2 p j)
      = ∑ k : Fin 128, a (ix2 p k) * b (ix2 k j) :=
  Cert.LibPlainMatmul.matmul_zero_at dot_S2048x128_S128x128_S2048x128_1_0_0_1_n_n none rfl rfl
    dGate_l0 dGate_l1 dGate_r0 dGate_r1 a b p j

/-- The update layer's product, [2048,128]·[128,1] into the zero accumulator, at (p, 0). -/
theorem linDot_at {φ₁ φ₂ : FTy} (a : FVec Ideal S2048x128 φ₁) (b : FVec Ideal S128x1 φ₂) (p : Fin 2048) (u : Fin 1) :
    matmul dot_S2048x128_S128x1_S2048x1_1_0_0_1_n_n none a b (constant (F := Ideal) S2048x1 .f32 0x00000000#32) (ix2 p u)
      = ∑ k : Fin 128, a (ix2 p k) * b (ix2 k u) :=
  Cert.LibPlainMatmul.matmul_zero_at dot_S2048x128_S128x1_S2048x1_1_0_0_1_n_n none rfl rfl
    dLin_l0 dLin_l1 dLin_r0 dLin_r1 a b p u

/-! ## One gate's pre-activation on a block -/

/-- Gate pre-activation from rows `off … off + 127` of the weights and the same columns of the biases. -/
def gateE (off : ℕ) (hw : S512x128.Slices ![off, 0] S128x128) (hb : S1x512.Slices ![0, off] S1x128)
    (Xb Hb : FVec Ideal S2048x128 .bf16) (W12 W14 : FVec Ideal S512x128 .bf16) (B16 B18 : FVec Ideal S1x512 .f32) :
    FVec Ideal S2048x128 .f32 :=
  addf (addf (addf
    (matmul dot_S2048x128_S128x128_S2048x128_1_0_0_1_n_n none Xb
      (transpose S128x128 [1, 0] (extractStridedSlice S128x128 ![off, 0] W12 hw) transposes_S128x128_p1_0_S128x128)
      (constant S2048x128 .f32 0x00000000#32))
    (broadcastTo S2048x128 (extractStridedSlice S1x128 ![0, off] B16 hb) broadcasts_S1x128_S2048x128))
    (matmul dot_S2048x128_S128x128_S2048x128_1_0_0_1_n_n none Hb
      (transpose S128x128 [1, 0] (extractStridedSlice S128x128 ![off, 0] W14 hw) transposes_S128x128_p1_0_S128x128)
      (constant S2048x128 .f32 0x00000000#32)))
    (broadcastTo S2048x128 (extractStridedSlice S1x128 ![0, off] B18 hb) broadcasts_S1x128_S2048x128)

/-- A weight slice transposed, at (i, j): the weights at row off + j, column i. -/
theorem wT_at (off : ℕ) (hoff : off + 128 ≤ 512) (hw : S512x128.Slices ![off, 0] S128x128) (W : FVec Ideal S512x128 .bf16)
    (i j : Fin 128) :
    transpose S128x128 [1, 0] (extractStridedSlice S128x128 ![off, 0] W hw) transposes_S128x128_p1_0_S128x128 (ix2 i j)
      = W (ix2 (⟨off + j.val, by omega⟩ : Fin 512) i) :=
  (transpose_ix2_apply _ transposes_S128x128_p1_0_S128x128 i j).trans
    (slice2_axis0_apply off W hw j i ⟨off + j.val, by omega⟩ rfl)

/-- A bias slice broadcast down the rows, at (p, j): the bias at column off + j. -/
theorem bRow_at (off : ℕ) (hoff : off + 128 ≤ 512) (hb : S1x512.Slices ![0, off] S1x128) (B : FVec Ideal S1x512 .f32)
    (p : Fin 2048) (j : Fin 128) :
    broadcastTo S2048x128 (extractStridedSlice S1x128 ![0, off] B hb) broadcasts_S1x128_S2048x128 (ix2 p j)
      = B (ix2 (0 : Fin 1) (⟨off + j.val, by omega⟩ : Fin 512)) :=
  (broadcastTo_1b_ab_apply _ broadcasts_S1x128_S2048x128 p j).trans
    (slice2_axis1_apply off B hb 0 j ⟨off + j.val, by omega⟩ rfl)

/-- The gate's pre-activation at row p, column j. -/
theorem gate_at (off : ℕ) (hoff : off + 128 ≤ 512) (hw : S512x128.Slices ![off, 0] S128x128) (hb : S1x512.Slices ![0, off] S1x128)
    (Xb Hb : FVec Ideal S2048x128 .bf16) (W12 W14 : FVec Ideal S512x128 .bf16) (B16 B18 : FVec Ideal S1x512 .f32)
    (p : Fin 2048) (j : Fin 128) :
    gateE off hw hb Xb Hb W12 W14 B16 B18 (ix2 p j)
      = (((∑ i : Fin 128, Xb (ix2 p i) * W12 (ix2 (⟨off + j.val, by omega⟩ : Fin 512) i))
            + B16 (ix2 (0 : Fin 1) (⟨off + j.val, by omega⟩ : Fin 512)))
          + ∑ i : Fin 128, Hb (ix2 p i) * W14 (ix2 (⟨off + j.val, by omega⟩ : Fin 512) i))
        + B18 (ix2 (0 : Fin 1) (⟨off + j.val, by omega⟩ : Fin 512)) := by
  unfold gateE
  rw [addf_apply, addf_apply, addf_apply, gateDot_at, gateDot_at, bRow_at off hoff, bRow_at off hoff]
  simp only [wT_at off hoff]

end Cert.KernelIdeal.Pay

end
-- ==== Proof.KPay.lean ====
/-
  The kernel's payloads on one block of 2048 rows, read at an entry, are the specification's values at the
  corresponding row of the whole arrays.

  Everything the body computes at row p of a block depends on row p of the blocks of x, h, c and of the three packed
  scalar columns (u, δu, the mask as a number), and on the whole weights and biases. `RowOf` states that row p of the
  blocks IS row r of the arrays; under it each payload entry is the specification's value at r. The only steps that
  are not unfoldings: a product into a zero accumulator is a sum over the contracted axis; a slice shifts an index; a
  transpose swaps two coordinates; a broadcast forgets a coordinate; and the blend by the mask's number is the choice
  by the mask's bit.
-/
import proofs.«172531_j18416819765876_1_alg».proof.Proof.KGate
import proofs.«172531_j18416819765876_1_alg».proof.Proof.Spec

noncomputable section

open scoped BigOperators

namespace Cert.KernelIdeal.Pay

open Cert.KernelIdeal Cert.KernelIdeal.Gen Idealize.ShloMosaic Idealize.ShloMosaic.ValueIdx Cert.SkipCell

/-- Row `p` of the ten blocks is row `r` of the argument arrays (the weights and biases are whole in every block;
    the third packed column is the mask bit as the number 0 or 1). -/
structure RowOf (A : Args) (r : Fin 262144) (p : Fin 2048)
    (X H C : Vec Ideal S2048x128 .f32) (S : Vec Ideal S2048x3 .f32) (WI WH : Vec Ideal S512x128 .bf16)
    (BI BH : Vec Ideal S1x512 .f32) (LW : Vec Ideal S1x128 .bf16) (LB : Vec Ideal S1x1 .f32) : Prop where
  hx : ∀ i : Fin 128, X (ix2 p i) = A.x (ix2 r i)
  hh : ∀ i : Fin 128, H (ix2 p i) = A.h (ix2 r i)
  hc : ∀ i : Fin 128, C (ix2 p i) = A.c (ix2 r i)
  hu : S (ix2 p (0 : Fin 3)) = A.u (ix2 r 0)
  hdu : S (ix2 p (1 : Fin 3)) = A.du (ix2 r 0)
  hsk : S (ix2 p (2 : Fin 3)) = bitNum (A.sk (ix1 r))
  hwi : ∀ (o : Fin 512) (i : Fin 128), WI (ix2 o i) = A.wi (ix2 o i)
  hwh : ∀ (o : Fin 512) (i : Fin 128), WH (ix2 o i) = A.wh (ix2 o i)
  hbi : ∀ o : Fin 512, BI (ix2 (0 : Fin 1) o) = A.bi (ix1 o)
  hbh : ∀ o : Fin 512, BH (ix2 (0 : Fin 1) o) = A.bh (ix1 o)
  hlw : ∀ j : Fin 128, LW (ix2 (0 : Fin 1) j) = A.lw (ix2 0 j)
  hlb : LB (ix2 (0 : Fin 1) (0 : Fin 1)) = A.lb (ix1 0)

variable {A : Args} {r : Fin 262144} {p : Fin 2048}
  {X H C : Vec Ideal S2048x128 .f32} {S : Vec Ideal S2048x3 .f32} {WI WH : Vec Ideal S512x128 .bf16}
  {BI BH : Vec Ideal S1x512 .f32} {LW : Vec Ideal S1x128 .bf16} {LB : Vec Ideal S1x1 .f32}

/-- A gate's pre-activation on the block, at (p, j), is the specification's at row r and stacked row o = off + j. -/
theorem gate_row (R : RowOf A r p X H C S WI WH BI BH LW LB) (off : ℕ) (hoff : off + 128 ≤ 512)
    (hw : S512x128.Slices ![off, 0] S128x128) (hb : S1x512.Slices ![0, off] S1x128) (j : Fin 128) (o : Fin 512)
    (ho : o.val = off + j.val) :
    gateE off hw hb (k0_pay7 X) (k0_pay8 H) (k0_pay9 WI) (k0_pay10 WH) (k0_pay11 BI) (k0_pay12 BH) (ix2 p j)
      = pre A r o := by
  have hlt : off + j.val < 512 := by have := j.isLt; omega
  obtain rfl : o = ⟨off + j.val, hlt⟩ := Fin.ext ho
  have e7 : ∀ i : Fin 128, k0_pay7 X (ix2 p i) = A.x (ix2 r i) := fun i => R.hx i
  have e8 : ∀ i : Fin 128, k0_pay8 H (ix2 p i) = A.h (ix2 r i) := fun i => R.hh i
  have e9 : ∀ (o : Fin 512) (i : Fin 128), k0_pay9 WI (ix2 o i) = A.wi (ix2 o i) := fun o i => by
    unfold k0_pay9; rw [shapeCast_self]; exact R.hwi o i
  have e10 : ∀ (o : Fin 512) (i : Fin 128), k0_pay10 WH (ix2 o i) = A.wh (ix2 o i) := fun o i => by
    unfold k0_pay10; rw [shapeCast_self]; exact R.hwh o i
  have e11 : ∀ o : Fin 512, k0_pay11 BI (ix2 (0 : Fin 1) o) = A.bi (ix1 o) := fun o => by
    unfold k0_pay11; rw [shapeCast_self]; exact R.hbi o
  have e12 : ∀ o : Fin 512, k0_pay12 BH (ix2 (0 : Fin 1) o) = A.bh (ix1 o) := fun o => by
    unfold k0_pay12; rw [shapeCast_self]; exact R.hbh o
  rw [gate_at off hoff]
  simp only [e7, e8, e9, e10, e11, e12]
  rfl

/-! ## The cell state on the block -/

/-- The input gate (the first payload the later parts are handed) at (p, j). -/
theorem ig_row (R : RowOf A r p X H C S WI WH BI BH LW LB) (j : Fin 128) :
    k0_pay13 X H WI WH BI BH (ix2 p j) = SkipCell.sig (pre A r (o0 j)) := by
  show Ideal.logistic (gateE 0 slices_S512x128_o0_0_S128x128 slices_S1x512_o0_0_S1x128
      (k0_pay7 X) (k0_pay8 H) (k0_pay9 WI) (k0_pay10 WH) (k0_pay11 BI) (k0_pay12 BH) (ix2 p j)) = _
  rw [gate_row R 0 (by omega) _ _ j (o0 j) (by simp [o0])]
  rfl

/-- The block's new cell state before gating: the forget gate times c plus the input gate times the candidate. -/
def ncB (X H C : Vec Ideal S2048x128 .f32) (WI WH : Vec Ideal S512x128 .bf16) (BI BH : Vec Ideal S1x512 .f32) :
    FVec Ideal S2048x128 .f32 :=
  k0_pay18 C (k0_pay7 X) (k0_pay8 H) (k0_pay9 WI) (k0_pay10 WH) (k0_pay11 BI) (k0_pay12 BH)
    (k0_pay13 X H WI WH BI BH) (k0_pay14 WH) (k0_pay15 BH) (k0_pay16 X WI) (k0_pay17 BI)

theorem nc_row (R : RowOf A r p X H C S WI WH BI BH LW LB) (j : Fin 128) :
    ncB X H C WI WH BI BH (ix2 p j) = nc A r j := by
  show Ideal.logistic (gateE 128 slices_S512x128_o128_0_S128x128 slices_S1x512_o0_128_S1x128
        (k0_pay7 X) (k0_pay8 H) (k0_pay9 WI) (k0_pay10 WH) (k0_pay11 BI) (k0_pay12 BH) (ix2 p j)) * C (ix2 p j)
      + k0_pay13 X H WI WH BI BH (ix2 p j)
        * Ideal.tanh (gateE 256 slices_S512x128_o256_0_S128x128 slices_S1x512_o0_256_S1x128
            (k0_pay7 X) (k0_pay8 H) (k0_pay9 WI) (k0_pay10 WH) (k0_pay11 BI) (k0_pay12 BH) (ix2 p j)) = _
  rw [gate_row R 128 (by omega) _ _ j (o1 j) (by simp [o1]), gate_row R 256 (by omega) _ _ j (o2 j) (by simp [o2]),
    ig_row R j, R.hc j]
  rfl

/-! ## The three packed scalar columns and the rounded gate -/

theorem u_row (R : RowOf A r p X H C S WI WH BI BH LW LB) : k0_pay3 S (ix2 p (0 : Fin 1)) = A.u (ix2 r 0) := by
  show extractStridedSlice S2048x1 ![0, 0] (shapeCast S2048x3 S shapeCasts_S2048x3_S2048x3) slices_S2048x3_o0_0_S2048x1
      (ix2 p (0 : Fin 1)) = _
  rw [shapeCast_self]
  exact (slice2_axis1_apply 0 S slices_S2048x3_o0_0_S2048x1 p 0 0 rfl).trans R.hu

theorem du_row (R : RowOf A r p X H C S WI WH BI BH LW LB) : k0_pay4 S (ix2 p (0 : Fin 1)) = A.du (ix2 r 0) := by
  show extractStridedSlice S2048x1 ![0, 1] (shapeCast S2048x3 S shapeCasts_S2048x3_S2048x3) slices_S2048x3_o0_1_S2048x1
      (ix2 p (0 : Fin 1)) = _
  rw [shapeCast_self]
  exact (slice2_axis1_apply 1 S slices_S2048x3_o0_1_S2048x1 p 0 1 rfl).trans R.hdu

theorem sk_row (R : RowOf A r p X H C S WI WH BI BH LW LB) : k0_pay5 S (ix2 p (0 : Fin 1)) = bitNum (A.sk (ix1 r)) := by
  show extractStridedSlice S2048x1 ![0, 2] (shapeCast S2048x3 S shapeCasts_S2048x3_S2048x3) slices_S2048x3_o0_2_S2048x1
      (ix2 p (0 : Fin 1)) = _
  rw [shapeCast_self]
  exact (slice2_axis1_apply 2 S slices_S2048x3_o0_2_S2048x1 p 0 2 rfl).trans R.hsk

theorem bu_row (R : RowOf A r p X H C S WI WH BI BH LW LB) : k0_pay6 S (ix2 p (0 : Fin 1)) = bu A r := by
  show Ideal.liftRound Ideal.roundHalfEven (k0_pay3 S (ix2 p (0 : Fin 1))) = _
  rw [u_row R]
  rfl

/-- The complementary factor 1 - bu, at row p. -/
theorem keep_row (R : RowOf A r p X H C S WI WH BI BH LW LB) :
    k0_pay25 (k0_pay6 S) (ix2 p (0 : Fin 1)) = keep A r := by
  show Ideal.ofBits .f32 0x3F800000#32 - k0_pay6 S (ix2 p (0 : Fin 1)) = _
  rw [bu_row R, ofBits_one_f32]
  rfl

/-! ## The gated state and the update layer -/

/-- The block's gated hidden state, gated cell state, and the latter in the narrower format (the same numbers). -/
def hidB (X H C : Vec Ideal S2048x128 .f32) (S : Vec Ideal S2048x3 .f32) (WI WH : Vec Ideal S512x128 .bf16)
    (BI BH : Vec Ideal S1x512 .f32) : FVec Ideal S2048x128 .f32 :=
  k0_pay19 C (k0_pay6 S) (k0_pay7 X) (k0_pay8 H) (k0_pay9 WI) (k0_pay10 WH) (k0_pay11 BI) (k0_pay12 BH)
    (k0_pay13 X H WI WH BI BH) (k0_pay14 WH) (k0_pay15 BH) (k0_pay16 X WI) (k0_pay17 BI)
def cellB (X H C : Vec Ideal S2048x128 .f32) (S : Vec Ideal S2048x3 .f32) (WI WH : Vec Ideal S512x128 .bf16)
    (BI BH : Vec Ideal S1x512 .f32) : FVec Ideal S2048x128 .f32 :=
  k0_pay20 C (k0_pay6 S) (k0_pay7 X) (k0_pay8 H) (k0_pay9 WI) (k0_pay10 WH) (k0_pay11 BI) (k0_pay12 BH)
    (k0_pay13 X H WI WH BI BH) (k0_pay14 WH) (k0_pay15 BH) (k0_pay16 X WI) (k0_pay17 BI)
def cellBfB (X H C : Vec Ideal S2048x128 .f32) (S : Vec Ideal S2048x3 .f32) (WI WH : Vec Ideal S512x128 .bf16)
    (BI BH : Vec Ideal S1x512 .f32) : FVec Ideal S2048x128 .bf16 :=
  k0_pay21 C (k0_pay6 S) (k0_pay7 X) (k0_pay8 H) (k0_pay9 WI) (k0_pay10 WH) (k0_pay11 BI) (k0_pay12 BH)
    (k0_pay13 X H WI WH BI BH) (k0_pay14 WH) (k0_pay15 BH) (k0_pay16 X WI) (k0_pay17 BI)

theorem cell_row (R : RowOf A r p X H C S WI WH BI BH LW LB) (j : Fin 128) :
    cellB X H C S WI WH BI BH (ix2 p j) = ncn A r j := by
  show ncB X H C WI WH BI BH (ix2 p j)
      * broadcastTo S2048x128 (k0_pay6 S) broadcasts_S2048x1_S2048x128 (ix2 p j) = _
  rw [nc_row R j, Cert.Keepdims.broadcastTo_a1_ab_apply, bu_row R]
  rfl

theorem cellBf_row (R : RowOf A r p X H C S WI WH BI BH LW LB) (j : Fin 128) :
    cellBfB X H C S WI WH BI BH (ix2 p j) = ncn A r j := cell_row R j

theorem hid_row (R : RowOf A r p X H C S WI WH BI BH LW LB) (j : Fin 128) :
    hidB X H C S WI WH BI BH (ix2 p j) = nhn A r j := by
  show (Ideal.logistic (gateE 384 slices_S512x128_o384_0_S128x128 slices_S1x512_o0_384_S1x128
          (k0_pay7 X) (k0_pay8 H) (k0_pay9 WI) (k0_pay10 WH) (k0_pay11 BI) (k0_pay12 BH) (ix2 p j))
        * Ideal.tanh (ncB X H C WI WH BI BH (ix2 p j)))
      * broadcastTo S2048x128 (k0_pay6 S) broadcasts_S2048x1_S2048x128 (ix2 p j) = _
  rw [gate_row R 384 (by omega) _ _ j (o3 j) (by simp [o3]), nc_row R j, Cert.Keepdims.broadcastTo_a1_ab_apply, bu_row R]
  rfl

/-- The update value σ(Σ_j ncn(p, j)·lin_w(j) + lin_b) on the block. -/
def dunB (X H C : Vec Ideal S2048x128 .f32) (S : Vec Ideal S2048x3 .f32) (WI WH : Vec Ideal S512x128 .bf16)
    (BI BH : Vec Ideal S1x512 .f32) (LW : Vec Ideal S1x128 .bf16) (LB : Vec Ideal S1x1 .f32) : FVec Ideal S2048x1 .f32 :=
  k0_pay24 (cellBfB X H C S WI WH BI BH) (k0_pay22 LB) (k0_pay23 LW) (constant S2048x1 .f32 0x00000000#32)

theorem dun_row (R : RowOf A r p X H C S WI WH BI BH LW LB) :
    dunB X H C S WI WH BI BH LW LB (ix2 p (0 : Fin 1)) = dun A r := by
  show Ideal.logistic (matmul dot_S2048x128_S128x1_S2048x1_1_0_0_1_n_n none (cellBfB X H C S WI WH BI BH) (k0_pay23 LW)
          (constant (F := Ideal) S2048x1 .f32 0x00000000#32) (ix2 p (0 : Fin 1))
        + broadcastTo S2048x1 (k0_pay22 LB) broadcasts_S1x1_S2048x1 (ix2 p (0 : Fin 1))) = _
  have e23 : ∀ k : Fin 128, k0_pay23 LW (ix2 k (0 : Fin 1)) = A.lw (ix2 0 k) := fun k => by
    show transpose S128x1 [1, 0] (shapeCast S1x128 LW shapeCasts_S1x128_S1x128) transposes_S1x128_p1_0_S128x1
        (ix2 k (0 : Fin 1)) = _
    rw [shapeCast_self]
    exact (transpose_ix2_apply LW transposes_S1x128_p1_0_S128x1 k 0).trans (R.hlw k)
  have e22 : broadcastTo S2048x1 (k0_pay22 LB) broadcasts_S1x1_S2048x1 (ix2 p (0 : Fin 1)) = A.lb (ix1 0) := by
    rw [broadcastTo_1b_ab_apply]
    show shapeCast S1x1 LB shapeCasts_S1x1_S1x1 (ix2 (0 : Fin 1) (0 : Fin 1)) = _
    rw [shapeCast_self]
    exact R.hlb
  rw [linDot_at, e22]
  simp only [e23, cellBf_row R]
  rfl

/-! ## The three stored payloads -/

theorem newH_row (R : RowOf A r p X H C S WI WH BI BH LW LB) (j : Fin 128) :
    k0_pay26 H (k0_pay5 S) (k0_pay6 S) (hidB X H C S WI WH BI BH) (ix2 p j) = newH A r j := by
  show broadcastTo S2048x128 (k0_pay5 S) broadcasts_S2048x1_S2048x128 (ix2 p j)
        * (H (ix2 p j) * broadcastTo S2048x128 (k0_pay25 (k0_pay6 S)) broadcasts_S2048x1_S2048x128 (ix2 p j))
      + broadcastTo S2048x128 (subf (broadcast S2048x1 (Scalar.ofBits (F := Ideal) .f32 0x3F800000#32)) (k0_pay5 S))
          broadcasts_S2048x1_S2048x128 (ix2 p j) * hidB X H C S WI WH BI BH (ix2 p j) = _
  simp only [Cert.Keepdims.broadcastTo_a1_ab_apply]
  show k0_pay5 S (ix2 p (0 : Fin 1)) * (H (ix2 p j) * k0_pay25 (k0_pay6 S) (ix2 p (0 : Fin 1)))
      + (Ideal.ofBits .f32 0x3F800000#32 - k0_pay5 S (ix2 p (0 : Fin 1))) * hidB X H C S WI WH BI BH (ix2 p j) = _
  rw [sk_row R, keep_row R, hid_row R j, R.hh j, ofBits_one_f32, blend_eq_select]
  rfl

theorem newC_row (R : RowOf A r p X H C S WI WH BI BH LW LB) (j : Fin 128) :
    k0_pay27 C (k0_pay5 S) (k0_pay6 S) (cellB X H C S WI WH BI BH) (ix2 p j) = newC A r j := by
  show broadcastTo S2048x128 (k0_pay5 S) broadcasts_S2048x1_S2048x128 (ix2 p j)
        * (C (ix2 p j) * broadcastTo S2048x128 (k0_pay25 (k0_pay6 S)) broadcasts_S2048x1_S2048x128 (ix2 p j))
      + broadcastTo S2048x128 (subf (broadcast S2048x1 (Scalar.ofBits (F := Ideal) .f32 0x3F800000#32)) (k0_pay5 S))
          broadcasts_S2048x1_S2048x128 (ix2 p j) * cellB X H C S WI WH BI BH (ix2 p j) = _
  simp only [Cert.Keepdims.broadcastTo_a1_ab_apply]
  show k0_pay5 S (ix2 p (0 : Fin 1)) * (C (ix2 p j) * k0_pay25 (k0_pay6 S) (ix2 p (0 : Fin 1)))
      + (Ideal.ofBits .f32 0x3F800000#32 - k0_pay5 S (ix2 p (0 : Fin 1))) * cellB X H C S WI WH BI BH (ix2 p j) = _
  rw [sk_row R, keep_row R, cell_row R j, R.hc j, ofBits_one_f32, blend_eq_select]
  rfl

/-- The three packed result columns on the block. -/
def newUB (X H C : Vec Ideal S2048x128 .f32) (S : Vec Ideal S2048x3 .f32) (WI WH : Vec Ideal S512x128 .bf16)
    (BI BH : Vec Ideal S1x512 .f32) (LW : Vec Ideal S1x128 .bf16) (LB : Vec Ideal S1x1 .f32) : FVec Ideal S2048x1 .f32 :=
  k0_pay28 (k0_pay3 S) (k0_pay4 S) (k0_pay5 S) (k0_pay6 S) (cellBfB X H C S WI WH BI BH) (k0_pay22 LB) (k0_pay23 LW)
    (constant S2048x1 .f32 0x00000000#32)
def dOutB (X H C : Vec Ideal S2048x128 .f32) (S : Vec Ideal S2048x3 .f32) (WI WH : Vec Ideal S512x128 .bf16)
    (BI BH : Vec Ideal S1x512 .f32) (LW : Vec Ideal S1x128 .bf16) (LB : Vec Ideal S1x1 .f32) : FVec Ideal S2048x1 .f32 :=
  k0_pay29 (k0_pay4 S) (k0_pay5 S) (cellBfB X H C S WI WH BI BH) (k0_pay22 LB) (k0_pay23 LW)
    (constant S2048x1 .f32 0x00000000#32)
def nSkipsB (X H C : Vec Ideal S2048x128 .f32) (S : Vec Ideal S2048x3 .f32) (WI WH : Vec Ideal S512x128 .bf16)
    (BI BH : Vec Ideal S1x512 .f32) (LW : Vec Ideal S1x128 .bf16) (LB : Vec Ideal S1x1 .f32) : FVec Ideal S2048x1 .f32 :=
  k0_pay30 (k0_pay3 S) (k0_pay4 S) (k0_pay5 S) (k0_pay6 S) (cellBfB X H C S WI WH BI BH) (k0_pay22 LB) (k0_pay23 LW)
    (constant S2048x1 .f32 0x00000000#32)

theorem newU_row (R : RowOf A r p X H C S WI WH BI BH LW LB) :
    newUB X H C S WI WH BI BH LW LB (ix2 p (0 : Fin 1)) = newU A r := by
  show k0_pay5 S (ix2 p (0 : Fin 1))
        * (min (Ideal.ofBits .f32 0x3F800000#32)
              (max (Ideal.ofBits .f32 0x00000000#32) (k0_pay3 S (ix2 p (0 : Fin 1)) + k0_pay4 S (ix2 p (0 : Fin 1))))
            * k0_pay25 (k0_pay6 S) (ix2 p (0 : Fin 1)))
      + (Ideal.ofBits .f32 0x3F800000#32 - k0_pay5 S (ix2 p (0 : Fin 1)))
        * (dunB X H C S WI WH BI BH LW LB (ix2 p (0 : Fin 1)) * k0_pay6 S (ix2 p (0 : Fin 1))) = _
  rw [sk_row R, u_row R, du_row R, keep_row R, dun_row R, bu_row R, ofBits_one_f32, Ideal.ofBits_zero_f32, blend_eq_select]
  rfl

theorem dOut_row (R : RowOf A r p X H C S WI WH BI BH LW LB) :
    dOutB X H C S WI WH BI BH LW LB (ix2 p (0 : Fin 1)) = dOut A r := by
  show k0_pay5 S (ix2 p (0 : Fin 1)) * k0_pay4 S (ix2 p (0 : Fin 1))
      + (Ideal.ofBits .f32 0x3F800000#32 - k0_pay5 S (ix2 p (0 : Fin 1)))
        * dunB X H C S WI WH BI BH LW LB (ix2 p (0 : Fin 1)) = _
  rw [sk_row R, du_row R, dun_row R, ofBits_one_f32, blend_eq_select]
  rfl

theorem nSkips_row (R : RowOf A r p X H C S WI WH BI BH LW LB) :
    nSkipsB X H C S WI WH BI BH LW LB (ix2 p (0 : Fin 1)) = nSkips A r := by
  show Ideal.liftRound Int.ceil (Ideal.div (Ideal.ofBits .f32 0x3F000000#32)
        (newUB X H C S WI WH BI BH LW LB (ix2 p (0 : Fin 1)))) - Ideal.ofBits .f32 0x3F800000#32 = _
  rw [newU_row R, ofBits_one_f32]
  rfl

end Cert.KernelIdeal.Pay

end
-- ==== Proof.LibPackColumns.lean ====
/-
  Three single-column arrays placed side by side, read at an entry.

  Concatenating `[n, 1]` arrays a, b, d along the column axis gives an `[n, 3]` array whose column 0 is a, column 1 is b
  and column 2 is d: at (p, k) the concatenation reads the k-th piece at (p, 0), because the pieces before it take up
  k columns and every piece has exactly one. General: nothing here mentions a program.
-/
import Idealize.ShloMosaic.Lib.Pipeline.Value
import Idealize.ShloMosaic.Lib.ValueIdx

noncomputable section

namespace Cert.LibPackColumns

open Idealize.ShloMosaic Idealize.ShloMosaic.ValueIdx

/-- Three columns side by side, read at column 0, 1 and 2 of row `p`. -/
theorem pack_at {α : Type} {n : ℕ} (a b d : (⟨2, ![n, 1]⟩ : Shape).Idx → α)
    (h : Shape.Concatenates [(⟨2, ![n, 1]⟩ : Shape), ⟨2, ![n, 1]⟩, ⟨2, ![n, 1]⟩] ⟨2, ![n, 3]⟩ 1) (p : Fin n) :
    concatenate ⟨2, ![n, 3]⟩ 1 [⟨⟨2, ![n, 1]⟩, a⟩, ⟨⟨2, ![n, 1]⟩, b⟩, ⟨⟨2, ![n, 1]⟩, d⟩] h (ix2 p (0 : Fin 3)) = a (ix2 p (0 : Fin 1))
    ∧ concatenate ⟨2, ![n, 3]⟩ 1 [⟨⟨2, ![n, 1]⟩, a⟩, ⟨⟨2, ![n, 1]⟩, b⟩, ⟨⟨2, ![n, 1]⟩, d⟩] h (ix2 p (1 : Fin 3)) = b (ix2 p (0 : Fin 1))
    ∧ concatenate ⟨2, ![n, 3]⟩ 1 [⟨⟨2, ![n, 1]⟩, a⟩, ⟨⟨2, ![n, 1]⟩, b⟩, ⟨⟨2, ![n, 1]⟩, d⟩] h (ix2 p (2 : Fin 3)) = d (ix2 p (0 : Fin 1)) := by
  -- off the column axis a piece's index and the result's index have the same coordinate
  have hoff : ∀ (q : Fin n) (bx : Fin 2) (k : Fin 3), bx.cast (rfl : (2 : ℕ) = 2) ≠ (1 : Fin 2) →
      ((ix2 q (0 : Fin 1) : (⟨2, ![n, 1]⟩ : Shape).Idx) bx).val = ((ix2 q k : (⟨2, ![n, 3]⟩ : Shape).Idx) (bx.cast rfl)).val := by
    intro q bx k hb
    match bx with
    | ⟨0, _⟩ => rfl
    | ⟨1, _⟩ => exact absurd rfl hb
  refine ⟨?_, ?_, ?_⟩
  · exact concatenate_apply_piece (t := ⟨2, ![n, 3]⟩) (1 : Fin 2) [⟨⟨2, ![n, 1]⟩, a⟩, ⟨⟨2, ![n, 1]⟩, b⟩, ⟨⟨2, ![n, 1]⟩, d⟩] h (ix2 p (0 : Fin 3))
      0 (by simp) ⟨2, ![n, 1]⟩ a rfl rfl 0 rfl (ix2 p (0 : Fin 1)) (fun bx hb => hoff p bx 0 hb) rfl
  · exact concatenate_apply_piece (t := ⟨2, ![n, 3]⟩) (1 : Fin 2) [⟨⟨2, ![n, 1]⟩, a⟩, ⟨⟨2, ![n, 1]⟩, b⟩, ⟨⟨2, ![n, 1]⟩, d⟩] h (ix2 p (1 : Fin 3))
      1 (by simp) ⟨2, ![n, 1]⟩ b rfl rfl 1 rfl (ix2 p (0 : Fin 1)) (fun bx hb => hoff p bx 1 hb) rfl
  · exact concatenate_apply_piece (t := ⟨2, ![n, 3]⟩) (1 : Fin 2) [⟨⟨2, ![n, 1]⟩, a⟩, ⟨⟨2, ![n, 1]⟩, b⟩, ⟨⟨2, ![n, 1]⟩, d⟩] h (ix2 p (2 : Fin 3))
      2 (by simp) ⟨2, ![n, 1]⟩ d rfl rfl 2 rfl (ix2 p (0 : Fin 1)) (fun bx hb => hoff p bx 2 hb) rfl

end Cert.LibPackColumns

end
-- ==== Proof.KInputs.lean ====
/-
  What the region finds in its ten input windows, entry by entry, in terms of the argument arrays as launched.

  The grid has 128 points; at point t the windows of x, h, c and of the packed scalars hold rows 2048·t … 2048·t + 2047
  of their arrays, and the six weight and bias windows hold their whole arrays at every point. Three of the arrays
  are the arguments themselves (x, h, c); the others are written by the host lines before the region: the packed
  scalars are u, δu and the mask (as the number 0 or 1) side by side; the two weight matrices and the update layer's
  weight in the narrower float format are the same numbers; the two biases and the update layer's bias gain a leading
  unit axis. So row p of the blocks at point t is row 2048·t + p of the arguments: `rowOf_blocks`.
-/
import proofs.«172531_j18416819765876_1_alg».proof.Proof.KIFrameDefs
import proofs.«172531_j18416819765876_1_alg».proof.Proof.KPay
import proofs.«172531_j18416819765876_1_alg».proof.Proof.LibPackColumns
import Idealize.ShloMosaic.Lib.StableHlo.Run
import Idealize.ShloMosaic.Lib.ValueLayout

noncomputable section

namespace Cert.KernelIdeal.Hand

open Cert.KernelIdeal Cert.KernelIdeal.Gen Cert.KernelIdeal.Frame Cert.KernelIdeal.Pay Cert.SkipCell
open Idealize.ShloMosaic Idealize.ShloMosaic.TcCoe Idealize.ShloMosaic.ValueIdx Idealize.SL.Sem Idealize.ShloMosaic.StableHlo

variable (m : (ℓ : Loc nD τ sig) → Buf (Elt Ideal) ℓ)

/-- Core `c`'s twelve argument arrays as launched, as the specification's arguments. -/
def argsK (c : Dev nD) : Args where
  x := m ((c : Thread nD τ).loc main_arg0)
  u := m ((c : Thread nD τ).loc main_arg1)
  h := m ((c : Thread nD τ).loc main_arg2)
  c := m ((c : Thread nD τ).loc main_arg3)
  du := m ((c : Thread nD τ).loc main_arg4)
  sk := m ((c : Thread nD τ).loc main_arg5)
  wi := m ((c : Thread nD τ).loc main_arg6)
  wh := m ((c : Thread nD τ).loc main_arg7)
  bi := m ((c : Thread nD τ).loc main_arg8)
  bh := m ((c : Thread nD τ).loc main_arg9)
  lw := m ((c : Thread nD τ).loc main_arg10)
  lb := m ((c : Thread nD τ).loc main_arg11)

/-! ## The arrays as the region finds them -/

theorem V_x (c : Dev nD) : (V m c main_arg0 : S262144x128.Idx → EReal) = m ((c : Thread nD τ).loc main_arg0) := by
  show StableHlo.after hostOps0 (fun b => m (c, b)) (Proc.devRef .tc main_arg0) = _
  after_results
theorem V_h (c : Dev nD) : (V m c main_arg2 : S262144x128.Idx → EReal) = m ((c : Thread nD τ).loc main_arg2) := by
  show StableHlo.after hostOps0 (fun b => m (c, b)) (Proc.devRef .tc main_arg2) = _
  after_results
theorem V_c (c : Dev nD) : (V m c main_arg3 : S262144x128.Idx → EReal) = m ((c : Thread nD τ).loc main_arg3) := by
  show StableHlo.after hostOps0 (fun b => m (c, b)) (Proc.devRef .tc main_arg3) = _
  after_results
/-- The packed scalars: u, δu and the mask as a number, side by side. -/
theorem V_scal (c : Dev nD) : (V m c main_v2 : S262144x3.Idx → EReal)
    = concatenate S262144x3 1 [⟨S262144x1, m ((c : Thread nD τ).loc main_arg1)⟩, ⟨S262144x1, m ((c : Thread nD τ).loc main_arg4)⟩,
        ⟨S262144x1, shapeCast S262144x1 (uitofp (F := Ideal) .f32 (m ((c : Thread nD τ).loc main_arg5))) shapeCasts_S262144_S262144x1⟩]
        concatenates_S262144x1_S262144x1_S262144x1_S262144x3_d1 := by
  show StableHlo.after hostOps0 (fun b => m (c, b)) (Proc.devRef .tc main_v2) = _
  after_results
  rfl
theorem V_wi (c : Dev nD) : (V m c main_v6 : S512x128.Idx → EReal)
    = truncf (F := Ideal) .bf16 (m ((c : Thread nD τ).loc main_arg6)) bitsLt_bf16_f32 := by
  show StableHlo.after hostOps0 (fun b => m (c, b)) (Proc.devRef .tc main_v6) = _
  after_results
theorem V_wh (c : Dev nD) : (V m c main_v7 : S512x128.Idx → EReal)
    = truncf (F := Ideal) .bf16 (m ((c : Thread nD τ).loc main_arg7)) bitsLt_bf16_f32 := by
  show StableHlo.after hostOps0 (fun b => m (c, b)) (Proc.devRef .tc main_v7) = _
  after_results
theorem V_bi (c : Dev nD) : (V m c main_v3 : S1x512.Idx → EReal)
    = shapeCast S1x512 (m ((c : Thread nD τ).loc main_arg8)) shapeCasts_S512_S1x512 := by
  show StableHlo.after hostOps0 (fun b => m (c, b)) (Proc.devRef .tc main_v3) = _
  after_results
  rfl
theorem V_bh (c : Dev nD) : (V m c main_v4 : S1x512.Idx → EReal)
    = shapeCast S1x512 (m ((c : Thread nD τ).loc main_arg9)) shapeCasts_S512_S1x512 := by
  show StableHlo.after hostOps0 (fun b => m (c, b)) (Proc.devRef .tc main_v4) = _
  after_results
  rfl
theorem V_lw (c : Dev nD) : (V m c main_v8 : S1x128.Idx → EReal)
    = truncf (F := Ideal) .bf16 (m ((c : Thread nD τ).loc main_arg10)) bitsLt_bf16_f32 := by
  show StableHlo.after hostOps0 (fun b => m (c, b)) (Proc.devRef .tc main_v8) = _
  after_results
theorem V_lb (c : Dev nD) : (V m c main_v5 : S1x1.Idx → EReal)
    = shapeCast S1x1 (m ((c : Thread nD τ).loc main_arg11)) shapeCasts_S1_S1x1 := by
  show StableHlo.after hostOps0 (fun b => m (c, b)) (Proc.devRef .tc main_v5) = _
  after_results
  rfl

/-! ## Which block each window holds at a point -/

/-- The printed index maps over the grid: the seven row-blocked windows (three of them outputs) are at block (t, 0), the
    six whole-array windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

theorem t_lt (t : Fin cfg0.N) : t.val < 128 := N_0 ▸ (show t.val < grid0.N from t.isLt)

/-- Row p of the block at point t is row 2048·t + p of the array. -/
def row (t : Fin cfg0.N) (p : Fin 2048) : Fin 262144 := ⟨t.val * 2048 + p.val, by have := t_lt t; have := p.isLt; omega⟩

theorem emb0 (t : Fin cfg0.N) (p : Fin 2048) (i : Fin 128) :
    ((cfg0.win 0).blk t).view.emb (ix2 p i) = (ix2 (row t p) i : S262144x128.Idx) := by
  obtain ⟨⟨e0, e1⟩, -⟩ := idx_facts t
  funext a; apply Fin.ext
  match a with
  | ⟨0, _⟩ => show win0_0.index t (0 : Fin 2) * 2048 + 1 * p.val = t.val * 2048 + p.val; omega
  | ⟨1, _⟩ => show win0_0.index t (1 : Fin 2) * 128 + 1 * i.val = i.val; omega
theorem emb1 (t : Fin cfg0.N) (p : Fin 2048) (i : Fin 128) :
    ((cfg0.win 1).blk t).view.emb (ix2 p i) = (ix2 (row t p) i : S262144x128.Idx) := by
  obtain ⟨-, ⟨e0, e1⟩, -⟩ := idx_facts t
  funext a; apply Fin.ext
  match a with
  | ⟨0, _⟩ => show win0_1.index t (0 : Fin 2) * 2048 + 1 * p.val = t.val * 2048 + p.val; omega
  | ⟨1, _⟩ => show win0_1.index t (1 : Fin 2) * 128 + 1 * i.val = i.val; omega
theorem emb2 (t : Fin cfg0.N) (p : Fin 2048) (i : Fin 128) :
    ((cfg0.win 2).blk t).view.emb (ix2 p i) = (ix2 (row t p) i : S262144x128.Idx) := by
  obtain ⟨-, -, ⟨e0, e1⟩, -⟩ := idx_facts t
  funext a; apply Fin.ext
  match a with
  | ⟨0, _⟩ => show win0_2.index t (0 : Fin 2) * 2048 + 1 * p.val = t.val * 2048 + p.val; omega
  | ⟨1, _⟩ => show win0_2.index t (1 : Fin 2) * 128 + 1 * i.val = i.val; omega
theorem emb3 (t : Fin cfg0.N) (p : Fin 2048) (k : Fin 3) :
    ((cfg0.win 3).blk t).view.emb (ix2 p k) = (ix2 (row t p) k : S262144x3.Idx) := by
  obtain ⟨-, -, -, ⟨e0, e1⟩, -⟩ := idx_facts t
  funext a; apply Fin.ext
  match a with
  | ⟨0, _⟩ => show win0_3.index t (0 : Fin 2) * 2048 + 1 * p.val = t.val * 2048 + p.val; omega
  | ⟨1, _⟩ => show win0_3.index t (1 : Fin 2) * 3 + 1 * k.val = k.val; omega
theorem emb4 (t : Fin cfg0.N) (o : Fin 512) (i : Fin 128) :
    ((cfg0.win 4).blk t).view.emb (ix2 o i) = (ix2 o i : S512x128.Idx) := by
  obtain ⟨-, -, -, -, ⟨e0, e1⟩, -⟩ := idx_facts t
  funext a; apply Fin.ext
  match a with
  | ⟨0, _⟩ => show win0_4.index t (0 : Fin 2) * 512 + 1 * o.val = o.val; omega
  | ⟨1, _⟩ => show win0_4.index t (1 : Fin 2) * 128 + 1 * i.val = i.val; omega
theorem emb5 (t : Fin cfg0.N) (o : Fin 512) (i : Fin 128) :
    ((cfg0.win 5).blk t).view.emb (ix2 o i) = (ix2 o i : S512x128.Idx) := by
  obtain ⟨-, -, -, -, -, ⟨e0, e1⟩, -⟩ := idx_facts t
  funext a; apply Fin.ext
  match a with
  | ⟨0, _⟩ => show win0_5.index t (0 : Fin 2) * 512 + 1 * o.val = o.val; omega
  | ⟨1, _⟩ => show win0_5.index t (1 : Fin 2) * 128 + 1 * i.val = i.val; omega
theorem emb6 (t : Fin cfg0.N) (u : Fin 1) (o : Fin 512) :
    ((cfg0.win 6).blk t).view.emb (ix2 u o) = (ix2 u o : S1x512.Idx) := by
  obtain ⟨-, -, -, -, -, -, ⟨e0, e1⟩, -⟩ := idx_facts t
  funext a; apply Fin.ext
  match a with
  | ⟨0, _⟩ => show win0_6.index t (0 : Fin 2) * 1 + 1 * u.val = u.val; omega
  | ⟨1, _⟩ => show win0_6.index t (1 : Fin 2) * 512 + 1 * o.val = o.val; omega
theorem emb7 (t : Fin cfg0.N) (u : Fin 1) (o : Fin 512) :
    ((cfg0.win 7).blk t).view.emb (ix2 u o) = (ix2 u o : S1x512.Idx) := by
  obtain ⟨-, -, -, -, -, -, -, ⟨e0, e1⟩, -⟩ := idx_facts t
  funext a; apply Fin.ext
  match a with
  | ⟨0, _⟩ => show win0_7.index t (0 : Fin 2) * 1 + 1 * u.val = u.val; omega
  | ⟨1, _⟩ => show win0_7.index t (1 : Fin 2) * 512 + 1 * o.val = o.val; omega
theorem emb8 (t : Fin cfg0.N) (u : Fin 1) (j : Fin 128) :
    ((cfg0.win 8).blk t).view.emb (ix2 u j) = (ix2 u j : S1x128.Idx) := by
  obtain ⟨-, -, -, -, -, -, -, -, ⟨e0, e1⟩, -⟩ := idx_facts t
  funext a; apply Fin.ext
  match a with
  | ⟨0, _⟩ => show win0_8.index t (0 : Fin 2) * 1 + 1 * u.val = u.val; omega
  | ⟨1, _⟩ => show win0_8.index t (1 : Fin 2) * 128 + 1 * j.val = j.val; omega
theorem emb9 (t : Fin cfg0.N) (u v : Fin 1) :
    ((cfg0.win 9).blk t).view.emb (ix2 u v) = (ix2 u v : S1x1.Idx) := by
  obtain ⟨-, -, -, -, -, -, -, -, -, ⟨e0, e1⟩, -⟩ := idx_facts t
  funext a; apply Fin.ext
  match a with
  | ⟨0, _⟩ => show win0_9.index t (0 : Fin 2) * 1 + 1 * u.val = u.val; omega
  | ⟨1, _⟩ => show win0_9.index t (1 : Fin 2) * 1 + 1 * v.val = v.val; omega

theorem emb10 (t : Fin cfg0.N) (p : Fin 2048) (i : Fin 128) :
    ((cfg0.win 10).blk t).view.emb (ix2 p i) = (ix2 (row t p) i : S262144x128.Idx) := by
  obtain ⟨-, -, -, -, -, -, -, -, -, -, ⟨e0, e1⟩, -⟩ := idx_facts t
  funext a; apply Fin.ext
  match a with
  | ⟨0, _⟩ => show win0_10.index t (0 : Fin 2) * 2048 + 1 * p.val = t.val * 2048 + p.val; omega
  | ⟨1, _⟩ => show win0_10.index t (1 : Fin 2) * 128 + 1 * i.val = i.val; omega
theorem emb11 (t : Fin cfg0.N) (p : Fin 2048) (i : Fin 128) :
    ((cfg0.win 11).blk t).view.emb (ix2 p i) = (ix2 (row t p) i : S262144x128.Idx) := by
  obtain ⟨-, -, -, -, -, -, -, -, -, -, -, ⟨e0, e1⟩, -⟩ := idx_facts t
  funext a; apply Fin.ext
  match a with
  | ⟨0, _⟩ => show win0_11.index t (0 : Fin 2) * 2048 + 1 * p.val = t.val * 2048 + p.val; omega
  | ⟨1, _⟩ => show win0_11.index t (1 : Fin 2) * 128 + 1 * i.val = i.val; omega
theorem emb12 (t : Fin cfg0.N) (p : Fin 2048) (k : Fin 3) :
    ((cfg0.win 12).blk t).view.emb (ix2 p k) = (ix2 (row t p) k : S262144x3.Idx) := by
  obtain ⟨-, -, -, -, -, -, -, -, -, -, -, -, e0, e1⟩ := idx_facts t
  funext a; apply Fin.ext
  match a with
  | ⟨0, _⟩ => show win0_12.index t (0 : Fin 2) * 2048 + 1 * p.val = t.val * 2048 + p.val; omega
  | ⟨1, _⟩ => show win0_12.index t (1 : Fin 2) * 3 + 1 * k.val = k.val; omega

/-! ## Row p of the blocks at point t is row 2048·t + p of the arguments -/

theorem rowOf_blocks (c : Dev nD) (t : Fin cfg0.N) (p : Fin 2048) :
    RowOf (argsK m c) (row t p) p (iblk m c 0 t) (iblk m c 1 t) (iblk m c 2 t) (iblk m c 3 t) (iblk m c 4 t)
      (iblk m c 5 t) (iblk m c 6 t) (iblk m c 7 t) (iblk m c 8 t) (iblk m c 9 t) where
  hx i := by
    show V m c main_arg0 (((cfg0.win 0).blk t).view.emb (ix2 p i)) = _
    rw [emb0, V_x]; rfl
  hh i := by
    show V m c main_arg2 (((cfg0.win 1).blk t).view.emb (ix2 p i)) = _
    rw [emb1, V_h]; rfl
  hc i := by
    show V m c main_arg3 (((cfg0.win 2).blk t).view.emb (ix2 p i)) = _
    rw [emb2, V_c]; rfl
  hu := by
    show V m c main_v2 (((cfg0.win 3).blk t).view.emb (ix2 p (0 : Fin 3))) = _
    rw [emb3, V_scal]
    exact (Cert.LibPackColumns.pack_at _ _ _ concatenates_S262144x1_S262144x1_S262144x1_S262144x3_d1 (row t p)).1
  hdu := by
    show V m c main_v2 (((cfg0.win 3).blk t).view.emb (ix2 p (1 : Fin 3))) = _
    rw [emb3, V_scal]
    exact (Cert.LibPackColumns.pack_at _ _ _ concatenates_S262144x1_S262144x1_S262144x1_S262144x3_d1 (row t p)).2.1
  hsk := by
    show V m c main_v2 (((cfg0.win 3).blk t).view.emb (ix2 p (2 : Fin 3))) = _
    rw [emb3, V_scal]
    refine ((Cert.LibPackColumns.pack_at _ _ _ concatenates_S262144x1_S262144x1_S262144x1_S262144x3_d1 (row t p)).2.2).trans ?_
    exact (Cert.Keepdims.shapeCast_a_a1_apply _ shapeCasts_S262144_S262144x1 (row t p) 0).trans rfl
  hwi o i := by
    show V m c main_v6 (((cfg0.win 4).blk t).view.emb (ix2 o i)) = _
    rw [emb4, V_wi]; rfl
  hwh o i := by
    show V m c main_v7 (((cfg0.win 5).blk t).view.emb (ix2 o i)) = _
    rw [emb5, V_wh]; rfl
  hbi o := by
    show V m c main_v3 (((cfg0.win 6).blk t).view.emb (ix2 (0 : Fin 1) o)) = _
    rw [emb6, V_bi]
    exact shapeCast_a_1a_apply _ shapeCasts_S512_S1x512 0 o
  hbh o := by
    show V m c main_v4 (((cfg0.win 7).blk t).view.emb (ix2 (0 : Fin 1) o)) = _
    rw [emb7, V_bh]
    exact shapeCast_a_1a_apply _ shapeCasts_S512_S1x512 0 o
  hlw j := by
    show V m c main_v8 (((cfg0.win 8).blk t).view.emb (ix2 (0 : Fin 1) j)) = _
    rw [emb8, V_lw]; rfl
  hlb := by
    show V m c main_v5 (((cfg0.win 9).blk t).view.emb (ix2 (0 : Fin 1) (0 : Fin 1))) = _
    rw [emb9, V_lb]
    exact shapeCast_a_1a_apply _ shapeCasts_S1_S1x1 0 0

end Cert.KernelIdeal.Hand

end
-- ==== Proof.KValue.lean ====
/-
  From blocks to arrays: after the run each of the kernel's three output arrays is the specification's array.

  Point t of the grid writes back, into rows 2048·t … 2048·t + 2047 of each output array, what the body left in that
  window's buffer: the body's stored payload of the ten input blocks at t. Row p of those blocks is row 2048·t + p of
  the arguments, so by the row lemmas the entry (p, j) written back is the specification's value at row 2048·t + p —
  that is, what point t writes back is block t of the specification's array. Every row r lies in the block of point
  r / 2048 and every point writes back, so the blocks cover each array and it ends holding the specification's.
  The third output holds the three scalar results side by side, one per column.
-/
import proofs.«172531_j18416819765876_1_alg».proof.Proof.KInputs

set_option maxRecDepth 16384

noncomputable section

namespace Cert.KernelIdeal.Hand

open Cert.KernelIdeal Cert.KernelIdeal.Gen Cert.KernelIdeal.Frame Cert.KernelIdeal.Pay Cert.SkipCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The three scalar results side by side: column 0 the new gate value, column 1 the update value, column 2 the count. -/
def GP (A : Args) : (⟨2, ![262144, 3]⟩ : Shape).Idx → EReal := fun i =>
  if (i 1).val = 0 then newU A (i 0) else if (i 1).val = 1 then dOut A (i 0) else nSkips A (i 0)

/-! ## The body's three stored payloads, over the blocks as loaded whole -/

theorem stored10 (x0 x1 x2 : Vec Ideal S2048x128 .f32) (x3 : Vec Ideal S2048x3 .f32) (x4 x5 : Vec Ideal S512x128 .bf16)
    (x6 x7 : Vec Ideal S1x512 .f32) (x8 : Vec Ideal S1x128 .bf16) (x9 : Vec Ideal S1x1 .f32) :
    out0_10 x0 x1 x2 x3 x4 x5 x6 x7 x8 x9
      = k0_pay26 x1 (k0_pay5 x3) (k0_pay6 x3) (hidB x0 x1 x2 x3 x4 x5 x6 x7) := by
  unfold out0_10
  rw [View.canon_unit_zero hz]
  simp only [skipCol, buCol, hidNew, hidB, rRows, rScal, rWeight, rBias, View.ld_unit_zero (S := S2048x128) hz,
    View.ld_unit_zero (S := S2048x3) hz, View.ld_unit_zero (S := S512x128) hz, View.ld_unit_zero (S := S1x512) hz]

theorem stored11 (x0 x1 x2 : Vec Ideal S2048x128 .f32) (x3 : Vec Ideal S2048x3 .f32) (x4 x5 : Vec Ideal S512x128 .bf16)
    (x6 x7 : Vec Ideal S1x512 .f32) (x8 : Vec Ideal S1x128 .bf16) (x9 : Vec Ideal S1x1 .f32) :
    out0_11 x0 x1 x2 x3 x4 x5 x6 x7 x8 x9
      = k0_pay27 x2 (k0_pay5 x3) (k0_pay6 x3) (cellB x0 x1 x2 x3 x4 x5 x6 x7) := by
  unfold out0_11
  rw [View.canon_unit_zero hz]
  simp only [skipCol, buCol, cellNew, cellB, rRows, rScal, rWeight, rBias, View.ld_unit_zero (S := S2048x128) hz,
    View.ld_unit_zero (S := S2048x3) hz, View.ld_unit_zero (S := S512x128) hz, View.ld_unit_zero (S := S1x512) hz]

theorem stored12 (x0 x1 x2 : Vec Ideal S2048x128 .f32) (x3 : Vec Ideal S2048x3 .f32) (x4 x5 : Vec Ideal S512x128 .bf16)
    (x6 x7 : Vec Ideal S1x512 .f32) (x8 : Vec Ideal S1x128 .bf16) (x9 : Vec Ideal S1x1 .f32) :
    out0_12 x0 x1 x2 x3 x4 x5 x6 x7 x8 x9
      = k0_pay1 (newUB x0 x1 x2 x3 x4 x5 x6 x7 x8 x9) (dOutB x0 x1 x2 x3 x4 x5 x6 x7 x8 x9)
          (nSkipsB x0 x1 x2 x3 x4 x5 x6 x7 x8 x9) := by
  unfold out0_12
  rw [View.canon_unit_zero hz]
  simp only [uCol, duCol, skipCol, buCol, cellNewBf, linB, linWT, zeroCol, newUB, dOutB, nSkipsB, cellBfB,
    rRows, rScal, rWeight, rBias, rLinW, rLinB, View.ld_unit_zero (S := S2048x128) hz,
    View.ld_unit_zero (S := S2048x3) hz, View.ld_unit_zero (S := S512x128) hz, View.ld_unit_zero (S := S1x512) hz,
    View.ld_unit_zero (S := S1x128) hz, View.ld_unit_zero (S := S1x1) hz]

/-! ## What point t writes back is block t of the specification's array -/

theorem flushed10_eq (c : Dev nD) (t : Fin cfg0.N) :
    (dats m 0 c).flushed 10 t = ((cfg0.win 10).blk t).view.read (Elt Ideal) (GH (argsK m c)) := by
  show (cfg0.win 10).cut (grid0.coords t) ((dats m 0 c).after 10 t) = _
  rw [after0_10, stored10]
  funext y
  obtain ⟨p, j, rfl⟩ : ∃ (p : Fin 2048) (j : Fin 128), y = ix2 p j := ⟨y 0, y 1, eq_ix2 y⟩
  show k0_pay26 (iblk m c 1 t) (k0_pay5 (iblk m c 3 t)) (k0_pay6 (iblk m c 3 t))
        (hidB (iblk m c 0 t) (iblk m c 1 t) (iblk m c 2 t) (iblk m c 3 t) (iblk m c 4 t) (iblk m c 5 t) (iblk m c 6 t)
          (iblk m c 7 t)) (ix2 p j)
      = GH (argsK m c) (((cfg0.win 10).blk t).view.emb (ix2 p j))
  rw [emb10]
  exact newH_row (rowOf_blocks m c t p) j

theorem flushed11_eq (c : Dev nD) (t : Fin cfg0.N) :
    (dats m 0 c).flushed 11 t = ((cfg0.win 11).blk t).view.read (Elt Ideal) (GC (argsK m c)) := by
  show (cfg0.win 11).cut (grid0.coords t) ((dats m 0 c).after 11 t) = _
  rw [after0_11, stored11]
  funext y
  obtain ⟨p, j, rfl⟩ : ∃ (p : Fin 2048) (j : Fin 128), y = ix2 p j := ⟨y 0, y 1, eq_ix2 y⟩
  show k0_pay27 (iblk m c 2 t) (k0_pay5 (iblk m c 3 t)) (k0_pay6 (iblk m c 3 t))
        (cellB (iblk m c 0 t) (iblk m c 1 t) (iblk m c 2 t) (iblk m c 3 t) (iblk m c 4 t) (iblk m c 5 t) (iblk m c 6 t)
          (iblk m c 7 t)) (ix2 p j)
      = GC (argsK m c) (((cfg0.win 11).blk t).view.emb (ix2 p j))
  rw [emb11]
  exact newC_row (rowOf_blocks m c t p) j

theorem flushed12_eq (c : Dev nD) (t : Fin cfg0.N) :
    (dats m 0 c).flushed 12 t = ((cfg0.win 12).blk t).view.read (Elt Ideal) (GP (argsK m c)) := by
  show (cfg0.win 12).cut (grid0.coords t) ((dats m 0 c).after 12 t) = _
  rw [after0_12, stored12]
  funext y
  obtain ⟨p, k, rfl⟩ : ∃ (p : Fin 2048) (k : Fin 3), y = ix2 p k := ⟨y 0, y 1, eq_ix2 y⟩
  have R := rowOf_blocks m c t p
  have hp := Cert.LibPackColumns.pack_at
    (newUB (iblk m c 0 t) (iblk m c 1 t) (iblk m c 2 t) (iblk m c 3 t) (iblk m c 4 t) (iblk m c 5 t) (iblk m c 6 t)
      (iblk m c 7 t) (iblk m c 8 t) (iblk m c 9 t))
    (dOutB (iblk m c 0 t) (iblk m c 1 t) (iblk m c 2 t) (iblk m c 3 t) (iblk m c 4 t) (iblk m c 5 t) (iblk m c 6 t)
      (iblk m c 7 t) (iblk m c 8 t) (iblk m c 9 t))
    (nSkipsB (iblk m c 0 t) (iblk m c 1 t) (iblk m c 2 t) (iblk m c 3 t) (iblk m c 4 t) (iblk m c 5 t) (iblk m c 6 t)
      (iblk m c 7 t) (iblk m c 8 t) (iblk m c 9 t))
    concatenates_S2048x1_S2048x1_S2048x1_S2048x3_d1 p
  show k0_pay1 (F := Ideal) _ _ _ (ix2 p k) = GP (argsK m c) (((cfg0.win 12).blk t).view.emb (ix2 p k))
  rw [emb12]
  fin_cases k
  · exact hp.1.trans (newU_row R)
  · exact hp.2.1.trans (dOut_row R)
  · exact hp.2.2.trans (nSkips_row R)

/-! ## Every index lies in some point's block -/

theorem mem_blk10 (t : Fin cfg0.N) (i : S262144x128.Idx) :
    i ∈ ((cfg0.win 10).blk t).view.set ↔ ∀ a : Fin 2, win0_10.index t a * S2048x128.size a ≤ (i a).val
      ∧ (i a).val < win0_10.index t a * S2048x128.size a + S2048x128.size a := by
  show i ∈ ((View.whole main_v9_0).slice (win0_10.rect t)).set ↔ _
  rw [View.set_slice_whole, Rect.mem_set_unit]
  exact Iff.rfl
theorem mem_blk11 (t : Fin cfg0.N) (i : S262144x128.Idx) :
    i ∈ ((cfg0.win 11).blk t).view.set ↔ ∀ a : Fin 2, win0_11.index t a * S2048x128.size a ≤ (i a).val
      ∧ (i a).val < win0_11.index t a * S2048x128.size a + S2048x128.size a := by
  show i ∈ ((View.whole main_v9_1).slice (win0_11.rect t)).set ↔ _
  rw [View.set_slice_whole, Rect.mem_set_unit]
  exact Iff.rfl
theorem mem_blk12 (t : Fin cfg0.N) (i : S262144x3.Idx) :
    i ∈ ((cfg0.win 12).blk t).view.set ↔ ∀ a : Fin 2, win0_12.index t a * S2048x3.size a ≤ (i a).val
      ∧ (i a).val < win0_12.index t a * S2048x3.size a + S2048x3.size a := by
  show i ∈ ((View.whole main_v9_2).slice (win0_12.rect t)).set ↔ _
  rw [View.set_slice_whole, Rect.mem_set_unit]
  exact Iff.rfl

/-- The point whose block holds row r. -/
def pointOf (r : ℕ) (hr : r < 262144) : Fin cfg0.N := ⟨r / 2048, by rw [show cfg0.N = 128 from N_0]; omega⟩

theorem cover10 (i : S262144x128.Idx) :
    ∃ t : Fin cfg0.N, (cfg0.win 10).flush t = true ∧ i ∈ ((cfg0.win 10).blk t).view.set := by
  have hi0 : (i 0).val < 262144 := (i 0).isLt
  have hi1 : (i 1).val < 128 := (i 1).isLt
  obtain ⟨-, -, -, -, -, -, -, -, -, -, ⟨e0, e1⟩, -⟩ := idx_facts (pointOf (i 0).val hi0)
  have ht : (pointOf (i 0).val hi0).val = (i 0).val / 2048 := rfl
  refine ⟨pointOf (i 0).val hi0, flush0_10 _, (mem_blk10 _ i).2 fun a => ?_⟩
  match a with
  | ⟨0, _⟩ =>
    show win0_10.index (pointOf (i 0).val hi0) (0 : Fin 2) * 2048 ≤ (i 0).val
      ∧ (i 0).val < win0_10.index (pointOf (i 0).val hi0) (0 : Fin 2) * 2048 + 2048
    omega
  | ⟨1, _⟩ =>
    show win0_10.index (pointOf (i 0).val hi0) (1 : Fin 2) * 128 ≤ (i 1).val
      ∧ (i 1).val < win0_10.index (pointOf (i 0).val hi0) (1 : Fin 2) * 128 + 128
    omega

theorem cover11 (i : S262144x128.Idx) :
    ∃ t : Fin cfg0.N, (cfg0.win 11).flush t = true ∧ i ∈ ((cfg0.win 11).blk t).view.set := by
  have hi0 : (i 0).val < 262144 := (i 0).isLt
  have hi1 : (i 1).val < 128 := (i 1).isLt
  obtain ⟨-, -, -, -, -, -, -, -, -, -, -, ⟨e0, e1⟩, -⟩ := idx_facts (pointOf (i 0).val hi0)
  have ht : (pointOf (i 0).val hi0).val = (i 0).val / 2048 := rfl
  refine ⟨pointOf (i 0).val hi0, flush0_11 _, (mem_blk11 _ i).2 fun a => ?_⟩
  match a with
  | ⟨0, _⟩ =>
    show win0_11.index (pointOf (i 0).val hi0) (0 : Fin 2) * 2048 ≤ (i 0).val
      ∧ (i 0).val < win0_11.index (pointOf (i 0).val hi0) (0 : Fin 2) * 2048 + 2048
    omega
  | ⟨1, _⟩ =>
    show win0_11.index (pointOf (i 0).val hi0) (1 : Fin 2) * 128 ≤ (i 1).val
      ∧ (i 1).val < win0_11.index (pointOf (i 0).val hi0) (1 : Fin 2) * 128 + 128
    omega

theorem cover12 (i : S262144x3.Idx) :
    ∃ t : Fin cfg0.N, (cfg0.win 12).flush t = true ∧ i ∈ ((cfg0.win 12).blk t).view.set := by
  have hi0 : (i 0).val < 262144 := (i 0).isLt
  have hi1 : (i 1).val < 3 := (i 1).isLt
  obtain ⟨-, -, -, -, -, -, -, -, -, -, -, -, e0, e1⟩ := idx_facts (pointOf (i 0).val hi0)
  have ht : (pointOf (i 0).val hi0).val = (i 0).val / 2048 := rfl
  refine ⟨pointOf (i 0).val hi0, flush0_12 _, (mem_blk12 _ i).2 fun a => ?_⟩
  match a with
  | ⟨0, _⟩ =>
    show win0_12.index (pointOf (i 0).val hi0) (0 : Fin 2) * 2048 ≤ (i 0).val
      ∧ (i 0).val < win0_12.index (pointOf (i 0).val hi0) (0 : Fin 2) * 2048 + 2048
    omega
  | ⟨1, _⟩ =>
    show win0_12.index (pointOf (i 0).val hi0) (1 : Fin 2) * 3 ≤ (i 1).val
      ∧ (i 1).val < win0_12.index (pointOf (i 0).val hi0) (1 : Fin 2) * 3 + 3
    omega

/-! ## The output arrays after the run -/

theorem final10 (c : Dev nD) : (dats m 0 c).arrAt 10 cfg0.N = GH (argsK m c) :=
  (dats m 0 c).arrAt_eq_of_cover 10 (GH (argsK m c)) (fun t _ => flushed10_eq m c t) cover10
theorem final11 (c : Dev nD) : (dats m 0 c).arrAt 11 cfg0.N = GC (argsK m c) :=
  (dats m 0 c).arrAt_eq_of_cover 11 (GC (argsK m c)) (fun t _ => flushed11_eq m c t) cover11
theorem final12 (c : Dev nD) : (dats m 0 c).arrAt 12 cfg0.N = GP (argsK m c) :=
  (dats m 0 c).arrAt_eq_of_cover 12 (GP (argsK m c)) (fun t _ => flushed12_eq m c t) cover12

end Cert.KernelIdeal.Hand

end
-- ==== Proof.KRun.lean ====
/-
  The kernel's run with its five results named.

  The frame run ends with every output array at what the library computes from the proof data, and every buffer the
  lines after the region write at those lines' value. The first two results are output arrays themselves, so they end
  as the specification's new hidden and new cell state. The other three are cut by the lines after the region out of
  the third output array, which holds the three scalar results side by side: column 0, 1, 2 of it. The twelve
  argument arrays end as launched: three of them are staged inputs, which the pipeline only reads, and nothing before,
  in or after the region writes the other nine.
-/
import proofs.«172531_j18416819765876_1_alg».proof.Proof.KValue
import proofs.«172531_j18416819765876_1_alg».proof.Proof.KIFrame

set_option maxRecDepth 16384

noncomputable section

namespace Cert.KernelIdeal.Hand

open Cert.KernelIdeal Cert.KernelIdeal.Gen Cert.KernelIdeal.Frame Cert.KernelIdeal.Pay Cert.SkipCell
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-- The third output array as the lines after the region find it. -/
theorem packed_after (c : Dev nD) :
    Pipeline.withArrays (cfgs 0).spec c (V0 m c) (fun w => (dats m 0 c).arrAt w (cfgs 0).N) (Proc.devRef .tc main_v9_2)
      = GP (argsK m c) :=
  (Pipeline.withArrays_arr spec0 launch0.win.arr_inj c _ _ 12).trans (final12 m c)

/-- Column k of the packed array, as a one-column array. -/
theorem col0 (A : Args) : extractStridedSlice S262144x1 ![0, 0] (GP A) slices_S262144x3_S262144x1_0_0 = GU A := by
  funext i
  obtain ⟨r, u, rfl⟩ : ∃ (r : Fin 262144) (u : Fin 1), i = ix2 r u := ⟨i 0, i 1, eq_ix2 i⟩
  refine (slice2_axis1_apply 0 (GP A) slices_S262144x3_S262144x1_0_0 r u 0 (by have := u.isLt; omega)).trans ?_
  exact if_pos rfl
theorem col1 (A : Args) : extractStridedSlice S262144x1 ![0, 1] (GP A) slices_S262144x3_S262144x1_0_1 = GD A := by
  funext i
  obtain ⟨r, u, rfl⟩ : ∃ (r : Fin 262144) (u : Fin 1), i = ix2 r u := ⟨i 0, i 1, eq_ix2 i⟩
  refine (slice2_axis1_apply 1 (GP A) slices_S262144x3_S262144x1_0_1 r u 1 (by have := u.isLt; omega)).trans ?_
  exact (if_neg (show ¬((1 : Fin 3).val = 0) by decide)).trans (if_pos rfl)
theorem col2 (A : Args) : extractStridedSlice S262144x1 ![0, 2] (GP A) slices_S262144x3_S262144x1_0_2 = GN A := by
  funext i
  obtain ⟨r, u, rfl⟩ : ∃ (r : Fin 262144) (u : Fin 1), i = ix2 r u := ⟨i 0, i 1, eq_ix2 i⟩
  refine (slice2_axis1_apply 2 (GP A) slices_S262144x3_S262144x1_0_2 r u 2 (by have := u.isLt; omega)).trans ?_
  exact (if_neg (show ¬((2 : Fin 3).val = 0) by decide)).trans (if_neg (show ¬((2 : Fin 3).val = 1) by decide))

/-- What the three lines after the region leave in their result buffers. -/
theorem tail_v10 (c : Dev nD) : Pipeline.afterTail₀ cfgs (dats m) 0 (V0 m) [hostOps1] c main_v10 = GU (argsK m c) := by
  unfold Pipeline.afterTail₀
  show StableHlo.after hostOps1 _ (Proc.devRef .tc main_v10) = _
  after_results
  rw [packed_after]
  exact col0 _
theorem tail_v11 (c : Dev nD) : Pipeline.afterTail₀ cfgs (dats m) 0 (V0 m) [hostOps1] c main_v11 = GD (argsK m c) := by
  unfold Pipeline.afterTail₀
  show StableHlo.after hostOps1 _ (Proc.devRef .tc main_v11) = _
  after_results
  rw [packed_after]
  exact col1 _
theorem tail_v12 (c : Dev nD) : Pipeline.afterTail₀ cfgs (dats m) 0 (V0 m) [hostOps1] c main_v12 = GN (argsK m c) := by
  unfold Pipeline.afterTail₀
  show StableHlo.after hostOps1 _ (Proc.devRef .tc main_v12) = _
  after_results
  rw [packed_after]
  exact col2 _

/-- Every weakly fair execution of the idealized kernel terminates, its five results the specification's arrays of the
    arguments as launched, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v10) = GU (argsK m c)
      ∧ r.2.mem ((c.tc : Thread nD τ).loc main_v9_0) = GH (argsK m c)
      ∧ r.2.mem ((c.tc : Thread nD τ).loc main_v9_1) = GC (argsK m c)
      ∧ r.2.mem ((c.tc : Thread nD τ).loc main_v11) = GD (argsK m c)
      ∧ r.2.mem ((c.tc : Thread nD τ).loc main_v12) = GN (argsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨hw, hb⟩ := h c
    exact ⟨(hb main_v10 (Pipeline.mem_restRefs_of main_v10 (by decide) (by decide))).trans (tail_v10 m c),
      (hw 10).trans (final10 m c),
      (hw 11).trans (final11 m c),
      (hb main_v11 (Pipeline.mem_restRefs_of main_v11 (by decide) (by decide))).trans (tail_v11 m c),
      (hb main_v12 (Pipeline.mem_restRefs_of main_v12 (by decide) (by decide))).trans (tail_v12 m c),
      (hw 0).trans ((((dats m 0 c).arrAt_in 0 rfl _).trans (A_eq m c 0)).trans (V_x m c)),
      (hb main_arg1 (Pipeline.mem_restRefs_of main_arg1 (by decide) (by decide))).trans (W_main_arg1 m (dats m) c),
      (hw 1).trans ((((dats m 0 c).arrAt_in 1 rfl _).trans (A_eq m c 1)).trans (V_h m c)),
      (hw 2).trans ((((dats m 0 c).arrAt_in 2 rfl _).trans (A_eq m c 2)).trans (V_c m c)),
      (hb main_arg4 (Pipeline.mem_restRefs_of main_arg4 (by decide) (by decide))).trans (W_main_arg4 m (dats m) c),
      (hb main_arg5 (Pipeline.mem_restRefs_of main_arg5 (by decide) (by decide))).trans (W_main_arg5 m (dats m) c),
      (hb main_arg6 (Pipeline.mem_restRefs_of main_arg6 (by decide) (by decide))).trans (W_main_arg6 m (dats m) c),
      (hb main_arg7 (Pipeline.mem_restRefs_of main_arg7 (by decide) (by decide))).trans (W_main_arg7 m (dats m) c),
      (hb main_arg8 (Pipeline.mem_restRefs_of main_arg8 (by decide) (by decide))).trans (W_main_arg8 m (dats m) c),
      (hb main_arg9 (Pipeline.mem_restRefs_of main_arg9 (by decide) (by decide))).trans (W_main_arg9 m (dats m) c),
      (hb main_arg10 (Pipeline.mem_restRefs_of main_arg10 (by decide) (by decide))).trans (W_main_arg10 m (dats m) c),
      (hb main_arg11 (Pipeline.mem_restRefs_of main_arg11 (by decide) (by decide))).trans (W_main_arg11 m (dats m) c)⟩)
    (run_main m ρ)

end Cert.KernelIdeal.Hand

end
-- ==== Proof.lean ====
/-
  The certificate of the skip-gated LSTM cell: the kernel against the reference, at the ideal instance.

  Both programs take a batch of 262144 rows. One row r carries an LSTM cell followed by a skip gate: with the
  stacked pre-activations  pre r o = ((x_r · W_ih o + b_ih o) + h_r · W_hh o) + b_hh o  (o < 512, the four gates
  at o = j, 128 + j, 256 + j, 384 + j), the cell is  nc = σ(pre₁)·c + σ(pre₀)·tanh(pre₂),  nh = σ(pre₃)·tanh(nc),
  σ z = 1 / (1 + e^(-z)); the rounded gate  bu = roundeven(u)  scales the fresh state (nh·bu, nc·bu), the update
  value is  σ(nc·bu · lin_w + lin_b),  the complement  1 - bu  scales the carried state and  clip(u + δu, 0, 1),
  the row's mask bit chooses between carried and fresh, and the last result is ⌈½ / new_u⌉ - 1. The five arrays
  GU, GH, GC, GD, GN of the specification (Proof/Spec.lean) are these, index by index, on the extended reals.

  The five conjuncts of the claim:
  * the kernel as printed, the kernel at the ideal instance and the reference at the ideal instance each run —
    every weakly fair execution terminates, nothing faults — and leave their twelve argument arrays unchanged;
  * the idealized kernel is the printed kernel's own text read at the ideal instance: no operation was rewritten,
    so there is nothing to preserve;
  * from memories that agree on the twelve arguments, and under the precondition that every float argument is
    finite, the idealized kernel and the idealized reference end with the same five result arrays.

  The last one is proved through the specification: the kernel's run leaves GU … GN of its own arguments, and so
  does the reference's. For the reference each result's composed term is read one operation at a time
  (Proof/RefSpec.lean). One law needs the precondition: the reference forms the rounded gate as the
  straight-through estimate  u + (roundeven u - u),  which is  roundeven u  exactly when u is a real number — on
  the extended reals ∞ - ∞ would intervene — and the precondition's conjunct  |u| < +∞  makes every row's u real
  (Proof/Finite.lean). The other laws hold for all extended reals: a choice by the mask bit is a choice, the
  float word of 1.0 denotes 1, that of 0.0 denotes 0.
-/
import proofs.«172531_j18416819765876_1_alg».proof.Defs
import proofs.«172531_j18416819765876_1_alg».proof.Proof.Gen.Kernel
import proofs.«172531_j18416819765876_1_alg».proof.Proof.Gen.Kernel.Skeleton
import proofs.«172531_j18416819765876_1_alg».proof.Proof.Gen.Kernel.Launch
import proofs.«172531_j18416819765876_1_alg».proof.Proof.Gen.Kernel.Points
import proofs.«172531_j18416819765876_1_alg».proof.Proof.Gen.KernelIdeal
import proofs.«172531_j18416819765876_1_alg».proof.Proof.Gen.KernelIdeal.Skeleton
import proofs.«172531_j18416819765876_1_alg».proof.Proof.Gen.KernelIdeal.Launch
import proofs.«172531_j18416819765876_1_alg».proof.Proof.Gen.KernelIdeal.Points
import proofs.«172531_j18416819765876_1_alg».proof.Proof.Gen.ReferenceIdeal
import proofs.«172531_j18416819765876_1_alg».proof.Proof.Gen.Pre_finite_inputs
import proofs.«172531_j18416819765876_1_alg».proof.Proof.Gen.ReferenceIdeal.Read
import proofs.«172531_j18416819765876_1_alg».proof.Proof.Spec
import proofs.«172531_j18416819765876_1_alg».proof.Proof.RefSpec
import proofs.«172531_j18416819765876_1_alg».proof.Proof.Finite
import proofs.«172531_j18416819765876_1_alg».proof.Proof.KFrame
import proofs.«172531_j18416819765876_1_alg».proof.Proof.KIFrame
import proofs.«172531_j18416819765876_1_alg».proof.Proof.KInputs
import proofs.«172531_j18416819765876_1_alg».proof.Proof.KRun
import Idealize.ShloMosaic.Adequacy
import Idealize.ShloMosaic.Init

noncomputable section

namespace Cert.Proof

open Idealize.ShloMosaic Idealize.ShloMosaic.TcCoe Idealize.ShloMosaic.ValueIdx Idealize.SL.Sem
open Cert.SkipCell Cert.ReferenceIdeal.RefValue

/-! ## The reference ends at the specification's arrays of its own arguments -/

/-- The reference's twelve argument arrays on device c, as the specification's argument record. -/
def argsR (m' : (ℓ : Loc Cert.ReferenceIdeal.nD Cert.ReferenceIdeal.τ Cert.ReferenceIdeal.sig) → Buf (Elt Ideal) ℓ)
    (c : Dev Cert.ReferenceIdeal.nD) : Args :=
  argsOf (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))

/-- Where every row's u is real, the reference's run leaves GU, GH, GC, GD, GN of its arguments in its five
    results, and the arguments unchanged: each result's composed term is the last stage of the program read one
    operation at a time, and that stage is the specification's array. -/
theorem ref_run (m' : (ℓ : Loc Cert.ReferenceIdeal.nD Cert.ReferenceIdeal.τ Cert.ReferenceIdeal.sig) → Buf (Elt Ideal) ℓ)
    (ρ' : Dev Cert.ReferenceIdeal.nD → PrngReg)
    (hU : ∀ (c : Dev Cert.ReferenceIdeal.nD) (r : Fin 262144), ∃ y : ℝ,
      m' ((c.tc : Thread Cert.ReferenceIdeal.nD Cert.ReferenceIdeal.τ).loc Cert.ReferenceIdeal.main_arg1) (ix2 r 0) = (y : EReal)) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v68) = GU (argsR m' c)
      ∧ r.2.mem ((c.tc : Thread Cert.ReferenceIdeal.nD Cert.ReferenceIdeal.τ).loc Cert.ReferenceIdeal.main_v69) = GH (argsR m' c)
      ∧ r.2.mem ((c.tc : Thread Cert.ReferenceIdeal.nD Cert.ReferenceIdeal.τ).loc Cert.ReferenceIdeal.main_v70) = GC (argsR m' c)
      ∧ r.2.mem ((c.tc : Thread Cert.ReferenceIdeal.nD Cert.ReferenceIdeal.τ).loc Cert.ReferenceIdeal.main_v71) = GD (argsR m' c)
      ∧ r.2.mem ((c.tc : Thread Cert.ReferenceIdeal.nD Cert.ReferenceIdeal.τ).loc Cert.ReferenceIdeal.main_v76) = GN (argsR m' c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)) :=
  (θ_run Cert.ReferenceIdeal.defs _ _).mono (fun _ h c => by
    obtain ⟨h0, h1, h2, h3, h4, hargs⟩ := h c
    exact ⟨h0.trans ((Cert.ReferenceIdeal.Read.val_main_v68_eq m' c).trans (val_v68_eq_GU _ _ _ _ _ _ _ _ _ _ _ _ (hU c))),
      h1.trans ((Cert.ReferenceIdeal.Read.val_main_v69_eq m' c).trans (val_v69_eq_GH _ _ _ _ (m' ((c.tc : Thread Cert.ReferenceIdeal.nD Cert.ReferenceIdeal.τ).loc Cert.ReferenceIdeal.main_arg4)) _ _ _ _ _ (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (hU c))),
      h2.trans ((Cert.ReferenceIdeal.Read.val_main_v70_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))).trans
        (val_v70_eq_GC _ _ _ _ (m' ((c.tc : Thread Cert.ReferenceIdeal.nD Cert.ReferenceIdeal.τ).loc Cert.ReferenceIdeal.main_arg4)) _ _ _ _ _ (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (hU c))),
      h3.trans ((Cert.ReferenceIdeal.Read.val_main_v71_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans
        (val_v71_eq_GD _ _ _ _ _ _ _ _ _ _ _ _ (hU c))),
      h4.trans ((Cert.ReferenceIdeal.Read.val_main_v76_eq m' c).trans (val_v76_eq_GN _ _ _ _ _ _ _ _ _ _ _ _ (hU c))),
      hargs⟩)
    (Cert.ReferenceIdeal.Value.run (F := Ideal) m' ρ')

/-! ## The claims -/

/-- The printed kernel runs and leaves its arguments unchanged. -/
theorem frame_p : Cert.frame_Kernel := fun m ρ _ => Cert.Kernel.Frame.frame m ρ

/-- So does the kernel at the ideal instance. -/
theorem frame_pi : Cert.frame_KernelIdeal := fun m ρ _ => Cert.KernelIdeal.Frame.frame m ρ

/-- So does the reference: its run's post without the five results. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- From memories that agree on the arguments, all of them finite, the kernel and the reference end with the same
    five arrays: GU, GH, GC, GD, GN of the kernel's arguments. The kernel's run leaves them; the reference's leaves
    those of its own arguments, which are the kernel's; and u is real in every row because |u| < +∞ there. -/
theorem algebraic : Cert.algebraic_KernelIdeal_ReferenceIdeal := by
  intro m ρ m' ρ' hpre hagree
  have hU : ∀ (c : Dev Cert.ReferenceIdeal.nD) (r : Fin 262144), ∃ y : ℝ,
      m' ((c.tc : Thread Cert.ReferenceIdeal.nD Cert.ReferenceIdeal.τ).loc Cert.ReferenceIdeal.main_arg1) (ix2 r 0) = (y : EReal) := by
    intro c r
    obtain ⟨y, hy⟩ := Cert.Finite.u_real m hpre c r
    exact ⟨y, (congrFun (hagree c).2.1 (ix2 r 0)).trans hy⟩
  have hA : ∀ c : Dev Cert.ReferenceIdeal.nD, argsR m' c = Cert.KernelIdeal.Hand.argsK m c := by
    intro c
    obtain ⟨e0, e1, e2, e3, e4, e5, e6, e7, e8, e9, e10, e11⟩ := hagree c
    unfold argsR argsOf Cert.KernelIdeal.Hand.argsK
    rw [e0, e1, e2, e3, e4, e5, e6, e7, e8, e9, e10, e11]
  refine ⟨fun c => GU (Cert.KernelIdeal.Hand.argsK m c), fun c => GH (Cert.KernelIdeal.Hand.argsK m c),
    fun c => GC (Cert.KernelIdeal.Hand.argsK m c), fun c => GD (Cert.KernelIdeal.Hand.argsK m c),
    fun c => GN (Cert.KernelIdeal.Hand.argsK m c), Cert.KernelIdeal.Hand.run m ρ, ?_⟩
  refine (θ_run Cert.ReferenceIdeal.defs _ _).mono (fun _ h c => ?_) (ref_run m' ρ' hU)
  have hc := h c
  rw [hA c] at hc
  exact hc

theorem claim : Cert.Claim := ⟨Cert.Kernel.Gen.facts, Cert.KernelIdeal.Gen.facts, Cert.ReferenceIdeal.Gen.facts,
  Cert.Pre_finite_inputs.Gen.facts, frame_p, frame_pi, frame_ri, trivial, algebraic⟩

end Cert.Proof

end
